-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : FVec F S64x128 .f32) (main_arg2 : FVec F S128 .f32) (main_arg3 : FVec F S128x64 .f32) (main_arg4 : FVec F S64 .f32) (main_arg5 : FVec F S64 .f32) (main_arg6 : FVec F S64 .f32) (main_arg7 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x64 : Shape := ⟨2, ![10000, 64]⟩
abbrev S10000x128 : Shape := ⟨2, ![10000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 104
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S64x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S1x64, .f32⟩
  | .hbm, ⟨93, _⟩ => ⟨S_, .f32⟩
  | .hbm, ⟨94, _⟩ => ⟨S1x64, .f32⟩
  | .hbm, ⟨95, _⟩ => ⟨S1x64, .f32⟩
  | .hbm, ⟨96, _⟩ => ⟨S_, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66_0 : Ref sig .tc := ⟨.hbm, 91, rfl⟩
abbrev main_v66_1 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_scratch0 : Ref sig .tc := ⟨.vmem, 14, rfl⟩
abbrev cc2_scratch1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem5_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S10000x64_S10000x64 : S10000x64.ShapeCasts S10000x64
  reduces_S10000x64_S64 : S10000x64.Reduces [0] S64
  shapeCasts_S64_S1x64 : S64.ShapeCasts S1x64
  bcast_S_S1x64 : S_.BroadcastsInDim S1x64 (![] : Fin 0 → Fin S1x64.rank)
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x128_S10000x128_1_0_0_1_n_n_wf : DotDims.WF S10000x64 S64x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66_0) S1x64.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66_1) S1x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun i => !(k2_cond2 i == 1#1) | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v65) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v75) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S100000x64, .f32⟩
  | 1 => ⟨S64x128, .f32⟩
  | 2 => ⟨S128, .f32⟩
  | 3 => ⟨S128x64, .f32⟩
  | 4 => ⟨S64, .f32⟩
  | 5 => ⟨S64, .f32⟩
  | 6 => ⟨S64, .f32⟩
  | 7 => ⟨S2x1600000, .i32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S100000x64, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x64, .f32⟩
  | 81 => ⟨S1700000x1, .f32⟩
  | 82 => ⟨S1700000x64, .f32⟩
  | 83 => ⟨S1700000x64, .f32⟩
  | 84 => ⟨S_, .f32⟩
  | 85 => ⟨S100000x64, .f32⟩
  | 86 => ⟨S1700000x1, .i32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S100000x64, .f32⟩
  | 104 => ⟨S100000x64, .f32⟩
  | 105 => ⟨S100000x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S1x64, .f32⟩
  | 120 => ⟨S100000x64, .f32⟩
  | 121 => ⟨S100000x64, .f32⟩
  | 122 => ⟨S_, .f32⟩
  | 123 => ⟨S64, .f32⟩
  | 124 => ⟨S64, .f32⟩
  | 125 => ⟨S64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_cst_0 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_cst_1 : Ref sig .tc := ⟨.hbm, 107, rfl⟩
abbrev main_call1_v8 : Ref sig .tc := ⟨.hbm, 108, rfl⟩
abbrev main_call1_cst_2 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_call1_cst_3 : Ref sig .tc := ⟨.hbm, 113, rfl⟩
abbrev main_call1_v12 : Ref sig .tc := ⟨.hbm, 114, rfl⟩
abbrev main_call1_cst_4 : Ref sig .tc := ⟨.hbm, 115, rfl⟩
abbrev main_call1_call0_v0 : Ref sig .tc := ⟨.hbm, 116, rfl⟩
abbrev main_call1_call0_v1 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_16 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Bits.Linear0.lean ====
/-
  The first linear map, one block of rows at a time.

  Region 0 runs over ten grid points. At point `t` its body reads rows 10000·t … 10000·t + 9999 of the
  embedding table (a 10000 × 64 block), reads the whole 64 × 128 weight matrix, multiplies them on the matrix unit into
  a zero accumulator and stores the 10000 × 128 product as the block of the same rows of the result. The body reads
  nothing else and keeps nothing between points, so what it leaves in the result's staging buffer is a function
  of the two blocks it was handed: `product` below. Everything here is stated for any float instance.
-/
import proofs.«107830_j10685878632725_1_alg».proof.Proof.Gen.Kernel.Launch
import proofs.«107830_j10685878632725_1_alg».proof.Proof.Gen.Kernel.Skeleton
import proofs.«107830_j10685878632725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Linear0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each of the three staging buffers, as the rectangle the body's loads and its store name. -/
abbrev wholeX : Rect S10000x64 := Rect.unit (s := S10000x64) ![0, 0] S10000x64.size inb_S10000x64_S10000x64_0_0
abbrev wholeW : Rect S64x128 := Rect.unit (s := S64x128) ![0, 0] S64x128.size inb_S64x128_S64x128_0_0
abbrev wholeO : Rect S10000x128 := Rect.unit (s := S10000x128) ![0, 0] S10000x128.size inb_S10000x128_S10000x128_0_0

/-- What the body leaves in the result's staging buffer: its one store, of the product of the row block `x`
    with the weights `w`, over the whole buffer. -/
def product (x : Vec F S10000x64 .f32) (w : Vec F S64x128 .f32) : Vec F S10000x128 .f32 :=
  View.canon [⟨wholeO, k0_pay1 (View.ld x wholeX) (View.ld w wholeW)⟩]

/-- The one store covers every entry of the buffer. -/
theorem product_cover (p : Vec F S10000x128 .f32) (y : S10000x128.Idx) :
    ∃ pc ∈ ([⟨wholeO, p⟩] : List (View.Piece (Elt F) S10000x128 .f32)), y ∈ pc.1.set :=
  View.cover_of_tiled [⟨wholeO, p⟩] S10000x128.size (by rfl) y

set_option maxHeartbeats 1000000 in
/-- The body on whole staging buffers: from the row block at `x`, the weights at `w` and the result's buffer at
    anything, it runs to its continuation with the two inputs as they were and the result's buffer at
    `product x w`. -/
theorem body_triple (c : Dev nD) (E : Set ℕ) (i : grid0.Coords)
    (a1 : Memref sig .tc .vmem S10000x64 .f32) (h1 : a1.IsWhole) (a2 : Memref sig .tc .vmem S64x128 .f32) (h2 : a2.IsWhole)
    (a3 : Memref sig .tc .vmem S10000x128 .f32) (h3 : a3.IsWhole)
    (x : Vec F S10000x64 .f32) (w : Vec F S64x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (product x w)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_cover _)

/-! ## The region's proof data, at the contents `V` it is entered with -/

section AtEntry

variable (V : (c : Dev nD) → (b : Ref sig .tc) → Buf (Elt F) ((c : Thread nD τ).loc b))

/-- Window `w`'s block at point `t`, read off its array as the region finds it. For the table this is the
    block of rows 10000·t …; for the weights it is the whole matrix at every point. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The table's current staging buffer holds its row block at every point (it is fetched at every point), for any
    proof data over the entry contents whose body leaves that buffer as it found it. -/
theorem rows_held {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights' staging buffer holds the whole matrix at every point: fetched at the first point, and at a later
    point its block index has not moved, so the buffer still holds what that fetch brought. -/
theorem weights_held {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The proof data of region 0 on core `c`: the arrays as the region finds them; after the body at point `t` the
    two inputs' buffers still at their blocks and the result's buffer at the product of those blocks; between points
    only what every body may use unseen (scratch it does not have, the generator register); nothing owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => product (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weights (c : Dev nD) (t : Fin cfg0.N) : (dat V c).after 1 t = blockAt V c 1 t := by dsimp only [dat]
theorem after_product (c : Dev nD) (t : Fin cfg0.N) :
    (dat V c).after 2 t = product (blockAt V c 0 t) (blockAt V c 1 t) := by dsimp only [dat]

theorem before_rows (c : Dev nD) (t : Fin cfg0.N) (d) : (dat V c).before 0 t d = blockAt V c 0 t :=
  rows_held V (dat V c) (dat_A V c 0) (after_rows V c) t d
theorem before_weights (c : Dev nD) (t : Fin cfg0.N) (d) : (dat V c).before 1 t d = blockAt V c 1 t :=
  weights_held V (dat V c) (dat_A V c 1) (after_weights V c) t d

/-- What the body is handed at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the two inputs' buffers hold their blocks, so the triple applies; the invariant and
    what the core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weights]
  rw [show (dat V c).Φ t.succ = (dat V c).Φ t.castSucc from rfl,
    show (dat V c).owesAt () t.succ = (dat V c).owesAt () t.castSucc from rfl,
    after_rows, after_weights, after_product]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation (c : Dev nD) : BodyObligation (dat (F := F) V c) (defs₀ (F := F)) Variants.none () Set.univ := fun t => by
  rw [bigSep_W0, bigSep_W0]
  exact body_at V c t

end AtEntry

end Cert.Kernel.Linear0

end
-- ==== Proof.Bits.Linear1.lean ====
/-
  The second linear map, one block of rows at a time.

  Region 1 runs over ten grid points. At point `t` its body reads rows 10000·t … 10000·t + 9999 of the
  hidden layer (a 10000 × 128 block), reads the whole 128 × 64 weight matrix, multiplies them on the matrix unit into
  a zero accumulator and stores the 10000 × 64 product as the block of the same rows of the result. The body reads
  nothing else and keeps nothing between points, so what it leaves in the result's staging buffer is a function
  of the two blocks it was handed: `product` below. Everything here is stated for any float instance.
-/
import proofs.«107830_j10685878632725_1_alg».proof.Proof.Gen.Kernel.Launch
import proofs.«107830_j10685878632725_1_alg».proof.Proof.Gen.Kernel.Skeleton
import proofs.«107830_j10685878632725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Linear1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each of the three staging buffers, as the rectangle the body's loads and its store name. -/
abbrev wholeX : Rect S10000x128 := Rect.unit (s := S10000x128) ![0, 0] S10000x128.size inb_S10000x128_S10000x128_0_0
abbrev wholeW : Rect S128x64 := Rect.unit (s := S128x64) ![0, 0] S128x64.size inb_S128x64_S128x64_0_0
abbrev wholeO : Rect S10000x64 := Rect.unit (s := S10000x64) ![0, 0] S10000x64.size inb_S10000x64_S10000x64_0_0

/-- What the body leaves in the result's staging buffer: its one store, of the product of the row block `x`
    with the weights `w`, over the whole buffer. -/
def product (x : Vec F S10000x128 .f32) (w : Vec F S128x64 .f32) : Vec F S10000x64 .f32 :=
  View.canon [⟨wholeO, k1_pay1 (View.ld x wholeX) (View.ld w wholeW)⟩]

/-- The one store covers every entry of the buffer. -/
theorem product_cover (p : Vec F S10000x64 .f32) (y : S10000x64.Idx) :
    ∃ pc ∈ ([⟨wholeO, p⟩] : List (View.Piece (Elt F) S10000x64 .f32)), y ∈ pc.1.set :=
  View.cover_of_tiled [⟨wholeO, p⟩] S10000x64.size (by rfl) y

set_option maxHeartbeats 1000000 in
/-- The body on whole staging buffers: from the row block at `x`, the weights at `w` and the result's buffer at
    anything, it runs to its continuation with the two inputs as they were and the result's buffer at
    `product x w`. -/
theorem body_triple (c : Dev nD) (E : Set ℕ) (i : grid1.Coords)
    (a1 : Memref sig .tc .vmem S10000x128 .f32) (h1 : a1.IsWhole) (a2 : Memref sig .tc .vmem S128x64 .f32) (h2 : a2.IsWhole)
    (a3 : Memref sig .tc .vmem S10000x64 .f32) (h3 : a3.IsWhole)
    (x : Vec F S10000x128 .f32) (w : Vec F S128x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (product x w)) -∗ K ⟨⟩))
      ⊢ wp frame (wpE (defs₀ (F := F)) Variants.none c none) E (cc1__linear_kernel i a1 h1 a2 h2 a3 h3) K := by
  simp only [cc1__linear_kernel_eq_skeleton]; unfold cc1__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_cover _)

/-! ## The region's proof data, at the contents `V` it is entered with -/

section AtEntry

variable (V : (c : Dev nD) → (b : Ref sig .tc) → Buf (Elt F) ((c : Thread nD τ).loc b))

/-- Window `w`'s block at point `t`, read off its array as the region finds it. For the hidden layer this is the
    block of rows 10000·t …; for the weights it is the whole matrix at every point. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden layer's current staging buffer holds its row block at every point (it is fetched at every point), for any
    proof data over the entry contents whose body leaves that buffer as it found it. -/
theorem rows_held {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights' staging buffer holds the whole matrix at every point: fetched at the first point, and at a later
    point its block index has not moved, so the buffer still holds what that fetch brought. -/
theorem weights_held {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The proof data of region 1 on core `c`: the arrays as the region finds them; after the body at point `t` the
    two inputs' buffers still at their blocks and the result's buffer at the product of those blocks; between points
    only what every body may use unseen (scratch it does not have, the generator register); nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => product (blockAt V c 0 t) (blockAt V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem after_rows (c : Dev nD) (t : Fin cfg1.N) : (dat V c).after 0 t = blockAt V c 0 t := by dsimp only [dat]
theorem after_weights (c : Dev nD) (t : Fin cfg1.N) : (dat V c).after 1 t = blockAt V c 1 t := by dsimp only [dat]
theorem after_product (c : Dev nD) (t : Fin cfg1.N) :
    (dat V c).after 2 t = product (blockAt V c 0 t) (blockAt V c 1 t) := by dsimp only [dat]

theorem before_rows (c : Dev nD) (t : Fin cfg1.N) (d) : (dat V c).before 0 t d = blockAt V c 0 t :=
  rows_held V (dat V c) (dat_A V c 0) (after_rows V c) t d
theorem before_weights (c : Dev nD) (t : Fin cfg1.N) (d) : (dat V c).before 1 t d = blockAt V c 1 t :=
  weights_held V (dat V c) (dat_A V c 1) (after_weights V c) t d

/-- What the body is handed at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the two inputs' buffers hold their blocks, so the triple applies; the invariant and
    what the core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_weights]
  rw [show (dat V c).Φ t.succ = (dat V c).Φ t.castSucc from rfl,
    show (dat V c).owesAt () t.succ = (dat V c).owesAt () t.castSucc from rfl,
    after_rows, after_weights, after_product]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation (c : Dev nD) : BodyObligation (dat (F := F) V c) (defs₀ (F := F)) Variants.none () Set.univ := fun t => by
  rw [bigSep_W1, bigSep_W1]
  exact body_at V c t

end AtEntry

end Cert.Kernel.Linear1

end
-- ==== Proof.Bits.Stats.lean ====
/-
  The batch statistics: column sums and column sums of squares, accumulated over the row blocks.

  Region 2 runs over ten grid points. At point `t` its body reads rows 10000·t … 10000·t + 9999 of the activations (a
  10000 × 64 block) and adds the block's column sums, and the column sums of its squares, onto two [1, 64] rows it
  keeps in scratch from point to point: the first point zeroes the two rows before adding, and the last point, after
  adding, copies them into the staging buffers of the two results, which are written back there and nowhere else.
  So what the scratch rows hold before point `t` is a fold over the blocks below `t` — `sumsUpTo`, `squaresUpTo`
  below —, the region's invariant says so, and the two results end at the fold over all ten blocks. Everything here
  is stated for any float instance.
-/
import proofs.«107830_j10685878632725_1_alg».proof.Proof.Gen.Kernel.Launch
import proofs.«107830_j10685878632725_1_alg».proof.Proof.Gen.Kernel.Skeleton
import proofs.«107830_j10685878632725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a row block's staging buffer and of a [1, 64] row, as the rectangles the body's loads and stores name. -/
abbrev wholeX : Rect S10000x64 := Rect.unit (s := S10000x64) ![0, 0] S10000x64.size inb_S10000x64_S10000x64_0_0
abbrev wholeR : Rect S1x64 := Rect.unit (s := S1x64) ![0, 0] S1x64.size inb_S1x64_S1x64_0_0

theorem hz : (![0, 0] : Fin 2 → Nat) = fun _ => 0 := funext fun a => by fin_cases a <;> rfl

/-- The first condition of the body (the grid coordinate is zero), as the body computes it. -/
abbrev cond1 (i : grid2.Coords) : Prop :=
  (Scalar.cmpi .ne (Scalar.extui (Scalar.cmpi .eq (BitVec.ofNat 32 (i 0).val) 0#32)) 0#32) = 1#1
/-- It holds at the first point only. -/
theorem hcond1 : ∀ t : Fin cfg2.N, cond1 (grid2.coords t) ↔ t.val = 0 :=
  (by decide +kernel : ∀ t : Fin grid2.N, cond1 (grid2.coords t) ↔ t.val = 0)
/-- The second condition (the grid coordinate is nine) holds at the last point only. -/
theorem hcond2 : ∀ t : Fin cfg2.N, k2_cond2 (grid2.coords t) = 1#1 ↔ t.val = 9 :=
  (by decide +kernel : ∀ t : Fin grid2.N, k2_cond2 (grid2.coords t) = 1#1 ↔ t.val = 9)

/-- One whole-row store, the last made, covers the row. -/
theorem row_cover (p : Vec F S1x64 .f32) (L : List (View.Piece (Elt F) S1x64 .f32)) (y : S1x64.Idx) :
    ∃ pc ∈ ((⟨wholeR, p⟩ :: L) : List (View.Piece (Elt F) S1x64 .f32)), y ∈ pc.1.set :=
  ⟨_, List.mem_cons_self, View.mem_set_unit_zero hz inb_S1x64_S1x64_0_0 y⟩

set_option maxHeartbeats 1000000 in
theorem body_first (c : Dev nD) (E : Set ℕ) (i : grid2.Coords) (hc1 : cond1 i) (hc2 : ¬ k2_cond2 i = 1#1)
    (a1 : Memref sig .tc .vmem S10000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole)
    (x : Vec F S10000x64 .f32)  (K : PUnit → sProp 𝕄) :
    iprop(owns (c : Thread nD τ) a1 fullShare x ∗ (∃ d, owns (c : Thread nD τ) a4 fullShare d) ∗ (∃ d, owns (c : Thread nD τ) a5 fullShare d)
        ∗ (iprop(owns (c : Thread nD τ) a1 fullShare x ∗ owns (c : Thread nD τ) a4 fullShare (k2_pay4 x (k2_pay1 (F := F)))
            ∗ owns (c : Thread nD τ) a5 fullShare (k2_pay5 x (k2_pay2 (F := F)))) -∗ K ⟨⟩))
      ⊢ wp frame (wpE (defs₀ (F := F)) Variants.none c none) E (cc2__stats_kernel i a1 h1 a2 h2 a3 h3 a4 h4 a5 h5) K := by
  simp only [cc2__stats_kernel_eq_skeleton]; unfold cc2__stats_kernel_skel
  unfold owns
  iintro ⟨⟨%f1, %hf1, H1⟩, ⟨%d4, %f4, -, H4⟩, ⟨%d5, %f5, -, H5⟩, Hk⟩
  subst hf1
  sl_exec (disch := first | exact hc1 | exact hc2)
  sl_step
  iapply Hk
  isplitl [H1]
  · iexists f1; isplitr; · ipureintro; rfl
    iexact H1
  isplitl [H4]
  · iexists _; isplitr
    swap; · iexact H4
    ipureintro
    sl_unfold_words
    rw [View.read_writes_eq_canon _ _ _ (row_cover _ _), View.canon_cons_unit_zero (S := S1x64) hz,
      View.readCov_unit_zero (S := S1x64) _ hz]
    simp only [View.readAt_eq_ld, View.ld_unit_zero (S := S10000x64) hz]
  iexists _; isplitr
  swap; · iexact H5
  ipureintro
  sl_unfold_words
  rw [View.read_writes_eq_canon _ _ _ (row_cover _ _), View.canon_cons_unit_zero (S := S1x64) hz,
    View.readCov_unit_zero (S := S1x64) _ hz]
  simp only [View.readAt_eq_ld, View.ld_unit_zero (S := S10000x64) hz]

set_option maxHeartbeats 1000000 in
theorem body_last (c : Dev nD) (E : Set ℕ) (i : grid2.Coords) (hc1 : ¬ cond1 i) (hc2 : k2_cond2 i = 1#1)
    (a1 : Memref sig .tc .vmem S10000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole)
    (x : Vec F S10000x64 .f32) (s q : Vec F S1x64 .f32) (K : PUnit → sProp 𝕄) :
    iprop(owns (c : Thread nD τ) a1 fullShare x ∗ (∃ d, owns (c : Thread nD τ) a2 fullShare d) ∗ (∃ d, owns (c : Thread nD τ) a3 fullShare d)
        ∗ owns (c : Thread nD τ) a4 fullShare s ∗ owns (c : Thread nD τ) a5 fullShare q
        ∗ (iprop(owns (c : Thread nD τ) a1 fullShare x ∗ owns (c : Thread nD τ) a2 fullShare (k2_pay4 x s)
            ∗ owns (c : Thread nD τ) a3 fullShare (k2_pay5 x q)
            ∗ owns (c : Thread nD τ) a4 fullShare (k2_pay4 x s) ∗ owns (c : Thread nD τ) a5 fullShare (k2_pay5 x q)) -∗ K ⟨⟩))
      ⊢ wp frame (wpE (defs₀ (F := F)) Variants.none c none) E (cc2__stats_kernel i a1 h1 a2 h2 a3 h3 a4 h4 a5 h5) K := by
  simp only [cc2__stats_kernel_eq_skeleton]; unfold cc2__stats_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec (disch := first | exact hc1 | exact hc2)
  sl_step
  iapply Hk
  isplitl [H1]
  · iexists f1; isplitr; · ipureintro; rfl
    iexact H1
  isplitl [H2]
  · iexists _; isplitr
    swap; · iexact H2
    ipureintro
    sl_unfold_words
    rw [View.read_writes_eq_canon _ _ _ (row_cover _ _), View.canon_unit_zero (S := S1x64) hz,
      View.readCov_unit_zero (S := S1x64) _ hz]
    simp only [View.readAt_eq_ld, View.ld_unit_zero (S := S10000x64) hz, View.ld_unit_zero (S := S1x64) hz]
  isplitl [H3]
  · iexists _; isplitr
    swap; · iexact H3
    ipureintro
    sl_unfold_words
    rw [View.read_writes_eq_canon _ _ _ (row_cover _ _), View.canon_unit_zero (S := S1x64) hz,
      View.readCov_unit_zero (S := S1x64) _ hz]
    simp only [View.readAt_eq_ld, View.ld_unit_zero (S := S10000x64) hz, View.ld_unit_zero (S := S1x64) hz]
  isplitl [H4]
  · iexists _; isplitr
    swap; · iexact H4
    ipureintro
    sl_unfold_words
    rw [View.read_writes_eq_canon _ _ _ (row_cover _ _), View.canon_unit_zero (S := S1x64) hz]
    simp only [View.readAt_eq_ld, View.ld_unit_zero (S := S10000x64) hz, View.ld_unit_zero (S := S1x64) hz]
  iexists _; isplitr
  swap; · iexact H5
  ipureintro
  sl_unfold_words
  rw [View.read_writes_eq_canon _ _ _ (row_cover _ _), View.canon_unit_zero (S := S1x64) hz]
  simp only [View.readAt_eq_ld, View.ld_unit_zero (S := S10000x64) hz, View.ld_unit_zero (S := S1x64) hz]

set_option maxHeartbeats 1000000 in
theorem body_mid (c : Dev nD) (E : Set ℕ) (i : grid2.Coords) (hc1 : ¬ cond1 i) (hc2 : ¬ k2_cond2 i = 1#1)
    (a1 : Memref sig .tc .vmem S10000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole)
    (x : Vec F S10000x64 .f32) (s q : Vec F S1x64 .f32) (K : PUnit → sProp 𝕄) :
    iprop(owns (c : Thread nD τ) a1 fullShare x ∗ owns (c : Thread nD τ) a4 fullShare s ∗ owns (c : Thread nD τ) a5 fullShare q
        ∗ (iprop(owns (c : Thread nD τ) a1 fullShare x ∗ owns (c : Thread nD τ) a4 fullShare (k2_pay4 x s)
            ∗ owns (c : Thread nD τ) a5 fullShare (k2_pay5 x q)) -∗ K ⟨⟩))
      ⊢ wp frame (wpE (defs₀ (F := F)) Variants.none c none) E (cc2__stats_kernel i a1 h1 a2 h2 a3 h3 a4 h4 a5 h5) K := by
  simp only [cc2__stats_kernel_eq_skeleton]; unfold cc2__stats_kernel_skel
  unfold owns
  iintro ⟨⟨%f1, %hf1, H1⟩, ⟨%f4, %hf4, H4⟩, ⟨%f5, %hf5, H5⟩, Hk⟩
  subst hf1; subst hf4; subst hf5
  sl_exec (disch := first | exact hc1 | exact hc2)
  sl_step
  iapply Hk
  isplitl [H1]
  · iexists f1; isplitr; · ipureintro; rfl
    iexact H1
  isplitl [H4]
  · iexists _; isplitr
    swap; · iexact H4
    ipureintro
    rw [View.read_writes_eq_canon _ _ _ (row_cover _ _), View.canon_unit_zero (S := S1x64) hz]
    simp only [View.readAt_eq_ld, View.ld_unit_zero (S := S10000x64) hz, View.ld_unit_zero (S := S1x64) hz]
  iexists _; isplitr
  swap; · iexact H5
  ipureintro
  rw [View.read_writes_eq_canon _ _ _ (row_cover _ _), View.canon_unit_zero (S := S1x64) hz]
  simp only [View.readAt_eq_ld, View.ld_unit_zero (S := S10000x64) hz, View.ld_unit_zero (S := S1x64) hz]

/-! ## The region's proof data, at the contents `V` it is entered with -/

section AtEntry

variable (V : (c : Dev nD) → (b : Ref sig .tc) → Buf (Elt F) ((c : Thread nD τ).loc b))

/-- Window `w`'s block at point `t`, read off its array as the region finds it: for window 0 the block of rows
    10000·t … of the activations. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running column sums after the first `n` row blocks: a row of zeros, then one accumulation step per block. -/
def sumsN (c : Dev nD) : ℕ → Vec F S1x64 .f32
  | 0 => k2_pay1
  | n + 1 => if h : n < cfg2.N then k2_pay4 (blockAt V c 0 ⟨n, h⟩) (sumsN c n) else sumsN c n
/-- The running column sums of squares after the first `n` row blocks. -/
def squaresN (c : Dev nD) : ℕ → Vec F S1x64 .f32
  | 0 => k2_pay2
  | n + 1 => if h : n < cfg2.N then k2_pay5 (blockAt V c 0 ⟨n, h⟩) (squaresN c n) else squaresN c n

/-- The running sums before point `t` (after the last point, at `Fin.last`: the sums over the whole array). -/
def sumsUpTo (c : Dev nD) (t : Fin (cfg2.N + 1)) : Vec F S1x64 .f32 := sumsN V c t.val
def squaresUpTo (c : Dev nD) (t : Fin (cfg2.N + 1)) : Vec F S1x64 .f32 := squaresN V c t.val

theorem sumsUpTo_of_zero (c : Dev nD) (t : Fin (cfg2.N + 1)) (h : t.val = 0) : sumsUpTo V c t = k2_pay1 := by
  unfold sumsUpTo; rw [h]; rfl
theorem squaresUpTo_of_zero (c : Dev nD) (t : Fin (cfg2.N + 1)) (h : t.val = 0) : squaresUpTo V c t = k2_pay2 := by
  unfold squaresUpTo; rw [h]; rfl
theorem sumsUpTo_succ (c : Dev nD) (t : Fin cfg2.N) :
    sumsUpTo V c t.succ = k2_pay4 (blockAt V c 0 t) (sumsUpTo V c t.castSucc) :=
  (dif_pos t.isLt).trans rfl
theorem squaresUpTo_succ (c : Dev nD) (t : Fin cfg2.N) :
    squaresUpTo V c t.succ = k2_pay5 (blockAt V c 0 t) (squaresUpTo V c t.castSucc) :=
  (dif_pos t.isLt).trans rfl

/-- What the region keeps between points: the two scratch rows — before the first point at anything (that point
    overwrites them), before a later point `t` at the running sums over the blocks below `t` —, every other scoped buffer
    that is no staging buffer of this region at some contents, and the generator register at some state. -/
def inv (c : Dev nD) (t : Fin (cfg2.N + 1)) : sProp 𝕄 :=
  iprop(∃ s : Vec F S1x64 .f32, ∃ q : Vec F S1x64 .f32, ⌜t.val ≠ 0 → s = sumsUpTo V c t ∧ q = squaresUpTo V c t⌝
    ∗ owns (c : Thread nD τ) (Memref.whole cc2_scratch0) fullShare s
    ∗ owns (c : Thread nD τ) (Memref.whole cc2_scratch1) fullShare q
    ∗ Pipeline.scopedRestBut (Ix := Unit) (Name := ℕ) (U := UR sig nD τ) (Lvl := ℕ) (Val := Elt F) spec2 c [cc2_scratch0, cc2_scratch1]
    ∗ ∃ r, prngReg c r)

/-- The proof data of region 2 on core `c`: the arrays as the region finds them; after the body at point `t` the
    row block's buffer still at its block and — where the body writes them, at the last point — the two results'
    buffers at the running sums over all blocks up to `t`; between points the invariant above; nothing owed. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => sumsUpTo V c t.succ
    | ⟨2, _⟩ => squaresUpTo V c t.succ
  Φ t := inv V c t
  q _ := fullShare
  owed _ := 0

theorem dat_A (c : Dev nD) (w : Fin cfg2.W) : (dat V c).A w = V c (Pipeline.arrRef spec2 w) := by
  dsimp only [dat]
theorem dat_Φ (c : Dev nD) (t : Fin (cfg2.N + 1)) : (dat V c).Φ t = inv V c t := by dsimp only [dat]

theorem after_rows (c : Dev nD) (t : Fin cfg2.N) : (dat V c).after 0 t = blockAt V c 0 t := by dsimp only [dat]
theorem after_sums (c : Dev nD) (t : Fin cfg2.N) : (dat V c).after 1 t = sumsUpTo V c t.succ := by dsimp only [dat]
theorem after_squares (c : Dev nD) (t : Fin cfg2.N) : (dat V c).after 2 t = squaresUpTo V c t.succ := by dsimp only [dat]

/-- The row block's current staging buffer holds its block at every point (it is fetched at every point). -/
theorem before_rows (c : Dev nD) (t : Fin cfg2.N) (d) : (dat V c).before 0 t d = blockAt V c 0 t :=
  ((dat V c).before_in_eq_fetched 0 rfl (fun _ => rfl) (fun _ _ _ => rfl)
      (fun t => by rw [after_rows]; unfold Dat.blockOf blockAt; rw [dat_A]; try rfl) t d).trans
    (by unfold Dat.fetched Dat.blockOf blockAt; rw [dat_A]; try rfl)

/-! ## Where the two results' windows are written -/

/-- Away from the last point the body stores nothing into the results' buffers, and nothing is written back. -/
theorem idle_sums (t : Fin cfg2.N) (h : t.val ≠ 9) : cfg2.idle 1 (cfg2.grid.coords t) = true := by
  have hc : ¬ k2_cond2 (grid2.coords t) = 1#1 := fun hc => h ((hcond2 t).mp hc)
  show (!(k2_cond2 (grid2.coords t) == 1#1)) = true
  rw [show (k2_cond2 (grid2.coords t) == 1#1) = false from beq_eq_false_iff_ne.mpr hc]; rfl
theorem idle_squares (t : Fin cfg2.N) (h : t.val ≠ 9) : cfg2.idle 2 (cfg2.grid.coords t) = true := by
  have hc : ¬ k2_cond2 (grid2.coords t) = 1#1 := fun hc => h ((hcond2 t).mp hc)
  show (!(k2_cond2 (grid2.coords t) == 1#1)) = true
  rw [show (k2_cond2 (grid2.coords t) == 1#1) = false from beq_eq_false_iff_ne.mpr hc]; rfl
theorem live_sums (t : Fin cfg2.N) (h : t.val = 9) : cfg2.idle 1 (cfg2.grid.coords t) = false := by
  have hc : k2_cond2 (grid2.coords t) = 1#1 := (hcond2 t).mpr h
  show (!(k2_cond2 (grid2.coords t) == 1#1)) = false
  simp only [hc, beq_self_eq_true, Bool.not_true]
theorem live_squares (t : Fin cfg2.N) (h : t.val = 9) : cfg2.idle 2 (cfg2.grid.coords t) = false := by
  have hc : k2_cond2 (grid2.coords t) = 1#1 := (hcond2 t).mpr h
  show (!(k2_cond2 (grid2.coords t) == 1#1)) = false
  simp only [hc, beq_self_eq_true, Bool.not_true]
theorem noflush_sums (t : Fin cfg2.N) (h : t.val ≠ 9) : (cfg2.win 1).flush t = false :=
  Bool.eq_false_iff.mpr fun hf => by
    have := (flush2_1 t).mp hf; have hN : t.val < 10 := lt_of_lt_of_eq t.isLt N_2; omega
theorem noflush_squares (t : Fin cfg2.N) (h : t.val ≠ 9) : (cfg2.win 2).flush t = false :=
  Bool.eq_false_iff.mpr fun hf => by
    have := (flush2_2 t).mp hf; have hN : t.val < 10 := lt_of_lt_of_eq t.isLt N_2; omega

/-- At a point live for a window the body leaves its buffer at what the proof data names. -/
theorem leavesExact_live {c : Dev nD} (d : Dat τ (Elt F) Unit ℕ (UR sig nD τ) ℕ cfg2 c) (w : Fin cfg2.W) (t : Fin cfg2.N)
    (hi : cfg2.idle w (cfg2.grid.coords t) = false) :
    d.leavesExact w t = owns (c : Thread nD τ) ((cfg2.win w).stage (cfg2.slots t w)) fullShare (d.after w t) := by
  unfold Dat.leavesExact; rw [hi]

/-! ## Into the invariant and out of it -/

/-- The scoped buffers no window of this region stages: the two scratch rows, then all the others. -/
theorem scopedRest_split (c : Dev nD) :
    (Pipeline.scopedRest (Ix := Unit) (Name := ℕ) (U := UR sig nD τ) (Lvl := ℕ) (Val := Elt F) spec2 c : sProp 𝕄)
      = iprop(((∃ f : Buf (Elt F) ((c : Thread nD τ).loc cc2_scratch0), ((c : Thread nD τ).loc cc2_scratch0) ↦{fullShare} f)
            ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- Before the first point the invariant asks nothing of the scratch rows' contents. -/
theorem phi_in (c : Dev nD) :
    iprop((∃ r, prngReg c r) ∗ Pipeline.prefHeld (pcfgs (F := F) 2).pre c (fun _ => fullShare) ((cfgs 2).toPCfg_adm).1
        ∗ Pipeline.scopedRest spec2 c) ⊢ (dat V c).Φ 0 := by
  rw [scopedRest_split, dat_Φ]; unfold inv
  iintro ⟨Hr, -, ⟨⟨%f0, H0⟩, ⟨%f1, H1⟩⟩, Hrest⟩
  iexists f0; iexists f1
  isplitr; · ipureintro; intro h; exact absurd rfl h
  isplitl [H0]; · rw [owns_whole]; iexact H0
  isplitl [H1]; · rw [owns_whole]; iexact H1
  isplitl [Hrest]; · iexact Hrest
  iexact Hr

/-- After the last point the scratch rows are forgotten again. -/
theorem phi_out (c : Dev nD) :
    (dat V c).Φ (Fin.last cfg2.N) ⊢ iprop((∃ r, prngReg c r) ∗ Pipeline.ownSems0 (fun k : PEmpty => k.elim) c
        ∗ Pipeline.scopedRest spec2 c) := by
  rw [Pipeline.ownSems0_none, scopedRest_split, dat_Φ]; unfold inv
  iintro ⟨%s, %q, -, Hs, Hq, Hrest, Hr⟩
  isplitl [Hr]; · iexact Hr
  isplitr; · iempintro
  isplitl [Hs Hq]
  · isplitl [Hs]
    · iexists s; rw [← owns_whole]; iexact Hs
    · iexists q; rw [← owns_whole]; iexact Hq
  iexact Hrest

/-! ## The body obligation -/

/-- What the body is handed at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it hands back: the results' buffers as it found them away from the last point, at the sums there. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ (dat V c).leavesExact 1 t ∗ (dat V c).leavesExact 2 t)

set_option maxHeartbeats 1000000 in
/-- The body at any point, by the three cases of its two conditions: at the first point the scratch rows are zeroed and
    the first block accumulated; at a middle point the block is accumulated onto the running sums; at the last
    point it is accumulated and the sums are copied out. The row block's buffer is left as found throughout. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows]
  rw [show (dat V c).owesAt () t.succ = (dat V c).owesAt () t.castSucc from rfl, after_rows, dat_Φ, dat_Φ]
  unfold inv
  have hN : t.val < 10 := lt_of_lt_of_eq t.isLt N_2
  by_cases h0 : t.val = 0
  · -- the first point
    have h9 : t.val ≠ 9 := by omega
    rw [Dat.leavesExact_idle _ 1 t (idle_sums t h9) (noflush_sums t h9),
      Dat.leavesExact_idle _ 2 t (idle_squares t h9) (noflush_squares t h9)]
    iintro ⟨⟨%s, %q, -, Hs, Hq, Hrest⟩, Ho, ⟨%d0, H0⟩, H1, H2⟩
    iapply (body_first c Set.univ _ ((hcond1 t).mpr h0) (fun hc => h9 ((hcond2 t).mp hc)) _ _ _ _ _ _ _ _ _ _ (blockAt V c 0 t) _)
    isplitl [H0]; · iexact H0
    isplitl [Hs]; · iexists _; iexact Hs
    isplitl [Hq]; · iexists _; iexact Hq
    iintro ⟨H0, Hs, Hq⟩
    isplitl [Hs Hq Hrest]
    · iexists (k2_pay4 (blockAt V c 0 t) (k2_pay1 (F := F))); iexists (k2_pay5 (blockAt V c 0 t) (k2_pay2 (F := F)))
      isplitr
      · ipureintro; intro _
        exact ⟨by rw [sumsUpTo_succ, sumsUpTo_of_zero V c t.castSucc h0],
          by rw [squaresUpTo_succ, squaresUpTo_of_zero V c t.castSucc h0]⟩
      isplitl [Hs]; · iexact Hs
      isplitl [Hq]; · iexact Hq
      iexact Hrest
    isplitl [Ho]; · iexact Ho
    isplitl [H0]; · iexact H0
    isplitl [H1]; · iexact H1
    iexact H2
  · by_cases h9 : t.val = 9
    · -- the last point
      rw [leavesExact_live _ 1 t (live_sums t h9), leavesExact_live _ 2 t (live_squares t h9), after_sums, after_squares]
      iintro ⟨⟨%s, %q, %hsq, Hs, Hq, Hrest⟩, Ho, ⟨%d0, H0⟩, ⟨%d1, H1⟩, ⟨%d2, H2⟩⟩
      obtain ⟨rfl, rfl⟩ := hsq h0
      iapply (body_last c Set.univ _ (fun hc => h0 ((hcond1 t).mp hc)) ((hcond2 t).mpr h9) _ _ _ _ _ _ _ _ _ _ (blockAt V c 0 t) _ _ _)
      isplitl [H0]; · iexact H0
      isplitl [H1]; · iexists _; iexact H1
      isplitl [H2]; · iexists _; iexact H2
      isplitl [Hs]; · iexact Hs
      isplitl [Hq]; · iexact Hq
      iintro ⟨H0, H1, H2, Hs, Hq⟩
      isplitl [Hs Hq Hrest]
      · iexists (k2_pay4 (blockAt V c 0 t) (sumsUpTo V c t.castSucc)); iexists (k2_pay5 (blockAt V c 0 t) (squaresUpTo V c t.castSucc))
        isplitr
        · ipureintro; intro _
          exact ⟨(sumsUpTo_succ V c t).symm, (squaresUpTo_succ V c t).symm⟩
        isplitl [Hs]; · iexact Hs
        isplitl [Hq]; · iexact Hq
        iexact Hrest
      isplitl [Ho]; · iexact Ho
      isplitl [H0]; · iexact H0
      isplitl [H1]; · rw [sumsUpTo_succ]; iexact H1
      rw [squaresUpTo_succ]; iexact H2
    · -- a middle point
      rw [Dat.leavesExact_idle _ 1 t (idle_sums t h9) (noflush_sums t h9),
        Dat.leavesExact_idle _ 2 t (idle_squares t h9) (noflush_squares t h9)]
      iintro ⟨⟨%s, %q, %hsq, Hs, Hq, Hrest⟩, Ho, ⟨%d0, H0⟩, H1, H2⟩
      obtain ⟨rfl, rfl⟩ := hsq h0
      iapply (body_mid c Set.univ _ (fun hc => h0 ((hcond1 t).mp hc)) (fun hc => h9 ((hcond2 t).mp hc)) _ _ _ _ _ _ _ _ _ _ (blockAt V c 0 t) _ _ _)
      isplitl [H0]; · iexact H0
      isplitl [Hs]; · iexact Hs
      isplitl [Hq]; · iexact Hq
      iintro ⟨H0, Hs, Hq⟩
      isplitl [Hs Hq Hrest]
      · iexists (k2_pay4 (blockAt V c 0 t) (sumsUpTo V c t.castSucc)); iexists (k2_pay5 (blockAt V c 0 t) (squaresUpTo V c t.castSucc))
        isplitr
        · ipureintro; intro _
          exact ⟨(sumsUpTo_succ V c t).symm, (squaresUpTo_succ V c t).symm⟩
        isplitl [Hs]; · iexact Hs
        isplitl [Hq]; · iexact Hq
        iexact Hrest
      isplitl [Ho]; · iexact Ho
      isplitl [H0]; · iexact H0
      isplitl [H1]; · iexact H1
      iexact H2

/-- The body obligation of region 2, at every point. -/
theorem body_obligation (c : Dev nD) : BodyObligation (dat (F := F) V c) (defs₀ (F := F)) Variants.none () Set.univ := fun t => by
  rw [bigSep_W2, bigSep_W2]
  exact body_at V c t

end AtEntry

end Cert.Kernel.Stats

end
-- ==== Proof.Bits.Normalise.lean ====
/-
  The normalisation, one block of rows at a time.

  Region 3 runs over ten grid points. At point `t` its body reads rows 10000·t … 10000·t + 9999 of the
  activations (a 10000 × 64 block) and four rows of 64 entries each — the column means, the column variances,
  the scale and the shift, each the same whole row at every point —, subtracts the mean row from every row of
  the block, multiplies by the reciprocal square root of the variance row plus a small constant, multiplies by
  the scale row, adds the shift row, and stores the 10000 × 64 result as the block of the same rows of the
  result. The body reads nothing else and keeps nothing between points, so what it leaves in the result's staging
  buffer is a function of the five blocks it was handed: `normalised` below. Everything here is stated for any
  float instance.
-/
import proofs.«107830_j10685878632725_1_alg».proof.Proof.Gen.Kernel.Launch
import proofs.«107830_j10685878632725_1_alg».proof.Proof.Gen.Kernel.Skeleton
import proofs.«107830_j10685878632725_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Normalise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a 10000 × 64 staging buffer and the whole of a 1 × 64 one, as the rectangles the body's loads
    and its store name. -/
abbrev wholeX : Rect S10000x64 := Rect.unit (s := S10000x64) ![0, 0] S10000x64.size inb_S10000x64_S10000x64_0_0
abbrev wholeR : Rect S1x64 := Rect.unit (s := S1x64) ![0, 0] S1x64.size inb_S1x64_S1x64_0_0

/-- What the body leaves in the result's staging buffer: its one store, over the whole buffer, of the row block
    `x` less the mean row `m`, times the reciprocal square root of the variance row `v` plus the constant, times
    the scale row `g`, plus the shift row `b`. -/
def normalised (x : Vec F S10000x64 .f32) (m v g b : Vec F S1x64 .f32) : Vec F S10000x64 .f32 :=
  View.canon [⟨wholeX, k3_pay1 (View.ld v wholeR) (View.ld x wholeX) (View.ld m wholeR) (View.ld g wholeR) (View.ld b wholeR)⟩]

/-- The one store covers every entry of the buffer. -/
theorem normalised_cover (p : Vec F S10000x64 .f32) (y : S10000x64.Idx) :
    ∃ pc ∈ ([⟨wholeX, p⟩] : List (View.Piece (Elt F) S10000x64 .f32)), y ∈ pc.1.set :=
  View.cover_of_tiled [⟨wholeX, p⟩] S10000x64.size (by rfl) y

set_option maxHeartbeats 1000000 in
/-- The body on whole staging buffers: from the row block at `x`, the four rows at `m`, `v`, `g`, `b` and the
    result's buffer at anything, it runs to its continuation with the five inputs as they were and the result's
    buffer at `normalised x m v g b`. -/
theorem body_triple (c : Dev nD) (E : Set ℕ) (i : grid3.Coords)
    (a1 : Memref sig .tc .vmem S10000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S10000x64 .f32) (h6 : a6.IsWhole)
    (x : Vec F S10000x64 .f32) (m v g b : Vec F S1x64 .f32) (K : PUnit → sProp 𝕄) :
    iprop(owns (c : Thread nD τ) a1 fullShare x ∗ owns (c : Thread nD τ) a2 fullShare m ∗ owns (c : Thread nD τ) a3 fullShare v
        ∗ owns (c : Thread nD τ) a4 fullShare g ∗ owns (c : Thread nD τ) a5 fullShare b ∗ (∃ d, owns (c : Thread nD τ) a6 fullShare d)
        ∗ (iprop(owns (c : Thread nD τ) a1 fullShare x ∗ owns (c : Thread nD τ) a2 fullShare m ∗ owns (c : Thread nD τ) a3 fullShare v
            ∗ owns (c : Thread nD τ) a4 fullShare g ∗ owns (c : Thread nD τ) a5 fullShare b
            ∗ owns (c : Thread nD τ) a6 fullShare (normalised x m v g b)) -∗ K ⟨⟩))
      ⊢ wp frame (wpE (defs₀ (F := F)) Variants.none c none) E (cc3__bn_kernel i a1 h1 a2 h2 a3 h3 a4 h4 a5 h5 a6 h6) K := by
  simp only [cc3__bn_kernel_eq_skeleton]; unfold cc3__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normalised_cover _)

/-! ## The region's proof data, at the contents `V` it is entered with -/

section AtEntry

variable (V : (c : Dev nD) → (b : Ref sig .tc) → Buf (Elt F) ((c : Thread nD τ).loc b))

/-- Window `w`'s block at point `t`, read off its array as the region finds it. For the activations this is the
    block of rows 10000·t …; for each of the four rows it is the whole row at every point. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data over the entry
    contents whose body leaves that buffer as it found it: the activations' buffer is fetched at every point; a
    row's buffer is fetched at the first point, and at a later point its block index has not moved, so the buffer
    still holds what that fetch brought. -/
theorem rows_held {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

theorem mean_held {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

theorem variance_held {c : Dev nD} (dat : Dat τ (Elt F) Unit ℕ (UR sig nD τ) ℕ cfg3 c) (hA : dat.A 2 = V c (Pipeline.arrRef spec3 2))
    (hafter : ∀ t, dat.after 2 t = blockAt V c 2 t) (t : Fin cfg3.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

theorem scale_held {c : Dev nD} (dat : Dat τ (Elt F) Unit ℕ (UR sig nD τ) ℕ cfg3 c) (hA : dat.A 3 = V c (Pipeline.arrRef spec3 3))
    (hafter : ∀ t, dat.after 3 t = blockAt V c 3 t) (t : Fin cfg3.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

theorem shift_held {c : Dev nD} (dat : Dat τ (Elt F) Unit ℕ (UR sig nD τ) ℕ cfg3 c) (hA : dat.A 4 = V c (Pipeline.arrRef spec3 4))
    (hafter : ∀ t, dat.after 4 t = blockAt V c 4 t) (t : Fin cfg3.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- The proof data of region 3 on core `c`: the arrays as the region finds them; after the body at point `t` the
    five inputs' buffers still at their blocks and the result's buffer at the normalisation of those blocks; between
    points only what every body may use unseen (scratch it does not have, the generator register); nothing owed. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => normalised (blockAt V c 0 t) (blockAt V c 1 t) (blockAt V c 2 t) (blockAt V c 3 t) (blockAt V c 4 t)
  Φ _ := Pipeline.ΦA spec3 c
  q _ := fullShare
  owed _ := 0

theorem dat_A (c : Dev nD) (w : Fin cfg3.W) : (dat V c).A w = V c (Pipeline.arrRef spec3 w) := by
  dsimp only [dat]

theorem after_rows (c : Dev nD) (t : Fin cfg3.N) : (dat V c).after 0 t = blockAt V c 0 t := by dsimp only [dat]
theorem after_mean (c : Dev nD) (t : Fin cfg3.N) : (dat V c).after 1 t = blockAt V c 1 t := by dsimp only [dat]
theorem after_variance (c : Dev nD) (t : Fin cfg3.N) : (dat V c).after 2 t = blockAt V c 2 t := by dsimp only [dat]
theorem after_scale (c : Dev nD) (t : Fin cfg3.N) : (dat V c).after 3 t = blockAt V c 3 t := by dsimp only [dat]
theorem after_shift (c : Dev nD) (t : Fin cfg3.N) : (dat V c).after 4 t = blockAt V c 4 t := by dsimp only [dat]
theorem after_normalised (c : Dev nD) (t : Fin cfg3.N) :
    (dat V c).after 5 t = normalised (blockAt V c 0 t) (blockAt V c 1 t) (blockAt V c 2 t) (blockAt V c 3 t) (blockAt V c 4 t) := by
  dsimp only [dat]

theorem before_rows (c : Dev nD) (t : Fin cfg3.N) (d) : (dat V c).before 0 t d = blockAt V c 0 t :=
  rows_held V (dat V c) (dat_A V c 0) (after_rows V c) t d
theorem before_mean (c : Dev nD) (t : Fin cfg3.N) (d) : (dat V c).before 1 t d = blockAt V c 1 t :=
  mean_held V (dat V c) (dat_A V c 1) (after_mean V c) t d
theorem before_variance (c : Dev nD) (t : Fin cfg3.N) (d) : (dat V c).before 2 t d = blockAt V c 2 t :=
  variance_held V (dat V c) (dat_A V c 2) (after_variance V c) t d
theorem before_scale (c : Dev nD) (t : Fin cfg3.N) (d) : (dat V c).before 3 t d = blockAt V c 3 t :=
  scale_held V (dat V c) (dat_A V c 3) (after_scale V c) t d
theorem before_shift (c : Dev nD) (t : Fin cfg3.N) (d) : (dat V c).before 4 t d = blockAt V c 4 t :=
  shift_held V (dat V c) (dat_A V c 4) (after_shift V c) t d

/-- What the body is handed at point `t`, window by window, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it hands back. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

/-- The body at any point: the five inputs' buffers hold their blocks, so the triple applies; the invariant and
    what the core owes pass through unread. -/
theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_rows, before_mean, before_variance, before_scale, before_shift]
  rw [show (dat V c).Φ t.succ = (dat V c).Φ t.castSucc from rfl,
    show (dat V c).owesAt () t.succ = (dat V c).owesAt () t.castSucc from rfl,
    after_rows, after_mean, after_variance, after_scale, after_shift, after_normalised]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 3, at every point. -/
theorem body_obligation (c : Dev nD) : BodyObligation (dat (F := F) V c) (defs₀ (F := F)) Variants.none () Set.univ := fun t => by
  rw [bigSep_W3, bigSep_W3]
  exact body_at V c t

end AtEntry

end Cert.Kernel.Normalise

end
-- ==== Proof.Bits.Run.lean ====
/-
  The kernel program's run, from the launch to the return.

  @main is three stretches of host operations (the edge lists with self-loops, the degrees and their inverse square
  roots, the per-edge weights), then region 0 (the first linear map), a stretch (gather, weight, scatter-add, bias),
  region 1 (the second linear map), a stretch of the same shape, region 2 (the column sums and sums of squares), a
  short stretch (mean and variance) and region 3 (the normalisation). Between two items every unscoped buffer of a core
  is held at known contents: the launch memory, then each host stretch applied in turn, then — after a region — the
  region's arrays at what its ten grid points leave and every other buffer as it was. Beside the buffers ride the
  core's generator register and the fact that it owes no other core anything.
-/
import proofs.«107830_j10685878632725_1_alg».proof.Proof.Bits.Linear0
import proofs.«107830_j10685878632725_1_alg».proof.Proof.Bits.Linear1
import proofs.«107830_j10685878632725_1_alg».proof.Proof.Bits.Stats
import proofs.«107830_j10685878632725_1_alg».proof.Proof.Bits.Normalise
import proofs.«107830_j10685878632725_1_alg».proof.Proof.Gen.Kernel.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- A core's unscoped buffers when region 0 is entered: the launch memory after the first three host stretches. -/
abbrev B3 (c : Dev nD) : Valuation τ sig (Elt F) := Gen.V3 m c
abbrev E3 : (c : Dev nD) → (b : Ref sig .tc) → Buf (Elt F) ((c : Thread nD τ).loc b) := fun c b => B3 m c b

/-- At region 0's exit: the table and the first weights as entered, the first product's row blocks written back, every other buffer as entered. -/
def B4 (c : Dev nD) : Valuation τ sig (Elt F) :=
  Pipeline.withArrays spec0 c (B3 m c) fun w => (Linear0.dat (E3 m) c).arrAt w cfg0.N
theorem B4_arr (c : Dev nD) (w : Fin cfg0.W) :
    B4 m c (Proc.devRef .tc (Pipeline.arrRef spec0 w)) = (Linear0.dat (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
abbrev E4 : (c : Dev nD) → (b : Ref sig .tc) → Buf (Elt F) ((c : Thread nD τ).loc b) := fun c b => B4 m c b
theorem leaves0 (c : Dev nD) (w : Fin cfg0.W) : (Linear0.dat (E3 m) c).arrAt w cfg0.N = E4 m c (Pipeline.arrRef spec0 w) :=
  (B4_arr m c w).symm
theorem keeps0 (c : Dev nD) : ∀ b, b ∉ Finset.univ.image (Pipeline.arrRef spec0) → E4 m c b = E3 m c b :=
  fun b hb => B4_of_ne m c b fun w e => hb (Finset.mem_image.mpr ⟨w, Finset.mem_univ _, e⟩)

/-- After the host stretch `hostOps1`: the first layer's gather, weighting, scatter-add and bias. -/
abbrev B5 (c : Dev nD) : Valuation τ sig (Elt F) := StableHlo.after hostOps1 (B4 m c)
abbrev E5 : (c : Dev nD) → (b : Ref sig .tc) → Buf (Elt F) ((c : Thread nD τ).loc b) := fun c b => B5 m c b

/-- At region 1's exit: the first layer's output and the second weights as entered, the second product's row blocks written back, every other buffer as entered. -/
def B6 (c : Dev nD) : Valuation τ sig (Elt F) :=
  Pipeline.withArrays spec1 c (B5 m c) fun w => (Linear1.dat (E5 m) c).arrAt w cfg1.N
theorem B6_arr (c : Dev nD) (w : Fin cfg1.W) :
    B6 m c (Proc.devRef .tc (Pipeline.arrRef spec1 w)) = (Linear1.dat (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E6 : (c : Dev nD) → (b : Ref sig .tc) → Buf (Elt F) ((c : Thread nD τ).loc b) := fun c b => B6 m c b
theorem leaves1 (c : Dev nD) (w : Fin cfg1.W) : (Linear1.dat (E5 m) c).arrAt w cfg1.N = E6 m c (Pipeline.arrRef spec1 w) :=
  (B6_arr m c w).symm
theorem keeps1 (c : Dev nD) : ∀ b, b ∉ Finset.univ.image (Pipeline.arrRef spec1) → E6 m c b = E5 m c b :=
  fun b hb => B6_of_ne m c b fun w e => hb (Finset.mem_image.mpr ⟨w, Finset.mem_univ _, e⟩)

/-- After the host stretch `hostOps2`: the second layer's gather, weighting, scatter-add and bias. -/
abbrev B7 (c : Dev nD) : Valuation τ sig (Elt F) := StableHlo.after hostOps2 (B6 m c)
abbrev E7 : (c : Dev nD) → (b : Ref sig .tc) → Buf (Elt F) ((c : Thread nD τ).loc b) := fun c b => B7 m c b

/-- At region 2's exit: the second layer's output as entered, the column sums and sums of squares written at the last point, every other buffer as entered. -/
def B8 (c : Dev nD) : Valuation τ sig (Elt F) :=
  Pipeline.withArrays spec2 c (B7 m c) fun w => (Stats.dat (E7 m) c).arrAt w cfg2.N
theorem B8_arr (c : Dev nD) (w : Fin cfg2.W) :
    B8 m c (Proc.devRef .tc (Pipeline.arrRef spec2 w)) = (Stats.dat (E7 m) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m c (Proc.devRef .tc b) = B7 m c (Proc.devRef .tc b) := by
  unfold B8; exact Pipeline.withArrays_of_ne spec2 c _ _ b hb
abbrev E8 : (c : Dev nD) → (b : Ref sig .tc) → Buf (Elt F) ((c : Thread nD τ).loc b) := fun c b => B8 m c b
theorem leaves2 (c : Dev nD) (w : Fin cfg2.W) : (Stats.dat (E7 m) c).arrAt w cfg2.N = E8 m c (Pipeline.arrRef spec2 w) :=
  (B8_arr m c w).symm
theorem keeps2 (c : Dev nD) : ∀ b, b ∉ Finset.univ.image (Pipeline.arrRef spec2) → E8 m c b = E7 m c b :=
  fun b hb => B8_of_ne m c b fun w e => hb (Finset.mem_image.mpr ⟨w, Finset.mem_univ _, e⟩)

/-- After the host stretch `hostOps3`: the mean, the variance and the two parameter rows. -/
abbrev B9 (c : Dev nD) : Valuation τ sig (Elt F) := StableHlo.after hostOps3 (B8 m c)
abbrev E9 : (c : Dev nD) → (b : Ref sig .tc) → Buf (Elt F) ((c : Thread nD τ).loc b) := fun c b => B9 m c b

/-- At region 3's exit: its five inputs as entered, the normalised row blocks written back, every other buffer as entered. -/
def B10 (c : Dev nD) : Valuation τ sig (Elt F) :=
  Pipeline.withArrays spec3 c (B9 m c) fun w => (Normalise.dat (E9 m) c).arrAt w cfg3.N
theorem B10_arr (c : Dev nD) (w : Fin cfg3.W) :
    B10 m c (Proc.devRef .tc (Pipeline.arrRef spec3 w)) = (Normalise.dat (E9 m) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m c (Proc.devRef .tc b) = B9 m c (Proc.devRef .tc b) := by
  unfold B10; exact Pipeline.withArrays_of_ne spec3 c _ _ b hb
abbrev E10 : (c : Dev nD) → (b : Ref sig .tc) → Buf (Elt F) ((c : Thread nD τ).loc b) := fun c b => B10 m c b
theorem leaves3 (c : Dev nD) (w : Fin cfg3.W) : (Normalise.dat (E9 m) c).arrAt w cfg3.N = E10 m c (Pipeline.arrRef spec3 w) :=
  (B10_arr m c w).symm
theorem keeps3 (c : Dev nD) : ∀ b, b ∉ Finset.univ.image (Pipeline.arrRef spec3) → E10 m c b = E9 m c b :=
  fun b hb => B10_of_ne m c b fun w e => hb (Finset.mem_image.mpr ⟨w, Finset.mem_univ _, e⟩)

/-! ## The proof data family and what rides beside the buffers -/

abbrev adm : (p : Fin 4) → (pcfgs (F := F) p).Adm := fun p => (cfgs p).toPCfg_adm

/-- Every region's proof data, each at its own entry contents. -/
def pdats : (p : Fin 4) → (c : Dev nD) → Dat τ (Elt F) Unit ℕ (UR sig nD τ) ℕ (Pipeline.pin (pcfgs (F := F)) adm p) c
  | ⟨0, _⟩ => fun c => Linear0.dat (E3 m) c
  | ⟨1, _⟩ => fun c => Linear1.dat (E5 m) c
  | ⟨2, _⟩ => fun c => Stats.dat (E7 m) c
  | ⟨3, _⟩ => fun c => Normalise.dat (E9 m) c

abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev Beside (c : Dev nD) : sProp 𝕄 := iprop((∃ r, prngReg c r) ∗ ∃ W, owes (c : Thread nD τ) (0 : CellTallies nD τ sig Unit) W)

/-! ## The four regions as segments -/

set_option backward.isDefEq.respectTransparency.types false in
/-- Region 0 between the contents `B3` and `B4`: its arrays are split out of the unscoped buffers on entry and
    put back at their final contents on exit; the generator register goes into the body's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Linear0.body_obligation (E3 m) c).loose
  hwaits := Pipeline.hwaits_of_owed_zero _ _ _ _ L lv 0 fun _ _ => rfl
  pre c := iprop(StableHlo.held (c : Thread nD τ) (Pipeline.ucRefs τ sig) (B3 m c) ∗ Beside c)
  post c := iprop(StableHlo.held (c : Thread nD τ) (Pipeline.ucRefs τ sig) (B4 m c) ∗ Beside c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (leaves0 m c) (keeps0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents `B5` and `B6`: its arrays are split out of the unscoped buffers on entry and
    put back at their final contents on exit; the generator register goes into the body's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Linear1.body_obligation (E5 m) c).loose
  hwaits := Pipeline.hwaits_of_owed_zero _ _ _ _ L lv 1 fun _ _ => rfl
  pre c := iprop(StableHlo.held (c : Thread nD τ) (Pipeline.ucRefs τ sig) (B5 m c) ∗ Beside c)
  post c := iprop(StableHlo.held (c : Thread nD τ) (Pipeline.ucRefs τ sig) (B6 m c) ∗ Beside c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (leaves1 m c) (keeps1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents `B7` and `B8`: as the other regions, except that the body's invariant also holds the two
    scratch rows at the running column sums and sums of squares, made from the scratch at any contents on entry and
    given back on exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Stats.body_obligation (E7 m) c).loose
  hwaits := Pipeline.hwaits_of_owed_zero _ _ _ _ L lv 2 fun _ _ => rfl
  pre c := iprop(StableHlo.held (c : Thread nD τ) (Pipeline.ucRefs τ sig) (B7 m c) ∗ Beside c)
  post c := iprop(StableHlo.held (c : Thread nD τ) (Pipeline.ucRefs τ sig) (B8 m c) ∗ Beside c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Stats.phi_in (E7 m) c
  hout c := Stats.phi_out (E7 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (leaves2 m c) (keeps2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the contents `B9` and `B10`: its arrays are split out of the unscoped buffers on entry and
    put back at their final contents on exit; the generator register goes into the body's invariant and comes back;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Normalise.body_obligation (E9 m) c).loose
  hwaits := Pipeline.hwaits_of_owed_zero _ _ _ _ L lv 3 fun _ _ => rfl
  pre c := iprop(StableHlo.held (c : Thread nD τ) (Pipeline.ucRefs τ sig) (B9 m c) ∗ Beside c)
  post c := iprop(StableHlo.held (c : Thread nD τ) (Pipeline.ucRefs τ sig) (B10 m c) ∗ Beside c)
  X c := iprop(∃ r, prngReg c r)
  Y c := iprop(∃ r, prngReg c r)
  Z c := Pipeline.unscopedRest (Ix := Unit) (Name := ℕ) (U := UR sig nD τ) (Lvl := ℕ) spec3 c (E9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E9 m c) (E10 m c) ((pdats m 3 c).arrAt · cfg3.N) (leaves3 m c) (keeps3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The host stretches as segments, and @main as the list of its items -/

/-- A host stretch as a segment over the unscoped buffers from the contents `W`, `Beside` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

/-- @main's ten items in order. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .host (hseg hostOps1 hostOps1_sub hostOps1_fresh (B4 m)),
    .region (reg1 m),
    .host (hseg hostOps2 hostOps2_sub hostOps2_fresh (B6 m)),
    .region (reg2 m),
    .host (hseg hostOps3 hostOps3_sub hostOps3_fresh (B8 m)),
    .region (reg3 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with every semaphore counter at zero, every weakly fair execution of @main terminates,
    nothing faulting, and in every final memory each unscoped buffer of each core holds the last boundary's
    contents `B10`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = B10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Beside c))
    (Tₙ := fun c => iprop(StableHlo.held (c : Thread nD τ) (Pipeline.ucRefs τ sig) (B10 m c) ∗ ∃ r, prngReg c r))
    (hch := ⟨fun _ => .rfl, fun _ => .rfl, fun _ => .rfl, fun _ => .rfl, fun _ => .rfl, fun _ => .rfl,
      fun _ => .rfl, fun _ => .rfl, fun _ => .rfl, fun _ => .rfl,
      fun c => by
        show iprop(StableHlo.held (c : Thread nD τ) (Pipeline.ucRefs τ sig) (B10 m c) ∗ Beside c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h c => h c)

/-! ## The arguments end as launched, and the result is what region 3 leaves -/

/-- `main_arg0` reaches the end as launched: no host stretch writes it, and a region either reads it through an input
    window or passes it by. -/
theorem B10_arg0 (c : Dev nD) : B10 m c (Proc.devRef .tc main_arg0) = m ((c : Thread nD τ).loc main_arg0) :=
  calc B10 m c (Proc.devRef .tc main_arg0)
    _ = B9 m c (Proc.devRef .tc main_arg0) := B10_of_ne m c main_arg0 (by decide)
    _ = B8 m c (Proc.devRef .tc main_arg0) := StableHlo.after_of_writes_sub hostOps3 _ hostOps3_writes (by decide)
    _ = B7 m c (Proc.devRef .tc main_arg0) := B8_of_ne m c main_arg0 (by decide)
    _ = B6 m c (Proc.devRef .tc main_arg0) := StableHlo.after_of_writes_sub hostOps2 _ hostOps2_writes (by decide)
    _ = B5 m c (Proc.devRef .tc main_arg0) := B6_of_ne m c main_arg0 (by decide)
    _ = B4 m c (Proc.devRef .tc main_arg0) := StableHlo.after_of_writes_sub hostOps1 _ hostOps1_writes (by decide)
    _ = B3 m c (Proc.devRef .tc main_arg0) := (B4_arr m c 0).trans (((Linear0.dat (E3 m) c).arrAt_in 0 rfl _).trans (Linear0.dat_A (E3 m) c 0))
    _ = m ((c : Thread nD τ).loc main_arg0) :=
      (Gen.V3_of m c main_arg0 (by decide)).trans ((Gen.V2_of m c main_arg0 (by decide)).trans (Gen.V1_of m c main_arg0 (by decide)))

/-- `main_arg1` reaches the end as launched: no host stretch writes it, and a region either reads it through an input
    window or passes it by. -/
theorem B10_arg1 (c : Dev nD) : B10 m c (Proc.devRef .tc main_arg1) = m ((c : Thread nD τ).loc main_arg1) :=
  calc B10 m c (Proc.devRef .tc main_arg1)
    _ = B9 m c (Proc.devRef .tc main_arg1) := B10_of_ne m c main_arg1 (by decide)
    _ = B8 m c (Proc.devRef .tc main_arg1) := StableHlo.after_of_writes_sub hostOps3 _ hostOps3_writes (by decide)
    _ = B7 m c (Proc.devRef .tc main_arg1) := B8_of_ne m c main_arg1 (by decide)
    _ = B6 m c (Proc.devRef .tc main_arg1) := StableHlo.after_of_writes_sub hostOps2 _ hostOps2_writes (by decide)
    _ = B5 m c (Proc.devRef .tc main_arg1) := B6_of_ne m c main_arg1 (by decide)
    _ = B4 m c (Proc.devRef .tc main_arg1) := StableHlo.after_of_writes_sub hostOps1 _ hostOps1_writes (by decide)
    _ = B3 m c (Proc.devRef .tc main_arg1) := (B4_arr m c 1).trans (((Linear0.dat (E3 m) c).arrAt_in 1 rfl _).trans (Linear0.dat_A (E3 m) c 1))
    _ = m ((c : Thread nD τ).loc main_arg1) :=
      (Gen.V3_of m c main_arg1 (by decide)).trans ((Gen.V2_of m c main_arg1 (by decide)).trans (Gen.V1_of m c main_arg1 (by decide)))

/-- `main_arg2` reaches the end as launched: no host stretch writes it, and a region either reads it through an input
    window or passes it by. -/
theorem B10_arg2 (c : Dev nD) : B10 m c (Proc.devRef .tc main_arg2) = m ((c : Thread nD τ).loc main_arg2) :=
  calc B10 m c (Proc.devRef .tc main_arg2)
    _ = B9 m c (Proc.devRef .tc main_arg2) := B10_of_ne m c main_arg2 (by decide)
    _ = B8 m c (Proc.devRef .tc main_arg2) := StableHlo.after_of_writes_sub hostOps3 _ hostOps3_writes (by decide)
    _ = B7 m c (Proc.devRef .tc main_arg2) := B8_of_ne m c main_arg2 (by decide)
    _ = B6 m c (Proc.devRef .tc main_arg2) := StableHlo.after_of_writes_sub hostOps2 _ hostOps2_writes (by decide)
    _ = B5 m c (Proc.devRef .tc main_arg2) := B6_of_ne m c main_arg2 (by decide)
    _ = B4 m c (Proc.devRef .tc main_arg2) := StableHlo.after_of_writes_sub hostOps1 _ hostOps1_writes (by decide)
    _ = B3 m c (Proc.devRef .tc main_arg2) := B4_of_ne m c main_arg2 (by decide)
    _ = m ((c : Thread nD τ).loc main_arg2) :=
      (Gen.V3_of m c main_arg2 (by decide)).trans ((Gen.V2_of m c main_arg2 (by decide)).trans (Gen.V1_of m c main_arg2 (by decide)))

/-- `main_arg3` reaches the end as launched: no host stretch writes it, and a region either reads it through an input
    window or passes it by. -/
theorem B10_arg3 (c : Dev nD) : B10 m c (Proc.devRef .tc main_arg3) = m ((c : Thread nD τ).loc main_arg3) :=
  calc B10 m c (Proc.devRef .tc main_arg3)
    _ = B9 m c (Proc.devRef .tc main_arg3) := B10_of_ne m c main_arg3 (by decide)
    _ = B8 m c (Proc.devRef .tc main_arg3) := StableHlo.after_of_writes_sub hostOps3 _ hostOps3_writes (by decide)
    _ = B7 m c (Proc.devRef .tc main_arg3) := B8_of_ne m c main_arg3 (by decide)
    _ = B6 m c (Proc.devRef .tc main_arg3) := StableHlo.after_of_writes_sub hostOps2 _ hostOps2_writes (by decide)
    _ = B5 m c (Proc.devRef .tc main_arg3) := (B6_arr m c 1).trans (((Linear1.dat (E5 m) c).arrAt_in 1 rfl _).trans (Linear1.dat_A (E5 m) c 1))
    _ = B4 m c (Proc.devRef .tc main_arg3) := StableHlo.after_of_writes_sub hostOps1 _ hostOps1_writes (by decide)
    _ = B3 m c (Proc.devRef .tc main_arg3) := B4_of_ne m c main_arg3 (by decide)
    _ = m ((c : Thread nD τ).loc main_arg3) :=
      (Gen.V3_of m c main_arg3 (by decide)).trans ((Gen.V2_of m c main_arg3 (by decide)).trans (Gen.V1_of m c main_arg3 (by decide)))

/-- `main_arg4` reaches the end as launched: no host stretch writes it, and a region either reads it through an input
    window or passes it by. -/
theorem B10_arg4 (c : Dev nD) : B10 m c (Proc.devRef .tc main_arg4) = m ((c : Thread nD τ).loc main_arg4) :=
  calc B10 m c (Proc.devRef .tc main_arg4)
    _ = B9 m c (Proc.devRef .tc main_arg4) := B10_of_ne m c main_arg4 (by decide)
    _ = B8 m c (Proc.devRef .tc main_arg4) := StableHlo.after_of_writes_sub hostOps3 _ hostOps3_writes (by decide)
    _ = B7 m c (Proc.devRef .tc main_arg4) := B8_of_ne m c main_arg4 (by decide)
    _ = B6 m c (Proc.devRef .tc main_arg4) := StableHlo.after_of_writes_sub hostOps2 _ hostOps2_writes (by decide)
    _ = B5 m c (Proc.devRef .tc main_arg4) := B6_of_ne m c main_arg4 (by decide)
    _ = B4 m c (Proc.devRef .tc main_arg4) := StableHlo.after_of_writes_sub hostOps1 _ hostOps1_writes (by decide)
    _ = B3 m c (Proc.devRef .tc main_arg4) := B4_of_ne m c main_arg4 (by decide)
    _ = m ((c : Thread nD τ).loc main_arg4) :=
      (Gen.V3_of m c main_arg4 (by decide)).trans ((Gen.V2_of m c main_arg4 (by decide)).trans (Gen.V1_of m c main_arg4 (by decide)))

/-- `main_arg5` reaches the end as launched: no host stretch writes it, and a region either reads it through an input
    window or passes it by. -/
theorem B10_arg5 (c : Dev nD) : B10 m c (Proc.devRef .tc main_arg5) = m ((c : Thread nD τ).loc main_arg5) :=
  calc B10 m c (Proc.devRef .tc main_arg5)
    _ = B9 m c (Proc.devRef .tc main_arg5) := B10_of_ne m c main_arg5 (by decide)
    _ = B8 m c (Proc.devRef .tc main_arg5) := StableHlo.after_of_writes_sub hostOps3 _ hostOps3_writes (by decide)
    _ = B7 m c (Proc.devRef .tc main_arg5) := B8_of_ne m c main_arg5 (by decide)
    _ = B6 m c (Proc.devRef .tc main_arg5) := StableHlo.after_of_writes_sub hostOps2 _ hostOps2_writes (by decide)
    _ = B5 m c (Proc.devRef .tc main_arg5) := B6_of_ne m c main_arg5 (by decide)
    _ = B4 m c (Proc.devRef .tc main_arg5) := StableHlo.after_of_writes_sub hostOps1 _ hostOps1_writes (by decide)
    _ = B3 m c (Proc.devRef .tc main_arg5) := B4_of_ne m c main_arg5 (by decide)
    _ = m ((c : Thread nD τ).loc main_arg5) :=
      (Gen.V3_of m c main_arg5 (by decide)).trans ((Gen.V2_of m c main_arg5 (by decide)).trans (Gen.V1_of m c main_arg5 (by decide)))

/-- `main_arg6` reaches the end as launched: no host stretch writes it, and a region either reads it through an input
    window or passes it by. -/
theorem B10_arg6 (c : Dev nD) : B10 m c (Proc.devRef .tc main_arg6) = m ((c : Thread nD τ).loc main_arg6) :=
  calc B10 m c (Proc.devRef .tc main_arg6)
    _ = B9 m c (Proc.devRef .tc main_arg6) := B10_of_ne m c main_arg6 (by decide)
    _ = B8 m c (Proc.devRef .tc main_arg6) := StableHlo.after_of_writes_sub hostOps3 _ hostOps3_writes (by decide)
    _ = B7 m c (Proc.devRef .tc main_arg6) := B8_of_ne m c main_arg6 (by decide)
    _ = B6 m c (Proc.devRef .tc main_arg6) := StableHlo.after_of_writes_sub hostOps2 _ hostOps2_writes (by decide)
    _ = B5 m c (Proc.devRef .tc main_arg6) := B6_of_ne m c main_arg6 (by decide)
    _ = B4 m c (Proc.devRef .tc main_arg6) := StableHlo.after_of_writes_sub hostOps1 _ hostOps1_writes (by decide)
    _ = B3 m c (Proc.devRef .tc main_arg6) := B4_of_ne m c main_arg6 (by decide)
    _ = m ((c : Thread nD τ).loc main_arg6) :=
      (Gen.V3_of m c main_arg6 (by decide)).trans ((Gen.V2_of m c main_arg6 (by decide)).trans (Gen.V1_of m c main_arg6 (by decide)))

/-- `main_arg7` reaches the end as launched: no host stretch writes it, and a region either reads it through an input
    window or passes it by. -/
theorem B10_arg7 (c : Dev nD) : B10 m c (Proc.devRef .tc main_arg7) = m ((c : Thread nD τ).loc main_arg7) :=
  calc B10 m c (Proc.devRef .tc main_arg7)
    _ = B9 m c (Proc.devRef .tc main_arg7) := B10_of_ne m c main_arg7 (by decide)
    _ = B8 m c (Proc.devRef .tc main_arg7) := StableHlo.after_of_writes_sub hostOps3 _ hostOps3_writes (by decide)
    _ = B7 m c (Proc.devRef .tc main_arg7) := B8_of_ne m c main_arg7 (by decide)
    _ = B6 m c (Proc.devRef .tc main_arg7) := StableHlo.after_of_writes_sub hostOps2 _ hostOps2_writes (by decide)
    _ = B5 m c (Proc.devRef .tc main_arg7) := B6_of_ne m c main_arg7 (by decide)
    _ = B4 m c (Proc.devRef .tc main_arg7) := StableHlo.after_of_writes_sub hostOps1 _ hostOps1_writes (by decide)
    _ = B3 m c (Proc.devRef .tc main_arg7) := B4_of_ne m c main_arg7 (by decide)
    _ = m ((c : Thread nD τ).loc main_arg7) :=
      (Gen.V3_of m c main_arg7 (by decide)).trans ((Gen.V2_of m c main_arg7 (by decide)).trans (Gen.V1_of m c main_arg7 (by decide)))

/-- THE FRAME of the kernel program, at any float instance: it runs to the end, faults nowhere, and every argument
    array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (B10_arg0 m c),
    (h c _ (mem_uc main_arg1 (by decide))).trans (B10_arg1 m c),
    (h c _ (mem_uc main_arg2 (by decide))).trans (B10_arg2 m c),
    (h c _ (mem_uc main_arg3 (by decide))).trans (B10_arg3 m c),
    (h c _ (mem_uc main_arg4 (by decide))).trans (B10_arg4 m c),
    (h c _ (mem_uc main_arg5 (by decide))).trans (B10_arg5 m c),
    (h c _ (mem_uc main_arg6 (by decide))).trans (B10_arg6 m c),
    (h c _ (mem_uc main_arg7 (by decide))).trans (B10_arg7 m c)⟩) (run_all m ρ)

/-- What the program returns, on core `c`: the array region 3's ten grid points leave in its output window. -/
def result (c : Dev nD) : Buf (Elt F) ((c.tc : Thread nD τ).loc main_v75) := B10 m c (Proc.devRef .tc main_v75)

/-- The run with its result named: `main_v75` ends at `result`, every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v75) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v75 (by decide)),
    (h c _ (mem_uc main_arg0 (by decide))).trans (B10_arg0 m c),
    (h c _ (mem_uc main_arg1 (by decide))).trans (B10_arg1 m c),
    (h c _ (mem_uc main_arg2 (by decide))).trans (B10_arg2 m c),
    (h c _ (mem_uc main_arg3 (by decide))).trans (B10_arg3 m c),
    (h c _ (mem_uc main_arg4 (by decide))).trans (B10_arg4 m c),
    (h c _ (mem_uc main_arg5 (by decide))).trans (B10_arg5 m c),
    (h c _ (mem_uc main_arg6 (by decide))).trans (B10_arg6 m c),
    (h c _ (mem_uc main_arg7 (by decide))).trans (B10_arg7 m c)⟩) (run_all m ρ)

end Cert.Kernel.Run

end
-- ==== Proof.Linear0.lean ====
/-
  The first linear map, one block of rows at a time.

  Region 0 runs over ten grid points. At point `t` its body reads rows 10000·t … 10000·t + 9999 of the
  embedding table (a 10000 × 64 block), reads the whole 64 × 128 weight matrix, multiplies them on the matrix unit into
  a zero accumulator and stores the 10000 × 128 product as the block of the same rows of the result. The body reads
  nothing else and keeps nothing between points, so what it leaves in the result's staging buffer is a function
  of the two blocks it was handed: `product` below. Everything here is stated for any float instance.
-/
import proofs.«107830_j10685878632725_1_alg».proof.Proof.Gen.KernelIdeal.Launch
import proofs.«107830_j10685878632725_1_alg».proof.Proof.Gen.KernelIdeal.Skeleton
import proofs.«107830_j10685878632725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Linear0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each of the three staging buffers, as the rectangle the body's loads and its store name. -/
abbrev wholeX : Rect S10000x64 := Rect.unit (s := S10000x64) ![0, 0] S10000x64.size inb_S10000x64_S10000x64_0_0
abbrev wholeW : Rect S64x128 := Rect.unit (s := S64x128) ![0, 0] S64x128.size inb_S64x128_S64x128_0_0
abbrev wholeO : Rect S10000x128 := Rect.unit (s := S10000x128) ![0, 0] S10000x128.size inb_S10000x128_S10000x128_0_0

/-- What the body leaves in the result's staging buffer: its one store, of the product of the row block `x`
    with the weights `w`, over the whole buffer. -/
def product (x : Vec F S10000x64 .f32) (w : Vec F S64x128 .f32) : Vec F S10000x128 .f32 :=
  View.canon [⟨wholeO, k0_pay1 (View.ld x wholeX) (View.ld w wholeW)⟩]

/-- The one store covers every entry of the buffer. -/
theorem product_cover (p : Vec F S10000x128 .f32) (y : S10000x128.Idx) :
    ∃ pc ∈ ([⟨wholeO, p⟩] : List (View.Piece (Elt F) S10000x128 .f32)), y ∈ pc.1.set :=
  View.cover_of_tiled [⟨wholeO, p⟩] S10000x128.size (by rfl) y

set_option maxHeartbeats 1000000 in
/-- The body on whole staging buffers: from the row block at `x`, the weights at `w` and the result's buffer at
    anything, it runs to its continuation with the two inputs as they were and the result's buffer at
    `product x w`. -/
theorem body_triple (c : Dev nD) (E : Set ℕ) (i : grid0.Coords)
    (a1 : Memref sig .tc .vmem S10000x64 .f32) (h1 : a1.IsWhole) (a2 : Memref sig .tc .vmem S64x128 .f32) (h2 : a2.IsWhole)
    (a3 : Memref sig .tc .vmem S10000x128 .f32) (h3 : a3.IsWhole)
    (x : Vec F S10000x64 .f32) (w : Vec F S64x128 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (product x w)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_cover _)

/-! ## The region's proof data, at the contents `V` it is entered with -/

section AtEntry

variable (V : (c : Dev nD) → (b : Ref sig .tc) → Buf (Elt F) ((c : Thread nD τ).loc b))

/-- Window `w`'s block at point `t`, read off its array as the region finds it. For the table this is the
    block of rows 10000·t …; for the weights it is the whole matrix at every point. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The table's current staging buffer holds its row block at every point (it is fetched at every point), for any
    proof data over the entry contents whose body leaves that buffer as it found it. -/
theorem rows_held {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights' staging buffer holds the whole matrix at every point: fetched at the first point, and at a later
    point its block index has not moved, so the buffer still holds what that fetch brought. -/
theorem weights_held {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The proof data of region 0 on core `c`: the arrays as the region finds them; after the body at point `t` the
    two inputs' buffers still at their blocks and the result's buffer at the product of those blocks; between points
    only what every body may use unseen (scratch it does not have, the generator register); nothing owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => product (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blockAt V c 0 t := by dsimp only [dat]
theorem after_weights (c : Dev nD) (t : Fin cfg0.N) : (dat V c).after 1 t = blockAt V c 1 t := by dsimp only [dat]
theorem after_product (c : Dev nD) (t : Fin cfg0.N) :
    (dat V c).after 2 t = product (blockAt V c 0 t) (blockAt V c 1 t) := by dsimp only [dat]

theorem before_rows (c : Dev nD) (t : Fin cfg0.N) (d) : (dat V c).before 0 t d = blockAt V c 0 t :=
  rows_held V (dat V c) (dat_A V c 0) (after_rows V c) t d
theorem before_weights (c : Dev nD) (t : Fin cfg0.N) (d) : (dat V c).before 1 t d = blockAt V c 1 t :=
  weights_held V (dat V c) (dat_A V c 1) (after_weights V c) t d

/-- What the body is handed at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the two inputs' buffers hold their blocks, so the triple applies; the invariant and
    what the core owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_weights]
  rw [show (dat V c).Φ t.succ = (dat V c).Φ t.castSucc from rfl,
    show (dat V c).owesAt () t.succ = (dat V c).owesAt () t.castSucc from rfl,
    after_rows, after_weights, after_product]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 0, at every point. -/
theorem body_obligation (c : Dev nD) : BodyObligation (dat (F := F) V c) (defs₀ (F := F)) Variants.none () Set.univ := fun t => by
  rw [bigSep_W0, bigSep_W0]
  exact body_at V c t

end AtEntry

end Cert.KernelIdeal.Linear0

end
-- ==== Proof.Linear1.lean ====
/-
  The second linear map, one block of rows at a time.

  Region 1 runs over ten grid points. At point `t` its body reads rows 10000·t … 10000·t + 9999 of the
  hidden layer (a 10000 × 128 block), reads the whole 128 × 64 weight matrix, multiplies them on the matrix unit into
  a zero accumulator and stores the 10000 × 64 product as the block of the same rows of the result. The body reads
  nothing else and keeps nothing between points, so what it leaves in the result's staging buffer is a function
  of the two blocks it was handed: `product` below. Everything here is stated for any float instance.
-/
import proofs.«107830_j10685878632725_1_alg».proof.Proof.Gen.KernelIdeal.Launch
import proofs.«107830_j10685878632725_1_alg».proof.Proof.Gen.KernelIdeal.Skeleton
import proofs.«107830_j10685878632725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Linear1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of each of the three staging buffers, as the rectangle the body's loads and its store name. -/
abbrev wholeX : Rect S10000x128 := Rect.unit (s := S10000x128) ![0, 0] S10000x128.size inb_S10000x128_S10000x128_0_0
abbrev wholeW : Rect S128x64 := Rect.unit (s := S128x64) ![0, 0] S128x64.size inb_S128x64_S128x64_0_0
abbrev wholeO : Rect S10000x64 := Rect.unit (s := S10000x64) ![0, 0] S10000x64.size inb_S10000x64_S10000x64_0_0

/-- What the body leaves in the result's staging buffer: its one store, of the product of the row block `x`
    with the weights `w`, over the whole buffer. -/
def product (x : Vec F S10000x128 .f32) (w : Vec F S128x64 .f32) : Vec F S10000x64 .f32 :=
  View.canon [⟨wholeO, k1_pay1 (View.ld x wholeX) (View.ld w wholeW)⟩]

/-- The one store covers every entry of the buffer. -/
theorem product_cover (p : Vec F S10000x64 .f32) (y : S10000x64.Idx) :
    ∃ pc ∈ ([⟨wholeO, p⟩] : List (View.Piece (Elt F) S10000x64 .f32)), y ∈ pc.1.set :=
  View.cover_of_tiled [⟨wholeO, p⟩] S10000x64.size (by rfl) y

set_option maxHeartbeats 1000000 in
/-- The body on whole staging buffers: from the row block at `x`, the weights at `w` and the result's buffer at
    anything, it runs to its continuation with the two inputs as they were and the result's buffer at
    `product x w`. -/
theorem body_triple (c : Dev nD) (E : Set ℕ) (i : grid1.Coords)
    (a1 : Memref sig .tc .vmem S10000x128 .f32) (h1 : a1.IsWhole) (a2 : Memref sig .tc .vmem S128x64 .f32) (h2 : a2.IsWhole)
    (a3 : Memref sig .tc .vmem S10000x64 .f32) (h3 : a3.IsWhole)
    (x : Vec F S10000x128 .f32) (w : Vec F S128x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (product x w)) -∗ K ⟨⟩))
      ⊢ wp frame (wpE (defs₀ (F := F)) Variants.none c none) E (cc1__linear_kernel i a1 h1 a2 h2 a3 h3) K := by
  simp only [cc1__linear_kernel_eq_skeleton]; unfold cc1__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (product_cover _)

/-! ## The region's proof data, at the contents `V` it is entered with -/

section AtEntry

variable (V : (c : Dev nD) → (b : Ref sig .tc) → Buf (Elt F) ((c : Thread nD τ).loc b))

/-- Window `w`'s block at point `t`, read off its array as the region finds it. For the hidden layer this is the
    block of rows 10000·t …; for the weights it is the whole matrix at every point. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden layer's current staging buffer holds its row block at every point (it is fetched at every point), for any
    proof data over the entry contents whose body leaves that buffer as it found it. -/
theorem rows_held {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weights' staging buffer holds the whole matrix at every point: fetched at the first point, and at a later
    point its block index has not moved, so the buffer still holds what that fetch brought. -/
theorem weights_held {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- The proof data of region 1 on core `c`: the arrays as the region finds them; after the body at point `t` the
    two inputs' buffers still at their blocks and the result's buffer at the product of those blocks; between points
    only what every body may use unseen (scratch it does not have, the generator register); nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => product (blockAt V c 0 t) (blockAt V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem after_rows (c : Dev nD) (t : Fin cfg1.N) : (dat V c).after 0 t = blockAt V c 0 t := by dsimp only [dat]
theorem after_weights (c : Dev nD) (t : Fin cfg1.N) : (dat V c).after 1 t = blockAt V c 1 t := by dsimp only [dat]
theorem after_product (c : Dev nD) (t : Fin cfg1.N) :
    (dat V c).after 2 t = product (blockAt V c 0 t) (blockAt V c 1 t) := by dsimp only [dat]

theorem before_rows (c : Dev nD) (t : Fin cfg1.N) (d) : (dat V c).before 0 t d = blockAt V c 0 t :=
  rows_held V (dat V c) (dat_A V c 0) (after_rows V c) t d
theorem before_weights (c : Dev nD) (t : Fin cfg1.N) (d) : (dat V c).before 1 t d = blockAt V c 1 t :=
  weights_held V (dat V c) (dat_A V c 1) (after_weights V c) t d

/-- What the body is handed at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the two inputs' buffers hold their blocks, so the triple applies; the invariant and
    what the core owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_rows, before_weights]
  rw [show (dat V c).Φ t.succ = (dat V c).Φ t.castSucc from rfl,
    show (dat V c).owesAt () t.succ = (dat V c).owesAt () t.castSucc from rfl,
    after_rows, after_weights, after_product]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 1, at every point. -/
theorem body_obligation (c : Dev nD) : BodyObligation (dat (F := F) V c) (defs₀ (F := F)) Variants.none () Set.univ := fun t => by
  rw [bigSep_W1, bigSep_W1]
  exact body_at V c t

end AtEntry

end Cert.KernelIdeal.Linear1

end
-- ==== Proof.Stats.lean ====
/-
  The batch statistics: column sums and column sums of squares, accumulated over the row blocks.

  Region 2 runs over ten grid points. At point `t` its body reads rows 10000·t … 10000·t + 9999 of the activations (a
  10000 × 64 block) and adds the block's column sums, and the column sums of its squares, onto two [1, 64] rows it
  keeps in scratch from point to point: the first point zeroes the two rows before adding, and the last point, after
  adding, copies them into the staging buffers of the two results, which are written back there and nowhere else.
  So what the scratch rows hold before point `t` is a fold over the blocks below `t` — `sumsUpTo`, `squaresUpTo`
  below —, the region's invariant says so, and the two results end at the fold over all ten blocks. Everything here
  is stated for any float instance.
-/
import proofs.«107830_j10685878632725_1_alg».proof.Proof.Gen.KernelIdeal.Launch
import proofs.«107830_j10685878632725_1_alg».proof.Proof.Gen.KernelIdeal.Skeleton
import proofs.«107830_j10685878632725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a row block's staging buffer and of a [1, 64] row, as the rectangles the body's loads and stores name. -/
abbrev wholeX : Rect S10000x64 := Rect.unit (s := S10000x64) ![0, 0] S10000x64.size inb_S10000x64_S10000x64_0_0
abbrev wholeR : Rect S1x64 := Rect.unit (s := S1x64) ![0, 0] S1x64.size inb_S1x64_S1x64_0_0

theorem hz : (![0, 0] : Fin 2 → Nat) = fun _ => 0 := funext fun a => by fin_cases a <;> rfl

/-- The first condition of the body (the grid coordinate is zero), as the body computes it. -/
abbrev cond1 (i : grid2.Coords) : Prop :=
  (Scalar.cmpi .ne (Scalar.extui (Scalar.cmpi .eq (BitVec.ofNat 32 (i 0).val) 0#32)) 0#32) = 1#1
/-- It holds at the first point only. -/
theorem hcond1 : ∀ t : Fin cfg2.N, cond1 (grid2.coords t) ↔ t.val = 0 :=
  (by decide +kernel : ∀ t : Fin grid2.N, cond1 (grid2.coords t) ↔ t.val = 0)
/-- The second condition (the grid coordinate is nine) holds at the last point only. -/
theorem hcond2 : ∀ t : Fin cfg2.N, k2_cond2 (grid2.coords t) = 1#1 ↔ t.val = 9 :=
  (by decide +kernel : ∀ t : Fin grid2.N, k2_cond2 (grid2.coords t) = 1#1 ↔ t.val = 9)

/-- One whole-row store, the last made, covers the row. -/
theorem row_cover (p : Vec F S1x64 .f32) (L : List (View.Piece (Elt F) S1x64 .f32)) (y : S1x64.Idx) :
    ∃ pc ∈ ((⟨wholeR, p⟩ :: L) : List (View.Piece (Elt F) S1x64 .f32)), y ∈ pc.1.set :=
  ⟨_, List.mem_cons_self, View.mem_set_unit_zero hz inb_S1x64_S1x64_0_0 y⟩

set_option maxHeartbeats 1000000 in
theorem body_first (c : Dev nD) (E : Set ℕ) (i : grid2.Coords) (hc1 : cond1 i) (hc2 : ¬ k2_cond2 i = 1#1)
    (a1 : Memref sig .tc .vmem S10000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole)
    (x : Vec F S10000x64 .f32)  (K : PUnit → sProp 𝕄) :
    iprop(owns (c : Thread nD τ) a1 fullShare x ∗ (∃ d, owns (c : Thread nD τ) a4 fullShare d) ∗ (∃ d, owns (c : Thread nD τ) a5 fullShare d)
        ∗ (iprop(owns (c : Thread nD τ) a1 fullShare x ∗ owns (c : Thread nD τ) a4 fullShare (k2_pay4 x (k2_pay1 (F := F)))
            ∗ owns (c : Thread nD τ) a5 fullShare (k2_pay5 x (k2_pay2 (F := F)))) -∗ K ⟨⟩))
      ⊢ wp frame (wpE (defs₀ (F := F)) Variants.none c none) E (cc2__stats_kernel i a1 h1 a2 h2 a3 h3 a4 h4 a5 h5) K := by
  simp only [cc2__stats_kernel_eq_skeleton]; unfold cc2__stats_kernel_skel
  unfold owns
  iintro ⟨⟨%f1, %hf1, H1⟩, ⟨%d4, %f4, -, H4⟩, ⟨%d5, %f5, -, H5⟩, Hk⟩
  subst hf1
  sl_exec (disch := first | exact hc1 | exact hc2)
  sl_step
  iapply Hk
  isplitl [H1]
  · iexists f1; isplitr; · ipureintro; rfl
    iexact H1
  isplitl [H4]
  · iexists _; isplitr
    swap; · iexact H4
    ipureintro
    sl_unfold_words
    rw [View.read_writes_eq_canon _ _ _ (row_cover _ _), View.canon_cons_unit_zero (S := S1x64) hz,
      View.readCov_unit_zero (S := S1x64) _ hz]
    simp only [View.readAt_eq_ld, View.ld_unit_zero (S := S10000x64) hz]
  iexists _; isplitr
  swap; · iexact H5
  ipureintro
  sl_unfold_words
  rw [View.read_writes_eq_canon _ _ _ (row_cover _ _), View.canon_cons_unit_zero (S := S1x64) hz,
    View.readCov_unit_zero (S := S1x64) _ hz]
  simp only [View.readAt_eq_ld, View.ld_unit_zero (S := S10000x64) hz]

set_option maxHeartbeats 1000000 in
theorem body_last (c : Dev nD) (E : Set ℕ) (i : grid2.Coords) (hc1 : ¬ cond1 i) (hc2 : k2_cond2 i = 1#1)
    (a1 : Memref sig .tc .vmem S10000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole)
    (x : Vec F S10000x64 .f32) (s q : Vec F S1x64 .f32) (K : PUnit → sProp 𝕄) :
    iprop(owns (c : Thread nD τ) a1 fullShare x ∗ (∃ d, owns (c : Thread nD τ) a2 fullShare d) ∗ (∃ d, owns (c : Thread nD τ) a3 fullShare d)
        ∗ owns (c : Thread nD τ) a4 fullShare s ∗ owns (c : Thread nD τ) a5 fullShare q
        ∗ (iprop(owns (c : Thread nD τ) a1 fullShare x ∗ owns (c : Thread nD τ) a2 fullShare (k2_pay4 x s)
            ∗ owns (c : Thread nD τ) a3 fullShare (k2_pay5 x q)
            ∗ owns (c : Thread nD τ) a4 fullShare (k2_pay4 x s) ∗ owns (c : Thread nD τ) a5 fullShare (k2_pay5 x q)) -∗ K ⟨⟩))
      ⊢ wp frame (wpE (defs₀ (F := F)) Variants.none c none) E (cc2__stats_kernel i a1 h1 a2 h2 a3 h3 a4 h4 a5 h5) K := by
  simp only [cc2__stats_kernel_eq_skeleton]; unfold cc2__stats_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  subst hf1; subst hf4; subst hf5
  sl_exec (disch := first | exact hc1 | exact hc2)
  sl_step
  iapply Hk
  isplitl [H1]
  · iexists f1; isplitr; · ipureintro; rfl
    iexact H1
  isplitl [H2]
  · iexists _; isplitr
    swap; · iexact H2
    ipureintro
    sl_unfold_words
    rw [View.read_writes_eq_canon _ _ _ (row_cover _ _), View.canon_unit_zero (S := S1x64) hz,
      View.readCov_unit_zero (S := S1x64) _ hz]
    simp only [View.readAt_eq_ld, View.ld_unit_zero (S := S10000x64) hz, View.ld_unit_zero (S := S1x64) hz]
  isplitl [H3]
  · iexists _; isplitr
    swap; · iexact H3
    ipureintro
    sl_unfold_words
    rw [View.read_writes_eq_canon _ _ _ (row_cover _ _), View.canon_unit_zero (S := S1x64) hz,
      View.readCov_unit_zero (S := S1x64) _ hz]
    simp only [View.readAt_eq_ld, View.ld_unit_zero (S := S10000x64) hz, View.ld_unit_zero (S := S1x64) hz]
  isplitl [H4]
  · iexists _; isplitr
    swap; · iexact H4
    ipureintro
    sl_unfold_words
    rw [View.read_writes_eq_canon _ _ _ (row_cover _ _), View.canon_unit_zero (S := S1x64) hz]
    simp only [View.readAt_eq_ld, View.ld_unit_zero (S := S10000x64) hz, View.ld_unit_zero (S := S1x64) hz]
  iexists _; isplitr
  swap; · iexact H5
  ipureintro
  sl_unfold_words
  rw [View.read_writes_eq_canon _ _ _ (row_cover _ _), View.canon_unit_zero (S := S1x64) hz]
  simp only [View.readAt_eq_ld, View.ld_unit_zero (S := S10000x64) hz, View.ld_unit_zero (S := S1x64) hz]

set_option maxHeartbeats 1000000 in
theorem body_mid (c : Dev nD) (E : Set ℕ) (i : grid2.Coords) (hc1 : ¬ cond1 i) (hc2 : ¬ k2_cond2 i = 1#1)
    (a1 : Memref sig .tc .vmem S10000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole)
    (x : Vec F S10000x64 .f32) (s q : Vec F S1x64 .f32) (K : PUnit → sProp 𝕄) :
    iprop(owns (c : Thread nD τ) a1 fullShare x ∗ owns (c : Thread nD τ) a4 fullShare s ∗ owns (c : Thread nD τ) a5 fullShare q
        ∗ (iprop(owns (c : Thread nD τ) a1 fullShare x ∗ owns (c : Thread nD τ) a4 fullShare (k2_pay4 x s)
            ∗ owns (c : Thread nD τ) a5 fullShare (k2_pay5 x q)) -∗ K ⟨⟩))
      ⊢ wp frame (wpE (defs₀ (F := F)) Variants.none c none) E (cc2__stats_kernel i a1 h1 a2 h2 a3 h3 a4 h4 a5 h5) K := by
  simp only [cc2__stats_kernel_eq_skeleton]; unfold cc2__stats_kernel_skel
  unfold owns
  iintro ⟨⟨%f1, %hf1, H1⟩, ⟨%f4, %hf4, H4⟩, ⟨%f5, %hf5, H5⟩, Hk⟩
  subst hf1; subst hf4; subst hf5
  sl_exec (disch := first | exact hc1 | exact hc2)
  sl_step
  iapply Hk
  isplitl [H1]
  · iexists f1; isplitr; · ipureintro; rfl
    iexact H1
  isplitl [H4]
  · iexists _; isplitr
    swap; · iexact H4
    ipureintro
    rw [View.read_writes_eq_canon _ _ _ (row_cover _ _), View.canon_unit_zero (S := S1x64) hz]
    simp only [View.readAt_eq_ld, View.ld_unit_zero (S := S10000x64) hz, View.ld_unit_zero (S := S1x64) hz]
  iexists _; isplitr
  swap; · iexact H5
  ipureintro
  rw [View.read_writes_eq_canon _ _ _ (row_cover _ _), View.canon_unit_zero (S := S1x64) hz]
  simp only [View.readAt_eq_ld, View.ld_unit_zero (S := S10000x64) hz, View.ld_unit_zero (S := S1x64) hz]

/-! ## The region's proof data, at the contents `V` it is entered with -/

section AtEntry

variable (V : (c : Dev nD) → (b : Ref sig .tc) → Buf (Elt F) ((c : Thread nD τ).loc b))

/-- Window `w`'s block at point `t`, read off its array as the region finds it: for window 0 the block of rows
    10000·t … of the activations. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running column sums after the first `n` row blocks: a row of zeros, then one accumulation step per block. -/
def sumsN (c : Dev nD) : ℕ → Vec F S1x64 .f32
  | 0 => k2_pay1
  | n + 1 => if h : n < cfg2.N then k2_pay4 (blockAt V c 0 ⟨n, h⟩) (sumsN c n) else sumsN c n
/-- The running column sums of squares after the first `n` row blocks. -/
def squaresN (c : Dev nD) : ℕ → Vec F S1x64 .f32
  | 0 => k2_pay2
  | n + 1 => if h : n < cfg2.N then k2_pay5 (blockAt V c 0 ⟨n, h⟩) (squaresN c n) else squaresN c n

/-- The running sums before point `t` (after the last point, at `Fin.last`: the sums over the whole array). -/
def sumsUpTo (c : Dev nD) (t : Fin (cfg2.N + 1)) : Vec F S1x64 .f32 := sumsN V c t.val
def squaresUpTo (c : Dev nD) (t : Fin (cfg2.N + 1)) : Vec F S1x64 .f32 := squaresN V c t.val

theorem sumsUpTo_of_zero (c : Dev nD) (t : Fin (cfg2.N + 1)) (h : t.val = 0) : sumsUpTo V c t = k2_pay1 := by
  unfold sumsUpTo; rw [h]; rfl
theorem squaresUpTo_of_zero (c : Dev nD) (t : Fin (cfg2.N + 1)) (h : t.val = 0) : squaresUpTo V c t = k2_pay2 := by
  unfold squaresUpTo; rw [h]; rfl
theorem sumsUpTo_succ (c : Dev nD) (t : Fin cfg2.N) :
    sumsUpTo V c t.succ = k2_pay4 (blockAt V c 0 t) (sumsUpTo V c t.castSucc) :=
  (dif_pos t.isLt).trans rfl
theorem squaresUpTo_succ (c : Dev nD) (t : Fin cfg2.N) :
    squaresUpTo V c t.succ = k2_pay5 (blockAt V c 0 t) (squaresUpTo V c t.castSucc) :=
  (dif_pos t.isLt).trans rfl

/-- What the region keeps between points: the two scratch rows — before the first point at anything (that point
    overwrites them), before a later point `t` at the running sums over the blocks below `t` —, every other scoped buffer
    that is no staging buffer of this region at some contents, and the generator register at some state. -/
def inv (c : Dev nD) (t : Fin (cfg2.N + 1)) : sProp 𝕄 :=
  iprop(∃ s : Vec F S1x64 .f32, ∃ q : Vec F S1x64 .f32, ⌜t.val ≠ 0 → s = sumsUpTo V c t ∧ q = squaresUpTo V c t⌝
    ∗ owns (c : Thread nD τ) (Memref.whole cc2_scratch0) fullShare s
    ∗ owns (c : Thread nD τ) (Memref.whole cc2_scratch1) fullShare q
    ∗ Pipeline.scopedRestBut (Ix := Unit) (Name := ℕ) (U := UR sig nD τ) (Lvl := ℕ) (Val := Elt F) spec2 c [cc2_scratch0, cc2_scratch1]
    ∗ ∃ r, prngReg c r)

/-- The proof data of region 2 on core `c`: the arrays as the region finds them; after the body at point `t` the
    row block's buffer still at its block and — where the body writes them, at the last point — the two results'
    buffers at the running sums over all blocks up to `t`; between points the invariant above; nothing owed. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => sumsUpTo V c t.succ
    | ⟨2, _⟩ => squaresUpTo V c t.succ
  Φ t := inv V c t
  q _ := fullShare
  owed _ := 0

theorem dat_A (c : Dev nD) (w : Fin cfg2.W) : (dat V c).A w = V c (Pipeline.arrRef spec2 w) := by
  dsimp only [dat]
theorem dat_Φ (c : Dev nD) (t : Fin (cfg2.N + 1)) : (dat V c).Φ t = inv V c t := by dsimp only [dat]

theorem after_rows (c : Dev nD) (t : Fin cfg2.N) : (dat V c).after 0 t = blockAt V c 0 t := by dsimp only [dat]
theorem after_sums (c : Dev nD) (t : Fin cfg2.N) : (dat V c).after 1 t = sumsUpTo V c t.succ := by dsimp only [dat]
theorem after_squares (c : Dev nD) (t : Fin cfg2.N) : (dat V c).after 2 t = squaresUpTo V c t.succ := by dsimp only [dat]

/-- The row block's current staging buffer holds its block at every point (it is fetched at every point). -/
theorem before_rows (c : Dev nD) (t : Fin cfg2.N) (d) : (dat V c).before 0 t d = blockAt V c 0 t :=
  ((dat V c).before_in_eq_fetched 0 rfl (fun _ => rfl) (fun _ _ _ => rfl)
      (fun t => by rw [after_rows]; unfold Dat.blockOf blockAt; rw [dat_A]; try rfl) t d).trans
    (by unfold Dat.fetched Dat.blockOf blockAt; rw [dat_A]; try rfl)

/-! ## Where the two results' windows are written -/

/-- Away from the last point the body stores nothing into the results' buffers, and nothing is written back. -/
theorem idle_sums (t : Fin cfg2.N) (h : t.val ≠ 9) : cfg2.idle 1 (cfg2.grid.coords t) = true := by
  have hc : ¬ k2_cond2 (grid2.coords t) = 1#1 := fun hc => h ((hcond2 t).mp hc)
  show (!(k2_cond2 (grid2.coords t) == 1#1)) = true
  rw [show (k2_cond2 (grid2.coords t) == 1#1) = false from beq_eq_false_iff_ne.mpr hc]; rfl
theorem idle_squares (t : Fin cfg2.N) (h : t.val ≠ 9) : cfg2.idle 2 (cfg2.grid.coords t) = true := by
  have hc : ¬ k2_cond2 (grid2.coords t) = 1#1 := fun hc => h ((hcond2 t).mp hc)
  show (!(k2_cond2 (grid2.coords t) == 1#1)) = true
  rw [show (k2_cond2 (grid2.coords t) == 1#1) = false from beq_eq_false_iff_ne.mpr hc]; rfl
theorem live_sums (t : Fin cfg2.N) (h : t.val = 9) : cfg2.idle 1 (cfg2.grid.coords t) = false := by
  have hc : k2_cond2 (grid2.coords t) = 1#1 := (hcond2 t).mpr h
  show (!(k2_cond2 (grid2.coords t) == 1#1)) = false
  simp only [hc, beq_self_eq_true, Bool.not_true]
theorem live_squares (t : Fin cfg2.N) (h : t.val = 9) : cfg2.idle 2 (cfg2.grid.coords t) = false := by
  have hc : k2_cond2 (grid2.coords t) = 1#1 := (hcond2 t).mpr h
  show (!(k2_cond2 (grid2.coords t) == 1#1)) = false
  simp only [hc, beq_self_eq_true, Bool.not_true]
theorem noflush_sums (t : Fin cfg2.N) (h : t.val ≠ 9) : (cfg2.win 1).flush t = false :=
  Bool.eq_false_iff.mpr fun hf => by
    have := (flush2_1 t).mp hf; have hN : t.val < 10 := lt_of_lt_of_eq t.isLt N_2; omega
theorem noflush_squares (t : Fin cfg2.N) (h : t.val ≠ 9) : (cfg2.win 2).flush t = false :=
  Bool.eq_false_iff.mpr fun hf => by
    have := (flush2_2 t).mp hf; have hN : t.val < 10 := lt_of_lt_of_eq t.isLt N_2; omega

/-- At a point live for a window the body leaves its buffer at what the proof data names. -/
theorem leavesExact_live {c : Dev nD} (d : Dat τ (Elt F) Unit ℕ (UR sig nD τ) ℕ cfg2 c) (w : Fin cfg2.W) (t : Fin cfg2.N)
    (hi : cfg2.idle w (cfg2.grid.coords t) = false) :
    d.leavesExact w t = owns (c : Thread nD τ) ((cfg2.win w).stage (cfg2.slots t w)) fullShare (d.after w t) := by
  unfold Dat.leavesExact; rw [hi]

/-! ## Into the invariant and out of it -/

/-- The scoped buffers no window of this region stages: the two scratch rows, then all the others. -/
theorem scopedRest_split (c : Dev nD) :
    (Pipeline.scopedRest (Ix := Unit) (Name := ℕ) (U := UR sig nD τ) (Lvl := ℕ) (Val := Elt F) spec2 c : sProp 𝕄)
      = iprop(((∃ f : Buf (Elt F) ((c : Thread nD τ).loc cc2_scratch0), ((c : Thread nD τ).loc cc2_scratch0) ↦{fullShare} f)
            ∗ (∃ f : Buf (Elt F) ((c : Thread nD τ).loc cc2_scratch1), ((c : Thread nD τ).loc cc2_scratch1) ↦{fullShare} f))
          ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- Before the first point the invariant asks nothing of the scratch rows' contents. -/
theorem phi_in (c : Dev nD) :
    iprop((∃ r, prngReg c r) ∗ Pipeline.prefHeld (pcfgs (F := F) 2).pre c (fun _ => fullShare) ((cfgs 2).toPCfg_adm).1
        ∗ Pipeline.scopedRest spec2 c) ⊢ (dat V c).Φ 0 := by
  rw [scopedRest_split, dat_Φ]; unfold inv
  iintro ⟨Hr, -, ⟨⟨%f0, H0⟩, ⟨%f1, H1⟩⟩, Hrest⟩
  iexists f0; iexists f1
  isplitr; · ipureintro; intro h; exact absurd rfl h
  isplitl [H0]; · rw [owns_whole]; iexact H0
  isplitl [H1]; · rw [owns_whole]; iexact H1
  isplitl [Hrest]; · iexact Hrest
  iexact Hr

/-- After the last point the scratch rows are forgotten again. -/
theorem phi_out (c : Dev nD) :
    (dat V c).Φ (Fin.last cfg2.N) ⊢ iprop((∃ r, prngReg c r) ∗ Pipeline.ownSems0 (fun k : PEmpty => k.elim) c
        ∗ Pipeline.scopedRest spec2 c) := by
  rw [Pipeline.ownSems0_none, scopedRest_split, dat_Φ]; unfold inv
  iintro ⟨%s, %q, -, Hs, Hq, Hrest, Hr⟩
  isplitl [Hr]; · iexact Hr
  isplitr; · iempintro
  isplitl [Hs Hq]
  · isplitl [Hs]
    · iexists s; rw [← owns_whole]; iexact Hs
    · iexists q; rw [← owns_whole]; iexact Hq
  iexact Hrest

/-! ## The body obligation -/

/-- What the body is handed at point `t`, window by window, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it hands back: the results' buffers as it found them away from the last point, at the sums there. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ (dat V c).leavesExact 1 t ∗ (dat V c).leavesExact 2 t)

set_option maxHeartbeats 1000000 in
/-- The body at any point, by the three cases of its two conditions: at the first point the scratch rows are zeroed and
    the first block accumulated; at a middle point the block is accumulated onto the running sums; at the last
    point it is accumulated and the sums are copied out. The row block's buffer is left as found throughout. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_rows]
  rw [show (dat V c).owesAt () t.succ = (dat V c).owesAt () t.castSucc from rfl, after_rows, dat_Φ, dat_Φ]
  unfold inv
  have hN : t.val < 10 := lt_of_lt_of_eq t.isLt N_2
  by_cases h0 : t.val = 0
  · -- the first point
    have h9 : t.val ≠ 9 := by omega
    rw [Dat.leavesExact_idle _ 1 t (idle_sums t h9) (noflush_sums t h9),
      Dat.leavesExact_idle _ 2 t (idle_squares t h9) (noflush_squares t h9)]
    iintro ⟨⟨%s, %q, -, Hs, Hq, Hrest⟩, Ho, ⟨%d0, H0⟩, H1, H2⟩
    iapply (body_first c Set.univ _ ((hcond1 t).mpr h0) (fun hc => h9 ((hcond2 t).mp hc)) _ _ _ _ _ _ _ _ _ _ (blockAt V c 0 t) _)
    isplitl [H0]; · iexact H0
    isplitl [Hs]; · iexists _; iexact Hs
    isplitl [Hq]; · iexists _; iexact Hq
    iintro ⟨H0, Hs, Hq⟩
    isplitl [Hs Hq Hrest]
    · iexists (k2_pay4 (blockAt V c 0 t) (k2_pay1 (F := F))); iexists (k2_pay5 (blockAt V c 0 t) (k2_pay2 (F := F)))
      isplitr
      · ipureintro; intro _
        exact ⟨by rw [sumsUpTo_succ, sumsUpTo_of_zero V c t.castSucc h0],
          by rw [squaresUpTo_succ, squaresUpTo_of_zero V c t.castSucc h0]⟩
      isplitl [Hs]; · iexact Hs
      isplitl [Hq]; · iexact Hq
      iexact Hrest
    isplitl [Ho]; · iexact Ho
    isplitl [H0]; · iexact H0
    isplitl [H1]; · iexact H1
    iexact H2
  · by_cases h9 : t.val = 9
    · -- the last point
      rw [leavesExact_live _ 1 t (live_sums t h9), leavesExact_live _ 2 t (live_squares t h9), after_sums, after_squares]
      iintro ⟨⟨%s, %q, %hsq, Hs, Hq, Hrest⟩, Ho, ⟨%d0, H0⟩, ⟨%d1, H1⟩, ⟨%d2, H2⟩⟩
      obtain ⟨rfl, rfl⟩ := hsq h0
      iapply (body_last c Set.univ _ (fun hc => h0 ((hcond1 t).mp hc)) ((hcond2 t).mpr h9) _ _ _ _ _ _ _ _ _ _ (blockAt V c 0 t) _ _ _)
      isplitl [H0]; · iexact H0
      isplitl [H1]; · iexists _; iexact H1
      isplitl [H2]; · iexists _; iexact H2
      isplitl [Hs]; · iexact Hs
      isplitl [Hq]; · iexact Hq
      iintro ⟨H0, H1, H2, Hs, Hq⟩
      isplitl [Hs Hq Hrest]
      · iexists (k2_pay4 (blockAt V c 0 t) (sumsUpTo V c t.castSucc)); iexists (k2_pay5 (blockAt V c 0 t) (squaresUpTo V c t.castSucc))
        isplitr
        · ipureintro; intro _
          exact ⟨(sumsUpTo_succ V c t).symm, (squaresUpTo_succ V c t).symm⟩
        isplitl [Hs]; · iexact Hs
        isplitl [Hq]; · iexact Hq
        iexact Hrest
      isplitl [Ho]; · iexact Ho
      isplitl [H0]; · iexact H0
      isplitl [H1]; · rw [sumsUpTo_succ]; iexact H1
      rw [squaresUpTo_succ]; iexact H2
    · -- a middle point
      rw [Dat.leavesExact_idle _ 1 t (idle_sums t h9) (noflush_sums t h9),
        Dat.leavesExact_idle _ 2 t (idle_squares t h9) (noflush_squares t h9)]
      iintro ⟨⟨%s, %q, %hsq, Hs, Hq, Hrest⟩, Ho, ⟨%d0, H0⟩, H1, H2⟩
      obtain ⟨rfl, rfl⟩ := hsq h0
      iapply (body_mid c Set.univ _ (fun hc => h0 ((hcond1 t).mp hc)) (fun hc => h9 ((hcond2 t).mp hc)) _ _ _ _ _ _ _ _ _ _ (blockAt V c 0 t) _ _ _)
      isplitl [H0]; · iexact H0
      isplitl [Hs]; · iexact Hs
      isplitl [Hq]; · iexact Hq
      iintro ⟨H0, Hs, Hq⟩
      isplitl [Hs Hq Hrest]
      · iexists (k2_pay4 (blockAt V c 0 t) (sumsUpTo V c t.castSucc)); iexists (k2_pay5 (blockAt V c 0 t) (squaresUpTo V c t.castSucc))
        isplitr
        · ipureintro; intro _
          exact ⟨(sumsUpTo_succ V c t).symm, (squaresUpTo_succ V c t).symm⟩
        isplitl [Hs]; · iexact Hs
        isplitl [Hq]; · iexact Hq
        iexact Hrest
      isplitl [Ho]; · iexact Ho
      isplitl [H0]; · iexact H0
      isplitl [H1]; · iexact H1
      iexact H2

/-- The body obligation of region 2, at every point. -/
theorem body_obligation (c : Dev nD) : BodyObligation (dat (F := F) V c) (defs₀ (F := F)) Variants.none () Set.univ := fun t => by
  rw [bigSep_W2, bigSep_W2]
  exact body_at V c t

end AtEntry

end Cert.KernelIdeal.Stats

end
-- ==== Proof.Normalise.lean ====
/-
  The normalisation, one block of rows at a time.

  Region 3 runs over ten grid points. At point `t` its body reads rows 10000·t … 10000·t + 9999 of the
  activations (a 10000 × 64 block) and four rows of 64 entries each — the column means, the column variances,
  the scale and the shift, each the same whole row at every point —, subtracts the mean row from every row of
  the block, multiplies by the reciprocal square root of the variance row plus a small constant, multiplies by
  the scale row, adds the shift row, and stores the 10000 × 64 result as the block of the same rows of the
  result. The body reads nothing else and keeps nothing between points, so what it leaves in the result's staging
  buffer is a function of the five blocks it was handed: `normalised` below. Everything here is stated for any
  float instance.
-/
import proofs.«107830_j10685878632725_1_alg».proof.Proof.Gen.KernelIdeal.Launch
import proofs.«107830_j10685878632725_1_alg».proof.Proof.Gen.KernelIdeal.Skeleton
import proofs.«107830_j10685878632725_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Normalise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a 10000 × 64 staging buffer and the whole of a 1 × 64 one, as the rectangles the body's loads
    and its store name. -/
abbrev wholeX : Rect S10000x64 := Rect.unit (s := S10000x64) ![0, 0] S10000x64.size inb_S10000x64_S10000x64_0_0
abbrev wholeR : Rect S1x64 := Rect.unit (s := S1x64) ![0, 0] S1x64.size inb_S1x64_S1x64_0_0

/-- What the body leaves in the result's staging buffer: its one store, over the whole buffer, of the row block
    `x` less the mean row `m`, times the reciprocal square root of the variance row `v` plus the constant, times
    the scale row `g`, plus the shift row `b`. -/
def normalised (x : Vec F S10000x64 .f32) (m v g b : Vec F S1x64 .f32) : Vec F S10000x64 .f32 :=
  View.canon [⟨wholeX, k3_pay1 (View.ld v wholeR) (View.ld x wholeX) (View.ld m wholeR) (View.ld g wholeR) (View.ld b wholeR)⟩]

/-- The one store covers every entry of the buffer. -/
theorem normalised_cover (p : Vec F S10000x64 .f32) (y : S10000x64.Idx) :
    ∃ pc ∈ ([⟨wholeX, p⟩] : List (View.Piece (Elt F) S10000x64 .f32)), y ∈ pc.1.set :=
  View.cover_of_tiled [⟨wholeX, p⟩] S10000x64.size (by rfl) y

set_option maxHeartbeats 1000000 in
/-- The body on whole staging buffers: from the row block at `x`, the four rows at `m`, `v`, `g`, `b` and the
    result's buffer at anything, it runs to its continuation with the five inputs as they were and the result's
    buffer at `normalised x m v g b`. -/
theorem body_triple (c : Dev nD) (E : Set ℕ) (i : grid3.Coords)
    (a1 : Memref sig .tc .vmem S10000x64 .f32) (h1 : a1.IsWhole) (a2 : Memref sig .tc .vmem S1x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S10000x64 .f32) (h6 : a6.IsWhole)
    (x : Vec F S10000x64 .f32) (m v g b : Vec F S1x64 .f32) (K : PUnit → sProp 𝕄) :
    iprop(owns (c : Thread nD τ) a1 fullShare x ∗ owns (c : Thread nD τ) a2 fullShare m ∗ owns (c : Thread nD τ) a3 fullShare v
        ∗ owns (c : Thread nD τ) a4 fullShare g ∗ owns (c : Thread nD τ) a5 fullShare b ∗ (∃ d, owns (c : Thread nD τ) a6 fullShare d)
        ∗ (iprop(owns (c : Thread nD τ) a1 fullShare x ∗ owns (c : Thread nD τ) a2 fullShare m ∗ owns (c : Thread nD τ) a3 fullShare v
            ∗ owns (c : Thread nD τ) a4 fullShare g ∗ owns (c : Thread nD τ) a5 fullShare b
            ∗ owns (c : Thread nD τ) a6 fullShare (normalised x m v g b)) -∗ K ⟨⟩))
      ⊢ wp frame (wpE (defs₀ (F := F)) Variants.none c none) E (cc3__bn_kernel i a1 h1 a2 h2 a3 h3 a4 h4 a5 h5 a6 h6) K := by
  simp only [cc3__bn_kernel_eq_skeleton]; unfold cc3__bn_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (normalised_cover _)

/-! ## The region's proof data, at the contents `V` it is entered with -/

section AtEntry

variable (V : (c : Dev nD) → (b : Ref sig .tc) → Buf (Elt F) ((c : Thread nD τ).loc b))

/-- Window `w`'s block at point `t`, read off its array as the region finds it. For the activations this is the
    block of rows 10000·t …; for each of the four rows it is the whole row at every point. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, for any proof data over the entry
    contents whose body leaves that buffer as it found it: the activations' buffer is fetched at every point; a
    row's buffer is fetched at the first point, and at a later point its block index has not moved, so the buffer
    still holds what that fetch brought. -/
theorem rows_held {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

theorem mean_held {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

theorem variance_held {c : Dev nD} (dat : Dat τ (Elt F) Unit ℕ (UR sig nD τ) ℕ cfg3 c) (hA : dat.A 2 = V c (Pipeline.arrRef spec3 2))
    (hafter : ∀ t, dat.after 2 t = blockAt V c 2 t) (t : Fin cfg3.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

theorem scale_held {c : Dev nD} (dat : Dat τ (Elt F) Unit ℕ (UR sig nD τ) ℕ cfg3 c) (hA : dat.A 3 = V c (Pipeline.arrRef spec3 3))
    (hafter : ∀ t, dat.after 3 t = blockAt V c 3 t) (t : Fin cfg3.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

theorem shift_held {c : Dev nD} (dat : Dat τ (Elt F) Unit ℕ (UR sig nD τ) ℕ cfg3 c) (hA : dat.A 4 = V c (Pipeline.arrRef spec3 4))
    (hafter : ∀ t, dat.after 4 t = blockAt V c 4 t) (t : Fin cfg3.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- The proof data of region 3 on core `c`: the arrays as the region finds them; after the body at point `t` the
    five inputs' buffers still at their blocks and the result's buffer at the normalisation of those blocks; between
    points only what every body may use unseen (scratch it does not have, the generator register); nothing owed. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => normalised (blockAt V c 0 t) (blockAt V c 1 t) (blockAt V c 2 t) (blockAt V c 3 t) (blockAt V c 4 t)
  Φ _ := Pipeline.ΦA spec3 c
  q _ := fullShare
  owed _ := 0

theorem dat_A (c : Dev nD) (w : Fin cfg3.W) : (dat V c).A w = V c (Pipeline.arrRef spec3 w) := by
  dsimp only [dat]

theorem after_rows (c : Dev nD) (t : Fin cfg3.N) : (dat V c).after 0 t = blockAt V c 0 t := by dsimp only [dat]
theorem after_mean (c : Dev nD) (t : Fin cfg3.N) : (dat V c).after 1 t = blockAt V c 1 t := by dsimp only [dat]
theorem after_variance (c : Dev nD) (t : Fin cfg3.N) : (dat V c).after 2 t = blockAt V c 2 t := by dsimp only [dat]
theorem after_scale (c : Dev nD) (t : Fin cfg3.N) : (dat V c).after 3 t = blockAt V c 3 t := by dsimp only [dat]
theorem after_shift (c : Dev nD) (t : Fin cfg3.N) : (dat V c).after 4 t = blockAt V c 4 t := by dsimp only [dat]
theorem after_normalised (c : Dev nD) (t : Fin cfg3.N) :
    (dat V c).after 5 t = normalised (blockAt V c 0 t) (blockAt V c 1 t) (blockAt V c 2 t) (blockAt V c 3 t) (blockAt V c 4 t) := by
  dsimp only [dat]

theorem before_rows (c : Dev nD) (t : Fin cfg3.N) (d) : (dat V c).before 0 t d = blockAt V c 0 t :=
  rows_held V (dat V c) (dat_A V c 0) (after_rows V c) t d
theorem before_mean (c : Dev nD) (t : Fin cfg3.N) (d) : (dat V c).before 1 t d = blockAt V c 1 t :=
  mean_held V (dat V c) (dat_A V c 1) (after_mean V c) t d
theorem before_variance (c : Dev nD) (t : Fin cfg3.N) (d) : (dat V c).before 2 t d = blockAt V c 2 t :=
  variance_held V (dat V c) (dat_A V c 2) (after_variance V c) t d
theorem before_scale (c : Dev nD) (t : Fin cfg3.N) (d) : (dat V c).before 3 t d = blockAt V c 3 t :=
  scale_held V (dat V c) (dat_A V c 3) (after_scale V c) t d
theorem before_shift (c : Dev nD) (t : Fin cfg3.N) (d) : (dat V c).before 4 t d = blockAt V c 4 t :=
  shift_held V (dat V c) (dat_A V c 4) (after_shift V c) t d

/-- What the body is handed at point `t`, window by window, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it hands back. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

/-- The body at any point: the five inputs' buffers hold their blocks, so the triple applies; the invariant and
    what the core owes pass through unread. -/
theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_rows, before_mean, before_variance, before_scale, before_shift]
  rw [show (dat V c).Φ t.succ = (dat V c).Φ t.castSucc from rfl,
    show (dat V c).owesAt () t.succ = (dat V c).owesAt () t.castSucc from rfl,
    after_rows, after_mean, after_variance, after_scale, after_shift, after_normalised]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 3, at every point. -/
theorem body_obligation (c : Dev nD) : BodyObligation (dat (F := F) V c) (defs₀ (F := F)) Variants.none () Set.univ := fun t => by
  rw [bigSep_W3, bigSep_W3]
  exact body_at V c t

end AtEntry

end Cert.KernelIdeal.Normalise

end
-- ==== Proof.Run.lean ====
/-
  The kernel program's run, from the launch to the return.

  @main is three stretches of host operations (the edge lists with self-loops, the degrees and their inverse square
  roots, the per-edge weights), then region 0 (the first linear map), a stretch (gather, weight, scatter-add, bias),
  region 1 (the second linear map), a stretch of the same shape, region 2 (the column sums and sums of squares), a
  short stretch (mean and variance) and region 3 (the normalisation). Between two items every unscoped buffer of a core
  is held at known contents: the launch memory, then each host stretch applied in turn, then — after a region — the
  region's arrays at what its ten grid points leave and every other buffer as it was. Beside the buffers ride the
  core's generator register and the fact that it owes no other core anything.
-/
import proofs.«107830_j10685878632725_1_alg».proof.Proof.Linear0
import proofs.«107830_j10685878632725_1_alg».proof.Proof.Linear1
import proofs.«107830_j10685878632725_1_alg».proof.Proof.Stats
import proofs.«107830_j10685878632725_1_alg».proof.Proof.Normalise
import proofs.«107830_j10685878632725_1_alg».proof.Proof.Gen.KernelIdeal.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- A core's unscoped buffers when region 0 is entered: the launch memory after the first three host stretches. -/
abbrev B3 (c : Dev nD) : Valuation τ sig (Elt F) := Gen.V3 m c
abbrev E3 : (c : Dev nD) → (b : Ref sig .tc) → Buf (Elt F) ((c : Thread nD τ).loc b) := fun c b => B3 m c b

/-- At region 0's exit: the table and the first weights as entered, the first product's row blocks written back, every other buffer as entered. -/
def B4 (c : Dev nD) : Valuation τ sig (Elt F) :=
  Pipeline.withArrays spec0 c (B3 m c) fun w => (Linear0.dat (E3 m) c).arrAt w cfg0.N
theorem B4_arr (c : Dev nD) (w : Fin cfg0.W) :
    B4 m c (Proc.devRef .tc (Pipeline.arrRef spec0 w)) = (Linear0.dat (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m c (Proc.devRef .tc b) = B3 m c (Proc.devRef .tc b) := by
  unfold B4; exact Pipeline.withArrays_of_ne spec0 c _ _ b hb
abbrev E4 : (c : Dev nD) → (b : Ref sig .tc) → Buf (Elt F) ((c : Thread nD τ).loc b) := fun c b => B4 m c b
theorem leaves0 (c : Dev nD) (w : Fin cfg0.W) : (Linear0.dat (E3 m) c).arrAt w cfg0.N = E4 m c (Pipeline.arrRef spec0 w) :=
  (B4_arr m c w).symm
theorem keeps0 (c : Dev nD) : ∀ b, b ∉ Finset.univ.image (Pipeline.arrRef spec0) → E4 m c b = E3 m c b :=
  fun b hb => B4_of_ne m c b fun w e => hb (Finset.mem_image.mpr ⟨w, Finset.mem_univ _, e⟩)

/-- After the host stretch `hostOps1`: the first layer's gather, weighting, scatter-add and bias. -/
abbrev B5 (c : Dev nD) : Valuation τ sig (Elt F) := StableHlo.after hostOps1 (B4 m c)
abbrev E5 : (c : Dev nD) → (b : Ref sig .tc) → Buf (Elt F) ((c : Thread nD τ).loc b) := fun c b => B5 m c b

/-- At region 1's exit: the first layer's output and the second weights as entered, the second product's row blocks written back, every other buffer as entered. -/
def B6 (c : Dev nD) : Valuation τ sig (Elt F) :=
  Pipeline.withArrays spec1 c (B5 m c) fun w => (Linear1.dat (E5 m) c).arrAt w cfg1.N
theorem B6_arr (c : Dev nD) (w : Fin cfg1.W) :
    B6 m c (Proc.devRef .tc (Pipeline.arrRef spec1 w)) = (Linear1.dat (E5 m) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m c (Proc.devRef .tc b) = B5 m c (Proc.devRef .tc b) := by
  unfold B6; exact Pipeline.withArrays_of_ne spec1 c _ _ b hb
abbrev E6 : (c : Dev nD) → (b : Ref sig .tc) → Buf (Elt F) ((c : Thread nD τ).loc b) := fun c b => B6 m c b
theorem leaves1 (c : Dev nD) (w : Fin cfg1.W) : (Linear1.dat (E5 m) c).arrAt w cfg1.N = E6 m c (Pipeline.arrRef spec1 w) :=
  (B6_arr m c w).symm
theorem keeps1 (c : Dev nD) : ∀ b, b ∉ Finset.univ.image (Pipeline.arrRef spec1) → E6 m c b = E5 m c b :=
  fun b hb => B6_of_ne m c b fun w e => hb (Finset.mem_image.mpr ⟨w, Finset.mem_univ _, e⟩)

/-- After the host stretch `hostOps2`: the second layer's gather, weighting, scatter-add and bias. -/
abbrev B7 (c : Dev nD) : Valuation τ sig (Elt F) := StableHlo.after hostOps2 (B6 m c)
abbrev E7 : (c : Dev nD) → (b : Ref sig .tc) → Buf (Elt F) ((c : Thread nD τ).loc b) := fun c b => B7 m c b

/-- At region 2's exit: the second layer's output as entered, the column sums and sums of squares written at the last point, every other buffer as entered. -/
def B8 (c : Dev nD) : Valuation τ sig (Elt F) :=
  Pipeline.withArrays spec2 c (B7 m c) fun w => (Stats.dat (E7 m) c).arrAt w cfg2.N
theorem B8_arr (c : Dev nD) (w : Fin cfg2.W) :
    B8 m c (Proc.devRef .tc (Pipeline.arrRef spec2 w)) = (Stats.dat (E7 m) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m c (Proc.devRef .tc b) = B7 m c (Proc.devRef .tc b) := by
  unfold B8; exact Pipeline.withArrays_of_ne spec2 c _ _ b hb
abbrev E8 : (c : Dev nD) → (b : Ref sig .tc) → Buf (Elt F) ((c : Thread nD τ).loc b) := fun c b => B8 m c b
theorem leaves2 (c : Dev nD) (w : Fin cfg2.W) : (Stats.dat (E7 m) c).arrAt w cfg2.N = E8 m c (Pipeline.arrRef spec2 w) :=
  (B8_arr m c w).symm
theorem keeps2 (c : Dev nD) : ∀ b, b ∉ Finset.univ.image (Pipeline.arrRef spec2) → E8 m c b = E7 m c b :=
  fun b hb => B8_of_ne m c b fun w e => hb (Finset.mem_image.mpr ⟨w, Finset.mem_univ _, e⟩)

/-- After the host stretch `hostOps3`: the mean, the variance and the two parameter rows. -/
abbrev B9 (c : Dev nD) : Valuation τ sig (Elt F) := StableHlo.after hostOps3 (B8 m c)
abbrev E9 : (c : Dev nD) → (b : Ref sig .tc) → Buf (Elt F) ((c : Thread nD τ).loc b) := fun c b => B9 m c b

/-- At region 3's exit: its five inputs as entered, the normalised row blocks written back, every other buffer as entered. -/
def B10 (c : Dev nD) : Valuation τ sig (Elt F) :=
  Pipeline.withArrays spec3 c (B9 m c) fun w => (Normalise.dat (E9 m) c).arrAt w cfg3.N
theorem B10_arr (c : Dev nD) (w : Fin cfg3.W) :
    B10 m c (Proc.devRef .tc (Pipeline.arrRef spec3 w)) = (Normalise.dat (E9 m) c).arrAt w cfg3.N := by
  unfold B10; exact Pipeline.withArrays_arr spec3 launch3.win.arr_inj c _ _ w
theorem B10_of_ne (c : Dev nD) (b : Ref sig .tc) (hb : ∀ w, Pipeline.arrRef spec3 w ≠ b) :
    B10 m c (Proc.devRef .tc b) = B9 m c (Proc.devRef .tc b) := by
  unfold B10; exact Pipeline.withArrays_of_ne spec3 c _ _ b hb
abbrev E10 : (c : Dev nD) → (b : Ref sig .tc) → Buf (Elt F) ((c : Thread nD τ).loc b) := fun c b => B10 m c b
theorem leaves3 (c : Dev nD) (w : Fin cfg3.W) : (Normalise.dat (E9 m) c).arrAt w cfg3.N = E10 m c (Pipeline.arrRef spec3 w) :=
  (B10_arr m c w).symm
theorem keeps3 (c : Dev nD) : ∀ b, b ∉ Finset.univ.image (Pipeline.arrRef spec3) → E10 m c b = E9 m c b :=
  fun b hb => B10_of_ne m c b fun w e => hb (Finset.mem_image.mpr ⟨w, Finset.mem_univ _, e⟩)

/-! ## The proof data family and what rides beside the buffers -/

abbrev adm : (p : Fin 4) → (pcfgs (F := F) p).Adm := fun p => (cfgs p).toPCfg_adm

/-- Every region's proof data, each at its own entry contents. -/
def pdats : (p : Fin 4) → (c : Dev nD) → Dat τ (Elt F) Unit ℕ (UR sig nD τ) ℕ (Pipeline.pin (pcfgs (F := F)) adm p) c
  | ⟨0, _⟩ => fun c => Linear0.dat (E3 m) c
  | ⟨1, _⟩ => fun c => Linear1.dat (E5 m) c
  | ⟨2, _⟩ => fun c => Stats.dat (E7 m) c
  | ⟨3, _⟩ => fun c => Normalise.dat (E9 m) c

abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev Beside (c : Dev nD) : sProp 𝕄 := iprop((∃ r, prngReg c r) ∗ ∃ W, owes (c : Thread nD τ) (0 : CellTallies nD τ sig Unit) W)

/-! ## The four regions as segments -/

set_option backward.isDefEq.respectTransparency.types false in
/-- Region 0 between the contents `B3` and `B4`: its arrays are split out of the unscoped buffers on entry and
    put back at their final contents on exit; the generator register goes into the body's invariant and comes back;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Linear0.body_obligation (E3 m) c).loose
  hwaits := Pipeline.hwaits_of_owed_zero _ _ _ _ L lv 0 fun _ _ => rfl
  pre c := iprop(StableHlo.held (c : Thread nD τ) (Pipeline.ucRefs τ sig) (B3 m c) ∗ Beside c)
  post c := iprop(StableHlo.held (c : Thread nD τ) (Pipeline.ucRefs τ sig) (B4 m c) ∗ Beside c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (leaves0 m c) (keeps0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents `B5` and `B6`: its arrays are split out of the unscoped buffers on entry and
    put back at their final contents on exit; the generator register goes into the body's invariant and comes back;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Linear1.body_obligation (E5 m) c).loose
  hwaits := Pipeline.hwaits_of_owed_zero _ _ _ _ L lv 1 fun _ _ => rfl
  pre c := iprop(StableHlo.held (c : Thread nD τ) (Pipeline.ucRefs τ sig) (B5 m c) ∗ Beside c)
  post c := iprop(StableHlo.held (c : Thread nD τ) (Pipeline.ucRefs τ sig) (B6 m c) ∗ Beside c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (leaves1 m c) (keeps1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents `B7` and `B8`: as the other regions, except that the body's invariant also holds the two
    scratch rows at the running column sums and sums of squares, made from the scratch at any contents on entry and
    given back on exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Stats.body_obligation (E7 m) c).loose
  hwaits := Pipeline.hwaits_of_owed_zero _ _ _ _ L lv 2 fun _ _ => rfl
  pre c := iprop(StableHlo.held (c : Thread nD τ) (Pipeline.ucRefs τ sig) (B7 m c) ∗ Beside c)
  post c := iprop(StableHlo.held (c : Thread nD τ) (Pipeline.ucRefs τ sig) (B8 m c) ∗ Beside c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := Stats.phi_in (E7 m) c
  hout c := Stats.phi_out (E7 m) c
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (leaves2 m c) (keeps2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 between the contents `B9` and `B10`: its arrays are split out of the unscoped buffers on entry and
    put back at their final contents on exit; the generator register goes into the body's invariant and comes back;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Normalise.body_obligation (E9 m) c).loose
  hwaits := Pipeline.hwaits_of_owed_zero _ _ _ _ L lv 3 fun _ _ => rfl
  pre c := iprop(StableHlo.held (c : Thread nD τ) (Pipeline.ucRefs τ sig) (B9 m c) ∗ Beside c)
  post c := iprop(StableHlo.held (c : Thread nD τ) (Pipeline.ucRefs τ sig) (B10 m c) ∗ Beside c)
  X c := iprop(∃ r, prngReg c r)
  Y c := iprop(∃ r, prngReg c r)
  Z c := Pipeline.unscopedRest (Ix := Unit) (Name := ℕ) (U := UR sig nD τ) (Lvl := ℕ) spec3 c (E9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E9 m c) (E10 m c) ((pdats m 3 c).arrAt · cfg3.N) (leaves3 m c) (keeps3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The host stretches as segments, and @main as the list of its items -/

/-- A host stretch as a segment over the unscoped buffers from the contents `W`, `Beside` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

/-- @main's ten items in order. -/
abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .host (hseg hostOps1 hostOps1_sub hostOps1_fresh (B4 m)),
    .region (reg1 m),
    .host (hseg hostOps2 hostOps2_sub hostOps2_fresh (B6 m)),
    .region (reg2 m),
    .host (hseg hostOps3 hostOps3_sub hostOps3_fresh (B8 m)),
    .region (reg3 m) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with every semaphore counter at zero, every weakly fair execution of @main terminates,
    nothing faulting, and in every final memory each unscoped buffer of each core holds the last boundary's
    contents `B10`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = B10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Beside c))
    (Tₙ := fun c => iprop(StableHlo.held (c : Thread nD τ) (Pipeline.ucRefs τ sig) (B10 m c) ∗ ∃ r, prngReg c r))
    (hch := ⟨fun _ => .rfl, fun _ => .rfl, fun _ => .rfl, fun _ => .rfl, fun _ => .rfl, fun _ => .rfl,
      fun _ => .rfl, fun _ => .rfl, fun _ => .rfl, fun _ => .rfl,
      fun c => by
        show iprop(StableHlo.held (c : Thread nD τ) (Pipeline.ucRefs τ sig) (B10 m c) ∗ Beside c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h c => h c)

/-! ## The arguments end as launched, and the result is what region 3 leaves -/

/-- `main_arg0` reaches the end as launched: no host stretch writes it, and a region either reads it through an input
    window or passes it by. -/
theorem B10_arg0 (c : Dev nD) : B10 m c (Proc.devRef .tc main_arg0) = m ((c : Thread nD τ).loc main_arg0) :=
  calc B10 m c (Proc.devRef .tc main_arg0)
    _ = B9 m c (Proc.devRef .tc main_arg0) := B10_of_ne m c main_arg0 (by decide)
    _ = B8 m c (Proc.devRef .tc main_arg0) := StableHlo.after_of_writes_sub hostOps3 _ hostOps3_writes (by decide)
    _ = B7 m c (Proc.devRef .tc main_arg0) := B8_of_ne m c main_arg0 (by decide)
    _ = B6 m c (Proc.devRef .tc main_arg0) := StableHlo.after_of_writes_sub hostOps2 _ hostOps2_writes (by decide)
    _ = B5 m c (Proc.devRef .tc main_arg0) := B6_of_ne m c main_arg0 (by decide)
    _ = B4 m c (Proc.devRef .tc main_arg0) := StableHlo.after_of_writes_sub hostOps1 _ hostOps1_writes (by decide)
    _ = B3 m c (Proc.devRef .tc main_arg0) := (B4_arr m c 0).trans (((Linear0.dat (E3 m) c).arrAt_in 0 rfl _).trans (Linear0.dat_A (E3 m) c 0))
    _ = m ((c : Thread nD τ).loc main_arg0) :=
      (Gen.V3_of m c main_arg0 (by decide)).trans ((Gen.V2_of m c main_arg0 (by decide)).trans (Gen.V1_of m c main_arg0 (by decide)))

/-- `main_arg1` reaches the end as launched: no host stretch writes it, and a region either reads it through an input
    window or passes it by. -/
theorem B10_arg1 (c : Dev nD) : B10 m c (Proc.devRef .tc main_arg1) = m ((c : Thread nD τ).loc main_arg1) :=
  calc B10 m c (Proc.devRef .tc main_arg1)
    _ = B9 m c (Proc.devRef .tc main_arg1) := B10_of_ne m c main_arg1 (by decide)
    _ = B8 m c (Proc.devRef .tc main_arg1) := StableHlo.after_of_writes_sub hostOps3 _ hostOps3_writes (by decide)
    _ = B7 m c (Proc.devRef .tc main_arg1) := B8_of_ne m c main_arg1 (by decide)
    _ = B6 m c (Proc.devRef .tc main_arg1) := StableHlo.after_of_writes_sub hostOps2 _ hostOps2_writes (by decide)
    _ = B5 m c (Proc.devRef .tc main_arg1) := B6_of_ne m c main_arg1 (by decide)
    _ = B4 m c (Proc.devRef .tc main_arg1) := StableHlo.after_of_writes_sub hostOps1 _ hostOps1_writes (by decide)
    _ = B3 m c (Proc.devRef .tc main_arg1) := (B4_arr m c 1).trans (((Linear0.dat (E3 m) c).arrAt_in 1 rfl _).trans (Linear0.dat_A (E3 m) c 1))
    _ = m ((c : Thread nD τ).loc main_arg1) :=
      (Gen.V3_of m c main_arg1 (by decide)).trans ((Gen.V2_of m c main_arg1 (by decide)).trans (Gen.V1_of m c main_arg1 (by decide)))

/-- `main_arg2` reaches the end as launched: no host stretch writes it, and a region either reads it through an input
    window or passes it by. -/
theorem B10_arg2 (c : Dev nD) : B10 m c (Proc.devRef .tc main_arg2) = m ((c : Thread nD τ).loc main_arg2) :=
  calc B10 m c (Proc.devRef .tc main_arg2)
    _ = B9 m c (Proc.devRef .tc main_arg2) := B10_of_ne m c main_arg2 (by decide)
    _ = B8 m c (Proc.devRef .tc main_arg2) := StableHlo.after_of_writes_sub hostOps3 _ hostOps3_writes (by decide)
    _ = B7 m c (Proc.devRef .tc main_arg2) := B8_of_ne m c main_arg2 (by decide)
    _ = B6 m c (Proc.devRef .tc main_arg2) := StableHlo.after_of_writes_sub hostOps2 _ hostOps2_writes (by decide)
    _ = B5 m c (Proc.devRef .tc main_arg2) := B6_of_ne m c main_arg2 (by decide)
    _ = B4 m c (Proc.devRef .tc main_arg2) := StableHlo.after_of_writes_sub hostOps1 _ hostOps1_writes (by decide)
    _ = B3 m c (Proc.devRef .tc main_arg2) := B4_of_ne m c main_arg2 (by decide)
    _ = m ((c : Thread nD τ).loc main_arg2) :=
      (Gen.V3_of m c main_arg2 (by decide)).trans ((Gen.V2_of m c main_arg2 (by decide)).trans (Gen.V1_of m c main_arg2 (by decide)))

/-- `main_arg3` reaches the end as launched: no host stretch writes it, and a region either reads it through an input
    window or passes it by. -/
theorem B10_arg3 (c : Dev nD) : B10 m c (Proc.devRef .tc main_arg3) = m ((c : Thread nD τ).loc main_arg3) :=
  calc B10 m c (Proc.devRef .tc main_arg3)
    _ = B9 m c (Proc.devRef .tc main_arg3) := B10_of_ne m c main_arg3 (by decide)
    _ = B8 m c (Proc.devRef .tc main_arg3) := StableHlo.after_of_writes_sub hostOps3 _ hostOps3_writes (by decide)
    _ = B7 m c (Proc.devRef .tc main_arg3) := B8_of_ne m c main_arg3 (by decide)
    _ = B6 m c (Proc.devRef .tc main_arg3) := StableHlo.after_of_writes_sub hostOps2 _ hostOps2_writes (by decide)
    _ = B5 m c (Proc.devRef .tc main_arg3) := (B6_arr m c 1).trans (((Linear1.dat (E5 m) c).arrAt_in 1 rfl _).trans (Linear1.dat_A (E5 m) c 1))
    _ = B4 m c (Proc.devRef .tc main_arg3) := StableHlo.after_of_writes_sub hostOps1 _ hostOps1_writes (by decide)
    _ = B3 m c (Proc.devRef .tc main_arg3) := B4_of_ne m c main_arg3 (by decide)
    _ = m ((c : Thread nD τ).loc main_arg3) :=
      (Gen.V3_of m c main_arg3 (by decide)).trans ((Gen.V2_of m c main_arg3 (by decide)).trans (Gen.V1_of m c main_arg3 (by decide)))

/-- `main_arg4` reaches the end as launched: no host stretch writes it, and a region either reads it through an input
    window or passes it by. -/
theorem B10_arg4 (c : Dev nD) : B10 m c (Proc.devRef .tc main_arg4) = m ((c : Thread nD τ).loc main_arg4) :=
  calc B10 m c (Proc.devRef .tc main_arg4)
    _ = B9 m c (Proc.devRef .tc main_arg4) := B10_of_ne m c main_arg4 (by decide)
    _ = B8 m c (Proc.devRef .tc main_arg4) := StableHlo.after_of_writes_sub hostOps3 _ hostOps3_writes (by decide)
    _ = B7 m c (Proc.devRef .tc main_arg4) := B8_of_ne m c main_arg4 (by decide)
    _ = B6 m c (Proc.devRef .tc main_arg4) := StableHlo.after_of_writes_sub hostOps2 _ hostOps2_writes (by decide)
    _ = B5 m c (Proc.devRef .tc main_arg4) := B6_of_ne m c main_arg4 (by decide)
    _ = B4 m c (Proc.devRef .tc main_arg4) := StableHlo.after_of_writes_sub hostOps1 _ hostOps1_writes (by decide)
    _ = B3 m c (Proc.devRef .tc main_arg4) := B4_of_ne m c main_arg4 (by decide)
    _ = m ((c : Thread nD τ).loc main_arg4) :=
      (Gen.V3_of m c main_arg4 (by decide)).trans ((Gen.V2_of m c main_arg4 (by decide)).trans (Gen.V1_of m c main_arg4 (by decide)))

/-- `main_arg5` reaches the end as launched: no host stretch writes it, and a region either reads it through an input
    window or passes it by. -/
theorem B10_arg5 (c : Dev nD) : B10 m c (Proc.devRef .tc main_arg5) = m ((c : Thread nD τ).loc main_arg5) :=
  calc B10 m c (Proc.devRef .tc main_arg5)
    _ = B9 m c (Proc.devRef .tc main_arg5) := B10_of_ne m c main_arg5 (by decide)
    _ = B8 m c (Proc.devRef .tc main_arg5) := StableHlo.after_of_writes_sub hostOps3 _ hostOps3_writes (by decide)
    _ = B7 m c (Proc.devRef .tc main_arg5) := B8_of_ne m c main_arg5 (by decide)
    _ = B6 m c (Proc.devRef .tc main_arg5) := StableHlo.after_of_writes_sub hostOps2 _ hostOps2_writes (by decide)
    _ = B5 m c (Proc.devRef .tc main_arg5) := B6_of_ne m c main_arg5 (by decide)
    _ = B4 m c (Proc.devRef .tc main_arg5) := StableHlo.after_of_writes_sub hostOps1 _ hostOps1_writes (by decide)
    _ = B3 m c (Proc.devRef .tc main_arg5) := B4_of_ne m c main_arg5 (by decide)
    _ = m ((c : Thread nD τ).loc main_arg5) :=
      (Gen.V3_of m c main_arg5 (by decide)).trans ((Gen.V2_of m c main_arg5 (by decide)).trans (Gen.V1_of m c main_arg5 (by decide)))

/-- `main_arg6` reaches the end as launched: no host stretch writes it, and a region either reads it through an input
    window or passes it by. -/
theorem B10_arg6 (c : Dev nD) : B10 m c (Proc.devRef .tc main_arg6) = m ((c : Thread nD τ).loc main_arg6) :=
  calc B10 m c (Proc.devRef .tc main_arg6)
    _ = B9 m c (Proc.devRef .tc main_arg6) := B10_of_ne m c main_arg6 (by decide)
    _ = B8 m c (Proc.devRef .tc main_arg6) := StableHlo.after_of_writes_sub hostOps3 _ hostOps3_writes (by decide)
    _ = B7 m c (Proc.devRef .tc main_arg6) := B8_of_ne m c main_arg6 (by decide)
    _ = B6 m c (Proc.devRef .tc main_arg6) := StableHlo.after_of_writes_sub hostOps2 _ hostOps2_writes (by decide)
    _ = B5 m c (Proc.devRef .tc main_arg6) := B6_of_ne m c main_arg6 (by decide)
    _ = B4 m c (Proc.devRef .tc main_arg6) := StableHlo.after_of_writes_sub hostOps1 _ hostOps1_writes (by decide)
    _ = B3 m c (Proc.devRef .tc main_arg6) := B4_of_ne m c main_arg6 (by decide)
    _ = m ((c : Thread nD τ).loc main_arg6) :=
      (Gen.V3_of m c main_arg6 (by decide)).trans ((Gen.V2_of m c main_arg6 (by decide)).trans (Gen.V1_of m c main_arg6 (by decide)))

/-- `main_arg7` reaches the end as launched: no host stretch writes it, and a region either reads it through an input
    window or passes it by. -/
theorem B10_arg7 (c : Dev nD) : B10 m c (Proc.devRef .tc main_arg7) = m ((c : Thread nD τ).loc main_arg7) :=
  calc B10 m c (Proc.devRef .tc main_arg7)
    _ = B9 m c (Proc.devRef .tc main_arg7) := B10_of_ne m c main_arg7 (by decide)
    _ = B8 m c (Proc.devRef .tc main_arg7) := StableHlo.after_of_writes_sub hostOps3 _ hostOps3_writes (by decide)
    _ = B7 m c (Proc.devRef .tc main_arg7) := B8_of_ne m c main_arg7 (by decide)
    _ = B6 m c (Proc.devRef .tc main_arg7) := StableHlo.after_of_writes_sub hostOps2 _ hostOps2_writes (by decide)
    _ = B5 m c (Proc.devRef .tc main_arg7) := B6_of_ne m c main_arg7 (by decide)
    _ = B4 m c (Proc.devRef .tc main_arg7) := StableHlo.after_of_writes_sub hostOps1 _ hostOps1_writes (by decide)
    _ = B3 m c (Proc.devRef .tc main_arg7) := B4_of_ne m c main_arg7 (by decide)
    _ = m ((c : Thread nD τ).loc main_arg7) :=
      (Gen.V3_of m c main_arg7 (by decide)).trans ((Gen.V2_of m c main_arg7 (by decide)).trans (Gen.V1_of m c main_arg7 (by decide)))

/-- THE FRAME of the kernel program, at any float instance: it runs to the end, faults nowhere, and every argument
    array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (B10_arg0 m c),
    (h c _ (mem_uc main_arg1 (by decide))).trans (B10_arg1 m c),
    (h c _ (mem_uc main_arg2 (by decide))).trans (B10_arg2 m c),
    (h c _ (mem_uc main_arg3 (by decide))).trans (B10_arg3 m c),
    (h c _ (mem_uc main_arg4 (by decide))).trans (B10_arg4 m c),
    (h c _ (mem_uc main_arg5 (by decide))).trans (B10_arg5 m c),
    (h c _ (mem_uc main_arg6 (by decide))).trans (B10_arg6 m c),
    (h c _ (mem_uc main_arg7 (by decide))).trans (B10_arg7 m c)⟩) (run_all m ρ)

/-- What the program returns, on core `c`: the array region 3's ten grid points leave in its output window. -/
def result (c : Dev nD) : Buf (Elt F) ((c.tc : Thread nD τ).loc main_v75) := B10 m c (Proc.devRef .tc main_v75)

/-- The run with its result named: `main_v75` ends at `result`, every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v75) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v75 (by decide)),
    (h c _ (mem_uc main_arg0 (by decide))).trans (B10_arg0 m c),
    (h c _ (mem_uc main_arg1 (by decide))).trans (B10_arg1 m c),
    (h c _ (mem_uc main_arg2 (by decide))).trans (B10_arg2 m c),
    (h c _ (mem_uc main_arg3 (by decide))).trans (B10_arg3 m c),
    (h c _ (mem_uc main_arg4 (by decide))).trans (B10_arg4 m c),
    (h c _ (mem_uc main_arg5 (by decide))).trans (B10_arg5 m c),
    (h c _ (mem_uc main_arg6 (by decide))).trans (B10_arg6 m c),
    (h c _ (mem_uc main_arg7 (by decide))).trans (B10_arg7 m c)⟩) (run_all m ρ)

end Cert.KernelIdeal.Run

end
-- ==== Proof.Stages.lean ====
/-
  The reference computation's stages as pure functions of the arrays each reads: the edge lists with
  self-loops, the degree vector, its inverse square root, the per-edge weight, the aggregation of a
  convolution layer (128 and 64 wide) and the two layers, the column mean, the centred variance and the
  normalisation. Each body is the stage's host operations composed in the program's order.
-/
import proofs.«107830_j10685878632725_1_alg».proof.ReferenceIdeal
import proofs.«107830_j10685878632725_1_alg».proof.Proof.Gen.ReferenceIdeal

noncomputable section

namespace Cert.ReferenceIdeal.Stages

open Cert.ReferenceIdeal Cert.ReferenceIdeal.Gen Idealize.ShloMosaic

variable {F : FTy → Type} [FloatOps F]

/-- One row of the edge array followed by the self-loops `0 … 99999`: `off = ![0, 0]` picks the sources,
    `off = ![1, 0]` the targets. -/
def edges (off : Fin S2x1600000.rank → Nat) (h : S2x1600000.Slices off S1x1600000) (e : IVec S2x1600000 32) :
    IVec S1700000 32 :=
  concatenate S1700000 0
    [⟨S1600000, shapeCast S1600000 (extractStridedSlice S1x1600000 off e h) shapeCasts_S1x1600000_S1600000⟩,
     ⟨S100000, iotaInDim S100000 32 0⟩]
    concatenates_S1600000_S100000_S1700000_d0

/-- The sources of the edges, self-loops included. -/
def edgeRow (e : IVec S2x1600000 32) : IVec S1700000 32 := edges ![0, 0] slices_S2x1600000_S1x1600000_0_0 e

/-- The targets of the edges, self-loops included. -/
def edgeCol (e : IVec S2x1600000 32) : IVec S1700000 32 := edges ![1, 0] slices_S2x1600000_S1x1600000_1_0 e

/-- The degree vector: a one added at each edge's target. -/
def degree (col : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 col)
    (broadcastInDim S1700000 ![] bcast_S_S1700000 (constant S_ .f32 0x3F800000#32))

/-- The inverse square root of the degree (of the degree or one, whichever is larger) where the degree is
    positive, zero elsewhere. -/
def invSqrt (deg : FVec F S100000 .f32) : FVec F S100000 .f32 :=
  select (cmpf .ogt deg (broadcastInDim S100000 ![] bcast_S_S100000 (constant S_ .f32 0x00000000#32)))
    (Host.rsqrt (maximumf deg (broadcastInDim S100000 ![] bcast_S_S100000 (constant S_ .f32 0x3F800000#32))))
    (broadcastInDim S100000 ![] bcast_S_S100000 (constant S_ .f32 0x00000000#32))

/-- An index vector as a gather reads it: a negative index counted from the end (100000 added), then each
    index a one-component row. -/
def gatherIndex (i : IVec S1700000 32) : IVec S1700000x1 32 :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- The per-edge weight: the inverse square roots at the edge's two ends, multiplied. -/
def edgeWeight (dis : FVec F S100000 .f32) (row col : IVec S1700000 32) : FVec F S1700000 .f32 :=
  mulf (Host.gather gather_S100000_S1700000x1_S1700000_n_0_n_n_0_1_1 dis (gatherIndex row))
    (Host.gather gather_S100000_S1700000x1_S1700000_n_0_n_n_0_1_1 dis (gatherIndex col))

/-- The aggregation of a layer 128 wide: the rows of `P` gathered at the sources, each times its edge's
    weight, added up at the targets into zeros, plus the bias on every row. -/
def aggregate128 (row col : IVec S1700000 32) (weight : FVec F S1700000 .f32) (P : FVec F S100000x128 .f32)
    (b : FVec F S128 .f32) : FVec F S100000x128 .f32 :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 col)
      (mulf (Host.gather gather_S100000x128_S1700000x1_S1700000x128_1_0_n_n_0_1_1128 P (gatherIndex row))
        (broadcastInDim S1700000x128 ![0, 1] bcast_S1700000x1_S1700000x128_0_1
          (broadcastInDim S1700000x1 ![0] bcast_S1700000_S1700000x1_0 weight))))
    (broadcastInDim S100000x128 ![0, 1] bcast_S1x128_S100000x128_0_1 (broadcastInDim S1x128 ![1] bcast_S128_S1x128_1 b))

/-- The aggregation of a layer 64 wide: as `aggregate128`. -/
def aggregate64 (row col : IVec S1700000 32) (weight : FVec F S1700000 .f32) (P : FVec F S100000x64 .f32)
    (b : FVec F S64 .f32) : FVec F S100000x64 .f32 :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 col)
      (mulf (Host.gather gather_S100000x64_S1700000x1_S1700000x64_1_0_n_n_0_1_164 P (gatherIndex row))
        (broadcastInDim S1700000x64 ![0, 1] bcast_S1700000x1_S1700000x64_0_1
          (broadcastInDim S1700000x1 ![0] bcast_S1700000_S1700000x1_0 weight))))
    (broadcastInDim S100000x64 ![0, 1] bcast_S1x64_S100000x64_0_1 (broadcastInDim S1x64 ![1] bcast_S64_S1x64_1 b))

/-- The first convolution layer: the product with the weights, aggregated. -/
def layer1 (row col : IVec S1700000 32) (weight : FVec F S1700000 .f32) (X : FVec F S100000x64 .f32)
    (W : FVec F S64x128 .f32) (b : FVec F S128 .f32) : FVec F S100000x128 .f32 :=
  aggregate128 row col weight (Host.dotGeneral dot_S100000x64_S64x128_S100000x128_1_0_0_1_n_n none X W) b

/-- The second convolution layer: the product with the weights, aggregated. -/
def layer2 (row col : IVec S1700000 32) (weight : FVec F S1700000 .f32) (X : FVec F S100000x128 .f32)
    (W : FVec F S128x64 .f32) (b : FVec F S64 .f32) : FVec F S100000x64 .f32 :=
  aggregate64 row col weight (Host.dotGeneral dot_S100000x128_S128x64_S100000x64_1_0_0_1_n_n none X W) b

/-- The mean of each column: the column's sum over 100000. -/
def columnMean (H : FVec F S100000x64 .f32) : FVec F S64 .f32 :=
  Host.divf (Host.reduceAdd H (constant S_ .f32 0x00000000#32) reducesTo_S100000x64_S64_d0 h_S_)
    (broadcastInDim S64 ![] bcast_S_S64 (constant S_ .f32 0x47C35000#32))

/-- The variance of each column with `ddof` degrees of freedom taken off: the mean (sum over 100000, kept as a
    row) subtracted, the squares summed, divided by 100000 less `ddof`; not-a-number where that count is not
    positive. -/
def varianceOf (H : FVec F S100000x64 .f32) (ddof : IVec S_ 32) : FVec F S64 .f32 :=
  select
    (broadcastInDim S64 ![] bcast_S_S64
      (cmpf (F := F) .ogt (subf (constant S_ .f32 0x47C35000#32) (sitofp .f32 ddof)) (constant S_ .f32 0x00000000#32)))
    (Host.divf
      (Host.reduceAdd
        (mulf
          (subf H (broadcastInDim S100000x64 ![0, 1] bcast_S1x64_S100000x64_0_1
            (Host.divf
              (broadcastInDim S1x64 ![1] bcast_S64_S1x64_1
                (Host.reduceAdd H (constant S_ .f32 0x00000000#32) reducesTo_S100000x64_S64_d0 h_S_))
              (broadcastInDim S1x64 ![] bcast_S_S1x64 (constant S_ .f32 0x47C35000#32)))))
          (subf H (broadcastInDim S100000x64 ![0, 1] bcast_S1x64_S100000x64_0_1
            (Host.divf
              (broadcastInDim S1x64 ![1] bcast_S64_S1x64_1
                (Host.reduceAdd H (constant S_ .f32 0x00000000#32) reducesTo_S100000x64_S64_d0 h_S_))
              (broadcastInDim S1x64 ![] bcast_S_S1x64 (constant S_ .f32 0x47C35000#32))))))
        (constant S_ .f32 0x00000000#32) reducesTo_S100000x64_S64_d0 h_S_)
      (broadcastInDim S64 ![] bcast_S_S64 (subf (constant S_ .f32 0x47C35000#32) (sitofp .f32 ddof))))
    (broadcastInDim S64 ![] bcast_S_S64 (constant S_ .f32 0x7FC00000#32))

/-- The centred variance of each column, nothing taken off the count. -/
def centredVariance (H : FVec F S100000x64 .f32) : FVec F S64 .f32 := varianceOf H (constantI S_ 32 0#32)

/-- The normalisation: the mean taken off, times the inverse square root of the variance plus epsilon, times
    gamma, plus beta, each of the four a row on every row. -/
def normalise (H : FVec F S100000x64 .f32) (mean var gamma beta : FVec F S64 .f32) : FVec F S100000x64 .f32 :=
  addf
    (mulf
      (mulf
        (subf H (broadcastInDim S100000x64 ![0, 1] bcast_S1x64_S100000x64_0_1 (broadcastInDim S1x64 ![1] bcast_S64_S1x64_1 mean)))
        (broadcastInDim S100000x64 ![0, 1] bcast_S1x64_S100000x64_0_1
          (broadcastInDim S1x64 ![1] bcast_S64_S1x64_1
            (Host.rsqrt (addf var (broadcastInDim S64 ![] bcast_S_S64 (constant S_ .f32 0x3727C5AC#32)))))))
      (broadcastInDim S100000x64 ![0, 1] bcast_S1x64_S100000x64_0_1 (broadcastInDim S1x64 ![1] bcast_S64_S1x64_1 gamma)))
    (broadcastInDim S100000x64 ![0, 1] bcast_S1x64_S100000x64_0_1 (broadcastInDim S1x64 ![1] bcast_S64_S1x64_1 beta))

/-- The edge weights as a function of the edge array alone. -/
def weights (e : IVec S2x1600000 32) : FVec F S1700000 .f32 :=
  edgeWeight (invSqrt (degree (edgeCol e))) (edgeRow e) (edgeCol e)

/-- The two layers' output. -/
def hidden (emb : FVec F S100000x64 .f32) (W1 : FVec F S64x128 .f32) (b1 : FVec F S128 .f32) (W2 : FVec F S128x64 .f32)
    (b2 : FVec F S64 .f32) (e : IVec S2x1600000 32) : FVec F S100000x64 .f32 :=
  layer2 (edgeRow e) (edgeCol e) (weights e) (layer1 (edgeRow e) (edgeCol e) (weights e) emb W1 b1) W2 b2

/-- What the reference computes from its eight arguments. -/
def out (emb : FVec F S100000x64 .f32) (W1 : FVec F S64x128 .f32) (b1 : FVec F S128 .f32) (W2 : FVec F S128x64 .f32)
    (b2 gamma beta : FVec F S64 .f32) (e : IVec S2x1600000 32) : FVec F S100000x64 .f32 :=
  normalise (hidden emb W1 b1 W2 b2 e) (columnMean (hidden emb W1 b1 W2 b2 e)) (centredVariance (hidden emb W1 b1 W2 b2 e))
    gamma beta

end Cert.ReferenceIdeal.Stages

end
-- ==== Proof.ReferenceRun.lean ====
/-
  The reference program's run. @main of the reference is a straight line of 127 host operations
  (its 105 statements with the three outlined functions inlined at their calls). The line is cut into nine
  consecutive stages, named after what each computes: the edge lists with self-loops, the degree vector,
  its inverse square root, the per-edge weight, the two convolution layers, the column mean, the centred
  variance and the normalisation. Each stage's result is stated as a pure function of the buffers the
  stage reads, over an arbitrary valuation; the stages are then chained, and the run of the whole line
  (every weakly fair execution terminates, the result at the composed term, the arguments unchanged)
  follows from the library's statement for a straight line of host operations.
-/
import proofs.«107830_j10685878632725_1_alg».proof.ReferenceIdeal
import proofs.«107830_j10685878632725_1_alg».proof.Proof.Gen.ReferenceIdeal
import Idealize.ShloMosaic.Lib.StableHlo.Run
import Idealize.ShloMosaic.Lib.Pipeline.Frame
import proofs.«107830_j10685878632725_1_alg».proof.Proof.Stages

noncomputable section

namespace Cert.ReferenceIdeal.Hand

open Cert.ReferenceIdeal Cert.ReferenceIdeal.Gen Idealize.ShloMosaic Idealize.ShloMosaic.TcCoe Idealize.SL.Sem Idealize.ShloMosaic.StableHlo Cert.ReferenceIdeal.Stages

variable {F : FTy → Type} [FloatOps F]

/-- The edge lists with self-loops: the two rows of the edge array, each followed by 0 … 99999. -/
abbrev opsEdges : List (HloOp τ sig (Elt F)) :=
  [ nullary main_v0 (iotaInDim S100000 32 0),
    unary main_arg7 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg7 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The degree vector: ones scattered and added at the targets. -/
abbrev opsDegree : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- The inverse square root of the degree, zero where the degree is not positive. -/
abbrev opsInvSqrt : List (HloOp τ sig (Elt F)) :=
  [ nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of main_cst_3 : TRef sig ⟨S_, .f32⟩) main_call0.v0 id,
    TRef.unary main_call0.v0 main_call0.v1 (broadcastInDim S100000 ![] bcast_S_S100000),
    TRef.ternary (TRef.of main_v12 : TRef sig ⟨S100000, .i1⟩) (TRef.of main_v15 : TRef sig ⟨S100000, .f32⟩) main_call0.v1 main_call0.v2 select ]

/-- The per-edge weight: the inverse square roots gathered at the two ends, multiplied. -/
abbrev opsWeight : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The first convolution layer: the product with the weights, gathered at the sources, weighted, added up at the targets, plus the bias. -/
abbrev opsLayer1 : List (HloOp τ sig (Elt F)) :=
  [ binary main_arg0 main_arg1 main_v32 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg2 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)) ]

/-- The second convolution layer, the same over the first layer's output. -/
abbrev opsLayer2 : List (HloOp τ sig (Elt F)) :=
  [ binary main_v48 main_arg3 main_v49 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_10 (constantI S_ 32 0#32),
    unary main_c_10 main_v50 (broadcastInDim S1700000 ![] bcast_S_S1700000 : (⟨S_, .i32⟩ : BufTy).Contents (Elt F) → (⟨S1700000, .i32⟩ : BufTy).Contents (Elt F)),
    binary main_v3 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v52 (broadcastInDim S1700000 ![] bcast_S_S1700000 : (⟨S_, .i32⟩ : BufTy).Contents (Elt F) → (⟨S1700000, .i32⟩ : BufTy).Contents (Elt F)),
    binary main_v3 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v3 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_v49 main_v55 main_v56 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v57 (broadcastInDim S1700000x1 ![0] bcast_S1700000_S1700000x1_0 : (⟨S1700000, .f32⟩ : BufTy).Contents (Elt F) → (⟨S1700000x1, .f32⟩ : BufTy).Contents (Elt F)),
    unary main_v57 main_v58 (broadcastInDim S1700000x64 ![0, 1] bcast_S1700000x1_S1700000x64_0_1 : (⟨S1700000x1, .f32⟩ : BufTy).Contents (Elt F) → (⟨S1700000x64, .f32⟩ : BufTy).Contents (Elt F)),
    binary main_v56 main_v58 main_v59 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v60 (broadcastInDim S100000x64 ![] bcast_S_S100000x64 : (⟨S_, .f32⟩ : BufTy).Contents (Elt F) → (⟨S100000x64, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v62 main_v64 main_v65 (addf : (⟨S100000x64, .f32⟩ : BufTy).Contents (Elt F) → (⟨S100000x64, .f32⟩ : BufTy).Contents (Elt F) → (⟨S100000x64, .f32⟩ : BufTy).Contents (Elt F)) ]

/-- The column mean of the second layer's output. -/
abbrev opsMean : List (HloOp τ sig (Elt F)) :=
  [ nullary main_cst_13 (constant S_ .f32 0x00000000#32),
    binary main_v65 main_cst_13 main_v66 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_14 (constant S_ .f32 0x47C35000#32),
    unary main_cst_14 main_v67 (broadcastInDim S64 ![] bcast_S_S64 : (⟨S_, .f32⟩ : BufTy).Contents (Elt F) → (⟨S64, .f32⟩ : BufTy).Contents (Elt F)),
    binary main_v66 main_v67 main_v68 (Host.divf : (⟨S64, .f32⟩ : BufTy).Contents (Elt F) → (⟨S64, .f32⟩ : BufTy).Contents (Elt F) → (⟨S64, .f32⟩ : BufTy).Contents (Elt F)),
    nullary main_c_15 (constantI S_ 32 0#32) ]

/-- The centred variance of the second layer's output's columns. -/
abbrev opsVar : List (HloOp τ sig (Elt F)) :=
  [ TRef.nullary main_call1.cst (constant S_ .f32 0x00000000#32),
    TRef.binary (TRef.of main_v65 : TRef sig ⟨S100000x64, .f32⟩) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (TRef.of main_v65 : TRef sig ⟨S100000x64, .f32⟩) main_call1.v4 main_call1.v5 subf,
    TRef.binary main_call1.v5 main_call1.v5 main_call1.v6 mulf,
    TRef.unary (TRef.of main_c_15 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b) ]

/-- The normalisation: centred, scaled by the inverse square root of the variance plus epsilon, times gamma, plus beta. -/
abbrev opsNorm : List (HloOp τ sig (Elt F)) :=
  [ unary main_v68 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v65 main_v71 main_v72 (subf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x3727C5AC#32),
    unary main_cst_16 main_v73 (broadcastInDim S64 ![] bcast_S_S64 : (⟨S_, .f32⟩ : BufTy).Contents (Elt F) → (⟨S64, .f32⟩ : BufTy).Contents (Elt F)),
    binary main_v69 main_v73 main_v74 (addf : (⟨S64, .f32⟩ : BufTy).Contents (Elt F) → (⟨S64, .f32⟩ : BufTy).Contents (Elt F) → (⟨S64, .f32⟩ : BufTy).Contents (Elt F)),
    unary main_v74 main_v75 (Host.rsqrt : (⟨S64, .f32⟩ : BufTy).Contents (Elt F) → (⟨S64, .f32⟩ : BufTy).Contents (Elt F)),
    unary main_v75 main_v76 (broadcastInDim S1x64 ![1] bcast_S64_S1x64_1 : (⟨S64, .f32⟩ : BufTy).Contents (Elt F) → (⟨S1x64, .f32⟩ : BufTy).Contents (Elt F)),
    unary main_v76 main_v77 (broadcastInDim S100000x64 ![0, 1] bcast_S1x64_S100000x64_0_1 : (⟨S1x64, .f32⟩ : BufTy).Contents (Elt F) → (⟨S100000x64, .f32⟩ : BufTy).Contents (Elt F)),
    binary main_v72 main_v77 main_v78 (mulf : (⟨S100000x64, .f32⟩ : BufTy).Contents (Elt F) → (⟨S100000x64, .f32⟩ : BufTy).Contents (Elt F) → (⟨S100000x64, .f32⟩ : BufTy).Contents (Elt F)),
    unary main_arg5 main_v79 (broadcastInDim S1x64 ![1] bcast_S64_S1x64_1 : (⟨S64, .f32⟩ : BufTy).Contents (Elt F) → (⟨S1x64, .f32⟩ : BufTy).Contents (Elt F)),
    unary main_v79 main_v80 (broadcastInDim S100000x64 ![0, 1] bcast_S1x64_S100000x64_0_1 : (⟨S1x64, .f32⟩ : BufTy).Contents (Elt F) → (⟨S100000x64, .f32⟩ : BufTy).Contents (Elt F)),
    binary main_v78 main_v80 main_v81 (mulf : (⟨S100000x64, .f32⟩ : BufTy).Contents (Elt F) → (⟨S100000x64, .f32⟩ : BufTy).Contents (Elt F) → (⟨S100000x64, .f32⟩ : BufTy).Contents (Elt F)),
    unary main_arg6 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)) ]

/-- @main's 127 operations, in order: the nine stages one after the other. -/
abbrev ops : List (HloOp τ sig (Elt F)) :=
  opsEdges ++ (opsDegree ++ (opsInvSqrt ++ (opsWeight ++ (opsLayer1 ++ (opsLayer2 ++ (opsMean ++ (opsVar ++ (opsNorm))))))))

/-- The same list written out flat. -/
abbrev opsFlat : List (HloOp τ sig (Elt F)) :=
  [ nullary main_v0 (iotaInDim S100000 32 0),
    unary main_arg7 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg7 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of main_cst_3 : TRef sig ⟨S_, .f32⟩) main_call0.v0 id,
    TRef.unary main_call0.v0 main_call0.v1 (broadcastInDim S100000 ![] bcast_S_S100000),
    TRef.ternary (TRef.of main_v12 : TRef sig ⟨S100000, .i1⟩) (TRef.of main_v15 : TRef sig ⟨S100000, .f32⟩) main_call0.v1 main_call0.v2 select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    binary main_arg0 main_arg1 main_v32 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg2 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    binary main_v48 main_arg3 main_v49 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_10 (constantI S_ 32 0#32),
    unary main_c_10 main_v50 (broadcastInDim S1700000 ![] bcast_S_S1700000 : (⟨S_, .i32⟩ : BufTy).Contents (Elt F) → (⟨S1700000, .i32⟩ : BufTy).Contents (Elt F)),
    binary main_v3 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v52 (broadcastInDim S1700000 ![] bcast_S_S1700000 : (⟨S_, .i32⟩ : BufTy).Contents (Elt F) → (⟨S1700000, .i32⟩ : BufTy).Contents (Elt F)),
    binary main_v3 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v3 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_v49 main_v55 main_v56 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v57 (broadcastInDim S1700000x1 ![0] bcast_S1700000_S1700000x1_0 : (⟨S1700000, .f32⟩ : BufTy).Contents (Elt F) → (⟨S1700000x1, .f32⟩ : BufTy).Contents (Elt F)),
    unary main_v57 main_v58 (broadcastInDim S1700000x64 ![0, 1] bcast_S1700000x1_S1700000x64_0_1 : (⟨S1700000x1, .f32⟩ : BufTy).Contents (Elt F) → (⟨S1700000x64, .f32⟩ : BufTy).Contents (Elt F)),
    binary main_v56 main_v58 main_v59 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v60 (broadcastInDim S100000x64 ![] bcast_S_S100000x64 : (⟨S_, .f32⟩ : BufTy).Contents (Elt F) → (⟨S100000x64, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v62 main_v64 main_v65 (addf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x00000000#32),
    binary main_v65 main_cst_13 main_v66 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_14 (constant S_ .f32 0x47C35000#32),
    unary main_cst_14 main_v67 (broadcastInDim S64 ![] bcast_S_S64 : (⟨S_, .f32⟩ : BufTy).Contents (Elt F) → (⟨S64, .f32⟩ : BufTy).Contents (Elt F)),
    binary main_v66 main_v67 main_v68 (Host.divf : (⟨S64, .f32⟩ : BufTy).Contents (Elt F) → (⟨S64, .f32⟩ : BufTy).Contents (Elt F) → (⟨S64, .f32⟩ : BufTy).Contents (Elt F)),
    nullary main_c_15 (constantI S_ 32 0#32),
    TRef.nullary main_call1.cst (constant S_ .f32 0x00000000#32),
    TRef.binary (TRef.of main_v65 : TRef sig ⟨S100000x64, .f32⟩) main_call1.cst main_call1.v0 (fun x v => Host.reduceAdd x v reducesTo_S100000x64_S64_d0 h_S_),
    TRef.unary main_call1.v0 main_call1.v1 (broadcastInDim S1x64 ![1] bcast_S64_S1x64_1),
    TRef.nullary main_call1.cst_0 (constant S_ .f32 0x47C35000#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S100000x64 ![0, 1] bcast_S1x64_S100000x64_0_1),
    TRef.binary (TRef.of main_v65 : TRef sig ⟨S100000x64, .f32⟩) main_call1.v4 main_call1.v5 subf,
    TRef.binary main_call1.v5 main_call1.v5 main_call1.v6 mulf,
    TRef.unary (TRef.of main_c_15 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v68 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v65 main_v71 main_v72 (subf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x3727C5AC#32),
    unary main_cst_16 main_v73 (broadcastInDim S64 ![] bcast_S_S64 : (⟨S_, .f32⟩ : BufTy).Contents (Elt F) → (⟨S64, .f32⟩ : BufTy).Contents (Elt F)),
    binary main_v69 main_v73 main_v74 (addf : (⟨S64, .f32⟩ : BufTy).Contents (Elt F) → (⟨S64, .f32⟩ : BufTy).Contents (Elt F) → (⟨S64, .f32⟩ : BufTy).Contents (Elt F)),
    unary main_v74 main_v75 (Host.rsqrt : (⟨S64, .f32⟩ : BufTy).Contents (Elt F) → (⟨S64, .f32⟩ : BufTy).Contents (Elt F)),
    unary main_v75 main_v76 (broadcastInDim S1x64 ![1] bcast_S64_S1x64_1 : (⟨S64, .f32⟩ : BufTy).Contents (Elt F) → (⟨S1x64, .f32⟩ : BufTy).Contents (Elt F)),
    unary main_v76 main_v77 (broadcastInDim S100000x64 ![0, 1] bcast_S1x64_S100000x64_0_1 : (⟨S1x64, .f32⟩ : BufTy).Contents (Elt F) → (⟨S100000x64, .f32⟩ : BufTy).Contents (Elt F)),
    binary main_v72 main_v77 main_v78 (mulf : (⟨S100000x64, .f32⟩ : BufTy).Contents (Elt F) → (⟨S100000x64, .f32⟩ : BufTy).Contents (Elt F) → (⟨S100000x64, .f32⟩ : BufTy).Contents (Elt F)),
    unary main_arg5 main_v79 (broadcastInDim S1x64 ![1] bcast_S64_S1x64_1 : (⟨S64, .f32⟩ : BufTy).Contents (Elt F) → (⟨S1x64, .f32⟩ : BufTy).Contents (Elt F)),
    unary main_v79 main_v80 (broadcastInDim S100000x64 ![0, 1] bcast_S1x64_S100000x64_0_1 : (⟨S1x64, .f32⟩ : BufTy).Contents (Elt F) → (⟨S100000x64, .f32⟩ : BufTy).Contents (Elt F)),
    binary main_v78 main_v80 main_v81 (mulf : (⟨S100000x64, .f32⟩ : BufTy).Contents (Elt F) → (⟨S100000x64, .f32⟩ : BufTy).Contents (Elt F) → (⟨S100000x64, .f32⟩ : BufTy).Contents (Elt F)),
    unary main_arg6 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v81 main_v83 main_v84 (addf : (⟨S100000x64, .f32⟩ : BufTy).Contents (Elt F) → (⟨S100000x64, .f32⟩ : BufTy).Contents (Elt F) → (⟨S100000x64, .f32⟩ : BufTy).Contents (Elt F)) ]

theorem opsFlat_eq : (opsFlat : List (HloOp τ sig (Elt F))) = ops := rfl

set_option maxRecDepth 8192 in
set_option maxHeartbeats 4000000 in
/-- @main is that straight line: the outlined functions unfolded at their calls, sequencing reassociated. -/
theorem main_eq (c : Dev nD) : main (F := F) c = seq opsFlat := by
  simp only [main, main_part0, main_part1, fn_where.body, fn_var.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsFlat_sub : (opsFlat : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-! ## Each stage's result, over any contents -/

set_option maxRecDepth 8192 in
set_option maxHeartbeats 2000000 in
theorem edges_row (V : Valuation τ sig (Elt F)) :
    after opsEdges V (Proc.devRef .tc main_v3) = edgeRow (V (Proc.devRef .tc main_arg7)) := by
  simp only [opsEdges]
  after_results_simp
  rfl

set_option maxRecDepth 8192 in
set_option maxHeartbeats 2000000 in
theorem edges_col (V : Valuation τ sig (Elt F)) :
    after opsEdges V (Proc.devRef .tc main_v6) = edgeCol (V (Proc.devRef .tc main_arg7)) := by
  simp only [opsEdges]
  after_results_simp
  rfl

set_option maxRecDepth 8192 in
set_option maxHeartbeats 2000000 in
theorem degree_eq (V : Valuation τ sig (Elt F)) :
    after opsDegree V (Proc.devRef .tc main_v10) = degree (V (Proc.devRef .tc main_v6)) := by
  simp only [opsDegree]
  after_results_simp
  rfl

set_option maxRecDepth 8192 in
set_option maxHeartbeats 2000000 in
theorem invSqrt_eq (V : Valuation τ sig (Elt F)) :
    after opsInvSqrt V (Proc.devRef .tc main_v16) = invSqrt (V (Proc.devRef .tc main_v10)) := by
  simp only [opsInvSqrt]
  after_results_simp
  rfl

set_option maxRecDepth 8192 in
set_option maxHeartbeats 2000000 in
theorem edgeWeight_eq (V : Valuation τ sig (Elt F)) :
    after opsWeight V (Proc.devRef .tc main_v31) = edgeWeight (V (Proc.devRef .tc main_v16)) (V (Proc.devRef .tc main_v3)) (V (Proc.devRef .tc main_v6)) := by
  simp only [opsWeight]
  after_results_simp
  rfl

set_option maxRecDepth 8192 in
set_option maxHeartbeats 2000000 in
theorem layer1_eq (V : Valuation τ sig (Elt F)) :
    after opsLayer1 V (Proc.devRef .tc main_v48) = layer1 (V (Proc.devRef .tc main_v3)) (V (Proc.devRef .tc main_v6)) (V (Proc.devRef .tc main_v31)) (V (Proc.devRef .tc main_arg0)) (V (Proc.devRef .tc main_arg1)) (V (Proc.devRef .tc main_arg2)) := by
  simp only [opsLayer1]
  after_results_simp
  rfl

set_option maxRecDepth 8192 in
set_option maxHeartbeats 2000000 in
theorem layer2_eq (V : Valuation τ sig (Elt F)) :
    after opsLayer2 V (Proc.devRef .tc main_v65) = layer2 (V (Proc.devRef .tc main_v3)) (V (Proc.devRef .tc main_v6)) (V (Proc.devRef .tc main_v31)) (V (Proc.devRef .tc main_v48)) (V (Proc.devRef .tc main_arg3)) (V (Proc.devRef .tc main_arg4)) := by
  simp only [opsLayer2]
  after_results_simp
  rfl

set_option maxRecDepth 8192 in
set_option maxHeartbeats 2000000 in
theorem columnMean_eq (V : Valuation τ sig (Elt F)) :
    after opsMean V (Proc.devRef .tc main_v68) = columnMean (V (Proc.devRef .tc main_v65)) := by
  simp only [opsMean]
  after_results_simp
  rfl

set_option maxRecDepth 8192 in
set_option maxHeartbeats 2000000 in
theorem ddof_eq (V : Valuation τ sig (Elt F)) :
    after opsMean V (Proc.devRef .tc main_c_15) = constantI S_ 32 0#32 := by
  simp only [opsMean]
  after_results_simp

set_option maxRecDepth 8192 in
set_option maxHeartbeats 2000000 in
theorem varianceOf_eq (V : Valuation τ sig (Elt F)) :
    after opsVar V (Proc.devRef .tc main_v69) = varianceOf (V (Proc.devRef .tc main_v65)) (V (Proc.devRef .tc main_c_15)) := by
  simp only [opsVar]
  after_results_simp
  rfl

set_option maxRecDepth 8192 in
set_option maxHeartbeats 2000000 in
theorem normalise_eq (V : Valuation τ sig (Elt F)) :
    after opsNorm V (Proc.devRef .tc main_v84) = normalise (V (Proc.devRef .tc main_v65)) (V (Proc.devRef .tc main_v68)) (V (Proc.devRef .tc main_v69)) (V (Proc.devRef .tc main_arg5)) (V (Proc.devRef .tc main_arg6)) := by
  simp only [opsNorm]
  after_results_simp
  rfl

/-! ## What each stage leaves alone

The buffers a stage writes, listed; any other buffer keeps its contents through the stage. -/

/-- The buffers the stage `opsEdges` writes. -/
abbrev writtenEdges : List (Ref sig .tc) := [main_v0, main_v1, main_v2, main_v3, main_v4, main_v5, main_v6]
set_option maxRecDepth 8192 in
theorem opsEdges_writes : (opsEdges : List (HloOp τ sig (Elt F))).Forall fun op =>
    op.writes ⊆ (writtenEdges.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsEdges_keep (V : Valuation τ sig (Elt F)) (r : Ref sig .tc) (h : r ∉ writtenEdges) :
    after opsEdges V (Proc.devRef .tc r) = V (Proc.devRef .tc r) :=
  after_of_writes_sub opsEdges V opsEdges_writes h

/-- The buffers the stage `opsDegree` writes. -/
abbrev writtenDegree : List (Ref sig .tc) := [main_cst, main_v7, main_cst_0, main_v8, main_v9, main_v10]
set_option maxRecDepth 8192 in
theorem opsDegree_writes : (opsDegree : List (HloOp τ sig (Elt F))).Forall fun op =>
    op.writes ⊆ (writtenDegree.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsDegree_keep (V : Valuation τ sig (Elt F)) (r : Ref sig .tc) (h : r ∉ writtenDegree) :
    after opsDegree V (Proc.devRef .tc r) = V (Proc.devRef .tc r) :=
  after_of_writes_sub opsDegree V opsDegree_writes h

/-- The buffers the stage `opsInvSqrt` writes. -/
abbrev writtenInvSqrt : List (Ref sig .tc) := [main_cst_1, main_v11, main_v12, main_cst_2, main_v13, main_v14, main_v15, main_cst_3, main_call0_v0, main_call0_v1, main_v16]
set_option maxRecDepth 8192 in
theorem opsInvSqrt_writes : (opsInvSqrt : List (HloOp τ sig (Elt F))).Forall fun op =>
    op.writes ⊆ (writtenInvSqrt.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsInvSqrt_keep (V : Valuation τ sig (Elt F)) (r : Ref sig .tc) (h : r ∉ writtenInvSqrt) :
    after opsInvSqrt V (Proc.devRef .tc r) = V (Proc.devRef .tc r) :=
  after_of_writes_sub opsInvSqrt V opsInvSqrt_writes h

/-- The buffers the stage `opsWeight` writes. -/
abbrev writtenWeight : List (Ref sig .tc) := [main_c, main_v17, main_v18, main_c_4, main_v19, main_v20, main_v21, main_v22, main_v23, main_c_5, main_v24, main_v25, main_c_6, main_v26, main_v27, main_v28, main_v29, main_v30, main_v31]
set_option maxRecDepth 8192 in
theorem opsWeight_writes : (opsWeight : List (HloOp τ sig (Elt F))).Forall fun op =>
    op.writes ⊆ (writtenWeight.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsWeight_keep (V : Valuation τ sig (Elt F)) (r : Ref sig .tc) (h : r ∉ writtenWeight) :
    after opsWeight V (Proc.devRef .tc r) = V (Proc.devRef .tc r) :=
  after_of_writes_sub opsWeight V opsWeight_writes h

/-- The buffers the stage `opsLayer1` writes. -/
abbrev writtenLayer1 : List (Ref sig .tc) := [main_v32, main_c_7, main_v33, main_v34, main_c_8, main_v35, main_v36, main_v37, main_v38, main_v39, main_v40, main_v41, main_v42, main_cst_9, main_v43, main_v44, main_v45, main_v46, main_v47, main_v48]
set_option maxRecDepth 8192 in
theorem opsLayer1_writes : (opsLayer1 : List (HloOp τ sig (Elt F))).Forall fun op =>
    op.writes ⊆ (writtenLayer1.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsLayer1_keep (V : Valuation τ sig (Elt F)) (r : Ref sig .tc) (h : r ∉ writtenLayer1) :
    after opsLayer1 V (Proc.devRef .tc r) = V (Proc.devRef .tc r) :=
  after_of_writes_sub opsLayer1 V opsLayer1_writes h

/-- The buffers the stage `opsLayer2` writes. -/
abbrev writtenLayer2 : List (Ref sig .tc) := [main_v49, main_c_10, main_v50, main_v51, main_c_11, main_v52, main_v53, main_v54, main_v55, main_v56, main_v57, main_v58, main_v59, main_cst_12, main_v60, main_v61, main_v62, main_v63, main_v64, main_v65]
set_option maxRecDepth 8192 in
theorem opsLayer2_writes : (opsLayer2 : List (HloOp τ sig (Elt F))).Forall fun op =>
    op.writes ⊆ (writtenLayer2.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsLayer2_keep (V : Valuation τ sig (Elt F)) (r : Ref sig .tc) (h : r ∉ writtenLayer2) :
    after opsLayer2 V (Proc.devRef .tc r) = V (Proc.devRef .tc r) :=
  after_of_writes_sub opsLayer2 V opsLayer2_writes h

/-- The buffers the stage `opsMean` writes. -/
abbrev writtenMean : List (Ref sig .tc) := [main_cst_13, main_v66, main_cst_14, main_v67, main_v68, main_c_15]
set_option maxRecDepth 8192 in
theorem opsMean_writes : (opsMean : List (HloOp τ sig (Elt F))).Forall fun op =>
    op.writes ⊆ (writtenMean.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsMean_keep (V : Valuation τ sig (Elt F)) (r : Ref sig .tc) (h : r ∉ writtenMean) :
    after opsMean V (Proc.devRef .tc r) = V (Proc.devRef .tc r) :=
  after_of_writes_sub opsMean V opsMean_writes h

/-- The buffers the stage `opsVar` writes. -/
abbrev writtenVar : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v69]
set_option maxRecDepth 8192 in
theorem opsVar_writes : (opsVar : List (HloOp τ sig (Elt F))).Forall fun op =>
    op.writes ⊆ (writtenVar.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsVar_keep (V : Valuation τ sig (Elt F)) (r : Ref sig .tc) (h : r ∉ writtenVar) :
    after opsVar V (Proc.devRef .tc r) = V (Proc.devRef .tc r) :=
  after_of_writes_sub opsVar V opsVar_writes h

/-- The buffers the stage `opsNorm` writes. -/
abbrev writtenNorm : List (Ref sig .tc) := [main_v70, main_v71, main_v72, main_cst_16, main_v73, main_v74, main_v75, main_v76, main_v77, main_v78, main_v79, main_v80, main_v81, main_v82, main_v83, main_v84]
set_option maxRecDepth 8192 in
theorem opsNorm_writes : (opsNorm : List (HloOp τ sig (Elt F))).Forall fun op =>
    op.writes ⊆ (writtenNorm.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
theorem opsNorm_keep (V : Valuation τ sig (Elt F)) (r : Ref sig .tc) (h : r ∉ writtenNorm) :
    after opsNorm V (Proc.devRef .tc r) = V (Proc.devRef .tc r) :=
  after_of_writes_sub opsNorm V opsNorm_writes h

/-! ## The stages chained

The contents after the first `k` stages, and what the live buffers hold there as functions of the arguments. -/

def st1 (V : Valuation τ sig (Elt F)) : Valuation τ sig (Elt F) := after opsEdges V
def st2 (V : Valuation τ sig (Elt F)) : Valuation τ sig (Elt F) := after opsDegree (st1 V)
def st3 (V : Valuation τ sig (Elt F)) : Valuation τ sig (Elt F) := after opsInvSqrt (st2 V)
def st4 (V : Valuation τ sig (Elt F)) : Valuation τ sig (Elt F) := after opsWeight (st3 V)
def st5 (V : Valuation τ sig (Elt F)) : Valuation τ sig (Elt F) := after opsLayer1 (st4 V)
def st6 (V : Valuation τ sig (Elt F)) : Valuation τ sig (Elt F) := after opsLayer2 (st5 V)
def st7 (V : Valuation τ sig (Elt F)) : Valuation τ sig (Elt F) := after opsMean (st6 V)
def st8 (V : Valuation τ sig (Elt F)) : Valuation τ sig (Elt F) := after opsVar (st7 V)
def st9 (V : Valuation τ sig (Elt F)) : Valuation τ sig (Elt F) := after opsNorm (st8 V)

theorem after_ops (V : Valuation τ sig (Elt F)) : after ops V = st9 V := by
  simp only [ops, after_append]
  rfl

theorem st1_keep (V : Valuation τ sig (Elt F)) (r : Ref sig .tc) (h1 : r ∉ writtenEdges) :
    st1 V (Proc.devRef .tc r) = V (Proc.devRef .tc r) := by
  rw [st1, opsEdges_keep _ r h1]

theorem st2_keep (V : Valuation τ sig (Elt F)) (r : Ref sig .tc) (h1 : r ∉ writtenEdges) (h2 : r ∉ writtenDegree) :
    st2 V (Proc.devRef .tc r) = V (Proc.devRef .tc r) := by
  rw [st2, opsDegree_keep _ r h2, st1_keep V r h1]

theorem st3_keep (V : Valuation τ sig (Elt F)) (r : Ref sig .tc) (h1 : r ∉ writtenEdges) (h2 : r ∉ writtenDegree) (h3 : r ∉ writtenInvSqrt) :
    st3 V (Proc.devRef .tc r) = V (Proc.devRef .tc r) := by
  rw [st3, opsInvSqrt_keep _ r h3, st2_keep V r h1 h2]

theorem st4_keep (V : Valuation τ sig (Elt F)) (r : Ref sig .tc) (h1 : r ∉ writtenEdges) (h2 : r ∉ writtenDegree) (h3 : r ∉ writtenInvSqrt) (h4 : r ∉ writtenWeight) :
    st4 V (Proc.devRef .tc r) = V (Proc.devRef .tc r) := by
  rw [st4, opsWeight_keep _ r h4, st3_keep V r h1 h2 h3]

theorem st5_keep (V : Valuation τ sig (Elt F)) (r : Ref sig .tc) (h1 : r ∉ writtenEdges) (h2 : r ∉ writtenDegree) (h3 : r ∉ writtenInvSqrt) (h4 : r ∉ writtenWeight) (h5 : r ∉ writtenLayer1) :
    st5 V (Proc.devRef .tc r) = V (Proc.devRef .tc r) := by
  rw [st5, opsLayer1_keep _ r h5, st4_keep V r h1 h2 h3 h4]

theorem st6_keep (V : Valuation τ sig (Elt F)) (r : Ref sig .tc) (h1 : r ∉ writtenEdges) (h2 : r ∉ writtenDegree) (h3 : r ∉ writtenInvSqrt) (h4 : r ∉ writtenWeight) (h5 : r ∉ writtenLayer1) (h6 : r ∉ writtenLayer2) :
    st6 V (Proc.devRef .tc r) = V (Proc.devRef .tc r) := by
  rw [st6, opsLayer2_keep _ r h6, st5_keep V r h1 h2 h3 h4 h5]

theorem st7_keep (V : Valuation τ sig (Elt F)) (r : Ref sig .tc) (h1 : r ∉ writtenEdges) (h2 : r ∉ writtenDegree) (h3 : r ∉ writtenInvSqrt) (h4 : r ∉ writtenWeight) (h5 : r ∉ writtenLayer1) (h6 : r ∉ writtenLayer2) (h7 : r ∉ writtenMean) :
    st7 V (Proc.devRef .tc r) = V (Proc.devRef .tc r) := by
  rw [st7, opsMean_keep _ r h7, st6_keep V r h1 h2 h3 h4 h5 h6]

theorem st8_keep (V : Valuation τ sig (Elt F)) (r : Ref sig .tc) (h1 : r ∉ writtenEdges) (h2 : r ∉ writtenDegree) (h3 : r ∉ writtenInvSqrt) (h4 : r ∉ writtenWeight) (h5 : r ∉ writtenLayer1) (h6 : r ∉ writtenLayer2) (h7 : r ∉ writtenMean) (h8 : r ∉ writtenVar) :
    st8 V (Proc.devRef .tc r) = V (Proc.devRef .tc r) := by
  rw [st8, opsVar_keep _ r h8, st7_keep V r h1 h2 h3 h4 h5 h6 h7]

theorem st9_keep (V : Valuation τ sig (Elt F)) (r : Ref sig .tc) (h1 : r ∉ writtenEdges) (h2 : r ∉ writtenDegree) (h3 : r ∉ writtenInvSqrt) (h4 : r ∉ writtenWeight) (h5 : r ∉ writtenLayer1) (h6 : r ∉ writtenLayer2) (h7 : r ∉ writtenMean) (h8 : r ∉ writtenVar) (h9 : r ∉ writtenNorm) :
    st9 V (Proc.devRef .tc r) = V (Proc.devRef .tc r) := by
  rw [st9, opsNorm_keep _ r h9, st8_keep V r h1 h2 h3 h4 h5 h6 h7 h8]

theorem st1_row (V : Valuation τ sig (Elt F)) : st1 V (Proc.devRef .tc main_v3) = (edgeRow (V (Proc.devRef .tc main_arg7))) := edges_row V
theorem st1_col (V : Valuation τ sig (Elt F)) : st1 V (Proc.devRef .tc main_v6) = (edgeCol (V (Proc.devRef .tc main_arg7))) := edges_col V

theorem st2_row (V : Valuation τ sig (Elt F)) : st2 V (Proc.devRef .tc main_v3) = (edgeRow (V (Proc.devRef .tc main_arg7))) := by
  rw [st2, opsDegree_keep _ main_v3 (by decide), st1_row]

theorem st2_col (V : Valuation τ sig (Elt F)) : st2 V (Proc.devRef .tc main_v6) = (edgeCol (V (Proc.devRef .tc main_arg7))) := by
  rw [st2, opsDegree_keep _ main_v6 (by decide), st1_col]

theorem st2_deg (V : Valuation τ sig (Elt F)) : st2 V (Proc.devRef .tc main_v10) = degree (F := F) (edgeCol (V (Proc.devRef .tc main_arg7))) := by
  rw [st2, degree_eq, st1_col]

theorem st3_row (V : Valuation τ sig (Elt F)) : st3 V (Proc.devRef .tc main_v3) = (edgeRow (V (Proc.devRef .tc main_arg7))) := by
  rw [st3, opsInvSqrt_keep _ main_v3 (by decide), st2_row]

theorem st3_col (V : Valuation τ sig (Elt F)) : st3 V (Proc.devRef .tc main_v6) = (edgeCol (V (Proc.devRef .tc main_arg7))) := by
  rw [st3, opsInvSqrt_keep _ main_v6 (by decide), st2_col]

theorem st3_dis (V : Valuation τ sig (Elt F)) : st3 V (Proc.devRef .tc main_v16) = invSqrt (degree (F := F) (edgeCol (V (Proc.devRef .tc main_arg7)))) := by
  rw [st3, invSqrt_eq, st2_deg]

theorem st4_row (V : Valuation τ sig (Elt F)) : st4 V (Proc.devRef .tc main_v3) = (edgeRow (V (Proc.devRef .tc main_arg7))) := by
  rw [st4, opsWeight_keep _ main_v3 (by decide), st3_row]

theorem st4_col (V : Valuation τ sig (Elt F)) : st4 V (Proc.devRef .tc main_v6) = (edgeCol (V (Proc.devRef .tc main_arg7))) := by
  rw [st4, opsWeight_keep _ main_v6 (by decide), st3_col]

theorem st4_weight (V : Valuation τ sig (Elt F)) : st4 V (Proc.devRef .tc main_v31) = (weights (F := F) (V (Proc.devRef .tc main_arg7))) := by
  rw [st4, edgeWeight_eq, st3_dis, st3_row, st3_col]
  rfl

theorem st5_row (V : Valuation τ sig (Elt F)) : st5 V (Proc.devRef .tc main_v3) = (edgeRow (V (Proc.devRef .tc main_arg7))) := by
  rw [st5, opsLayer1_keep _ main_v3 (by decide), st4_row]

theorem st5_col (V : Valuation τ sig (Elt F)) : st5 V (Proc.devRef .tc main_v6) = (edgeCol (V (Proc.devRef .tc main_arg7))) := by
  rw [st5, opsLayer1_keep _ main_v6 (by decide), st4_col]

theorem st5_weight (V : Valuation τ sig (Elt F)) : st5 V (Proc.devRef .tc main_v31) = (weights (F := F) (V (Proc.devRef .tc main_arg7))) := by
  rw [st5, opsLayer1_keep _ main_v31 (by decide), st4_weight]

theorem st5_hidden1 (V : Valuation τ sig (Elt F)) : st5 V (Proc.devRef .tc main_v48) = (layer1 (edgeRow (V (Proc.devRef .tc main_arg7))) (edgeCol (V (Proc.devRef .tc main_arg7))) (weights (F := F) (V (Proc.devRef .tc main_arg7))) (V (Proc.devRef .tc main_arg0)) (V (Proc.devRef .tc main_arg1)) (V (Proc.devRef .tc main_arg2))) := by
  rw [st5, layer1_eq, st4_row, st4_col, st4_weight,
    st4_keep V main_arg0 (by decide) (by decide) (by decide) (by decide),
    st4_keep V main_arg1 (by decide) (by decide) (by decide) (by decide),
    st4_keep V main_arg2 (by decide) (by decide) (by decide) (by decide)]

theorem st6_hidden (V : Valuation τ sig (Elt F)) : st6 V (Proc.devRef .tc main_v65) = (hidden (V (Proc.devRef .tc main_arg0)) (V (Proc.devRef .tc main_arg1)) (V (Proc.devRef .tc main_arg2)) (V (Proc.devRef .tc main_arg3)) (V (Proc.devRef .tc main_arg4)) (V (Proc.devRef .tc main_arg7))) := by
  rw [st6, layer2_eq, st5_row, st5_col, st5_weight, st5_hidden1,
    st5_keep V main_arg3 (by decide) (by decide) (by decide) (by decide) (by decide),
    st5_keep V main_arg4 (by decide) (by decide) (by decide) (by decide) (by decide)]
  rfl

theorem st7_hidden (V : Valuation τ sig (Elt F)) : st7 V (Proc.devRef .tc main_v65) = (hidden (V (Proc.devRef .tc main_arg0)) (V (Proc.devRef .tc main_arg1)) (V (Proc.devRef .tc main_arg2)) (V (Proc.devRef .tc main_arg3)) (V (Proc.devRef .tc main_arg4)) (V (Proc.devRef .tc main_arg7))) := by
  rw [st7, opsMean_keep _ main_v65 (by decide), st6_hidden]

theorem st7_mean (V : Valuation τ sig (Elt F)) : st7 V (Proc.devRef .tc main_v68) = columnMean (hidden (V (Proc.devRef .tc main_arg0)) (V (Proc.devRef .tc main_arg1)) (V (Proc.devRef .tc main_arg2)) (V (Proc.devRef .tc main_arg3)) (V (Proc.devRef .tc main_arg4)) (V (Proc.devRef .tc main_arg7))) := by
  rw [st7, columnMean_eq, st6_hidden]

theorem st7_ddof (V : Valuation τ sig (Elt F)) : st7 V (Proc.devRef .tc main_c_15) = constantI S_ 32 0#32 := by
  rw [st7, ddof_eq]

theorem st8_hidden (V : Valuation τ sig (Elt F)) : st8 V (Proc.devRef .tc main_v65) = (hidden (V (Proc.devRef .tc main_arg0)) (V (Proc.devRef .tc main_arg1)) (V (Proc.devRef .tc main_arg2)) (V (Proc.devRef .tc main_arg3)) (V (Proc.devRef .tc main_arg4)) (V (Proc.devRef .tc main_arg7))) := by
  rw [st8, opsVar_keep _ main_v65 (by decide), st7_hidden]

theorem st8_mean (V : Valuation τ sig (Elt F)) : st8 V (Proc.devRef .tc main_v68) = columnMean (hidden (V (Proc.devRef .tc main_arg0)) (V (Proc.devRef .tc main_arg1)) (V (Proc.devRef .tc main_arg2)) (V (Proc.devRef .tc main_arg3)) (V (Proc.devRef .tc main_arg4)) (V (Proc.devRef .tc main_arg7))) := by
  rw [st8, opsVar_keep _ main_v68 (by decide), st7_mean]

theorem st8_var (V : Valuation τ sig (Elt F)) : st8 V (Proc.devRef .tc main_v69) = centredVariance (hidden (V (Proc.devRef .tc main_arg0)) (V (Proc.devRef .tc main_arg1)) (V (Proc.devRef .tc main_arg2)) (V (Proc.devRef .tc main_arg3)) (V (Proc.devRef .tc main_arg4)) (V (Proc.devRef .tc main_arg7))) := by
  rw [st8, varianceOf_eq, st7_hidden, st7_ddof]
  rfl

theorem st9_out (V : Valuation τ sig (Elt F)) : st9 V (Proc.devRef .tc main_v84) = (out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  rw [st9, normalise_eq, st8_hidden, st8_mean, st8_var,
    st8_keep V main_arg5 (by decide) (by decide) (by decide) (by decide) (by decide) (by decide) (by decide) (by decide),
    st8_keep V main_arg6 (by decide) (by decide) (by decide) (by decide) (by decide) (by decide) (by decide) (by decide)]
  rfl

/-- An argument is written by no stage. -/
theorem st9_arg (V : Valuation τ sig (Elt F)) (r : Ref sig .tc) (h1 : r ∉ writtenEdges) (h2 : r ∉ writtenDegree) (h3 : r ∉ writtenInvSqrt) (h4 : r ∉ writtenWeight) (h5 : r ∉ writtenLayer1) (h6 : r ∉ writtenLayer2) (h7 : r ∉ writtenMean) (h8 : r ∉ writtenVar) (h9 : r ∉ writtenNorm) : st9 V (Proc.devRef .tc r) = V (Proc.devRef .tc r) :=
  st9_keep V r h1 h2 h3 h4 h5 h6 h7 h8 h9

/-! ## The run -/

/-- What `main_v84` holds when @main returns, as a function of the launch contents of the eight arguments on
    device `c`. -/
def result (m : (ℓ : Loc nD τ sig) → Buf (Elt F) ℓ) (c : Dev nD) : FVec F S100000x64 .f32 :=
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The whole line's result at the result buffer, over any contents. -/
theorem after_ops_result (V : Valuation τ sig (Elt F)) : after ops V (Proc.devRef .tc main_v84) = (out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  rw [after_ops, st9_out]

/-- On every device, for any float values, from any memory with zero counters: every weakly fair execution of
    @main terminates with the result at `result` and the eight arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v84).trans (by rw [opsFlat_eq, after_ops_result]; rfl),
      (h c main_arg0).trans (by rw [opsFlat_eq, after_ops]; exact st9_keep _ main_arg0 (by decide) (by decide) (by decide) (by decide) (by decide) (by decide) (by decide) (by decide) (by decide)),
      (h c main_arg1).trans (by rw [opsFlat_eq, after_ops]; exact st9_keep _ main_arg1 (by decide) (by decide) (by decide) (by decide) (by decide) (by decide) (by decide) (by decide) (by decide)),
      (h c main_arg2).trans (by rw [opsFlat_eq, after_ops]; exact st9_keep _ main_arg2 (by decide) (by decide) (by decide) (by decide) (by decide) (by decide) (by decide) (by decide) (by decide)),
      (h c main_arg3).trans (by rw [opsFlat_eq, after_ops]; exact st9_keep _ main_arg3 (by decide) (by decide) (by decide) (by decide) (by decide) (by decide) (by decide) (by decide) (by decide)),
      (h c main_arg4).trans (by rw [opsFlat_eq, after_ops]; exact st9_keep _ main_arg4 (by decide) (by decide) (by decide) (by decide) (by decide) (by decide) (by decide) (by decide) (by decide)),
      (h c main_arg5).trans (by rw [opsFlat_eq, after_ops]; exact st9_keep _ main_arg5 (by decide) (by decide) (by decide) (by decide) (by decide) (by decide) (by decide) (by decide) (by decide)),
      (h c main_arg6).trans (by rw [opsFlat_eq, after_ops]; exact st9_keep _ main_arg6 (by decide) (by decide) (by decide) (by decide) (by decide) (by decide) (by decide) (by decide) (by decide)),
      (h c main_arg7).trans (by rw [opsFlat_eq, after_ops]; exact st9_keep _ main_arg7 (by decide) (by decide) (by decide) (by decide) (by decide) (by decide) (by decide) (by decide) (by decide))⟩)
    (run_seq scopedRefs_eq scopedSems_eq defs main (fun _ => opsFlat) main_eq (fun _ => opsFlat_sub) m ρ)

end Cert.ReferenceIdeal.Hand

end
-- ==== Proof.LibVariance.lean ====
/-
  The batch variance of a finite family of real numbers, written two ways.

  For real numbers `h i` indexed by a finite type with `n ≠ 0` elements and mean `μ = (∑ h i) / n`,
  the mean of the squared deviations, `(∑ (h i - μ)²) / n`, equals the mean of the squares minus the square
  of the mean, `(∑ (h i)²) / n - μ · μ`. The identity is first proved over the reals and then carried to the
  extended reals for entries that are coercions of reals, spelt with the extended reals' own `+`, `-`, `*`
  and the quotient `Ideal.div` (which, by a nonzero real, is the product with its reciprocal). At an infinite
  entry the identity fails (`⊤ - ⊤` is `⊥`), which is why the entries are required to be real.

  Also here: the values of a few float literals and integer conversions as extended reals, and the
  comparison and selection that a variance with zero "degrees of freedom removed" reduces by.
-/
import Idealize.ShloMosaic.PureOps.Ideal
import Idealize.ShloMosaic.PureOps.Ideal.Laws
import Idealize.ShloMosaic.Lib.ValueIdx

namespace LibVariance

open Idealize.ShloMosaic
open scoped BigOperators

/-! ## Over the reals -/

/-- Over the reals: the mean of the squared deviations from the mean is the mean of the squares minus the
    square of the mean. `n` is the number of entries as a real, assumed nonzero. -/
theorem var_real {ι : Type*} [Fintype ι] (h : ι → ℝ) {n : ℝ} (hn : n ≠ 0) (hc : (Fintype.card ι : ℝ) = n) :
    (∑ i, (h i - (∑ j, h j) / n) * (h i - (∑ j, h j) / n)) / n
      = (∑ i, h i * h i) / n - (∑ j, h j) / n * ((∑ j, h j) / n) := by
  have e : ∀ i, (h i - (∑ j, h j) / n) * (h i - (∑ j, h j) / n)
      = h i * h i - 2 * ((∑ j, h j) / n) * h i + (∑ j, h j) / n * ((∑ j, h j) / n) := fun i => by ring
  simp only [e]
  rw [Finset.sum_add_distrib, Finset.sum_sub_distrib, ← Finset.mul_sum, Finset.sum_const, Finset.card_univ,
    nsmul_eq_mul, hc]
  field_simp
  ring

/-- The same over `Fin n`. -/
theorem var_real_fin {n : ℕ} (hn : (n : ℝ) ≠ 0) (h : Fin n → ℝ) :
    (∑ i, (h i - (∑ j, h j) / (n : ℝ)) * (h i - (∑ j, h j) / (n : ℝ))) / (n : ℝ)
      = (∑ i, h i * h i) / (n : ℝ) - (∑ j, h j) / (n : ℝ) * ((∑ j, h j) / (n : ℝ)) :=
  var_real h hn (by rw [Fintype.card_fin])

/-! ## Finite sums of coercions -/

/-- A finite sum of coercions of reals, taken in the extended reals, is the coercion of the real sum. -/
theorem coe_sum {ι : Type*} (s : Finset ι) (r : ι → ℝ) :
    (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]

/-! ## The quotient by a nonzero real -/

/-- The quotient of two coercions by `Ideal.div`, the divisor nonzero, is the coercion of the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-! ## Over the extended reals, at real entries -/

/-- The mean of real entries, computed in the extended reals with `Ideal.div`, is the coercion of the real mean. -/
theorem mean_coe {ι : Type*} [Fintype ι] (r : ι → ℝ) {n : ℝ} (hn : n ≠ 0) :
    Ideal.div (∑ i, ((r i : ℝ) : EReal)) (n : EReal) = (((∑ i, r i) / n : ℝ) : EReal) := by
  rw [coe_sum, div_coe_coe _ hn]

/-- The mean of the squared deviations of real entries, computed in the extended reals (differences, products,
    the sum, and `Ideal.div` for both quotients), is the coercion of the real one. -/
theorem centred_coe {ι : Type*} [Fintype ι] (r : ι → ℝ) {n : ℝ} (hn : n ≠ 0) :
    Ideal.div (∑ i, (((r i : ℝ) : EReal) - Ideal.div (∑ j, ((r j : ℝ) : EReal)) (n : EReal))
        * (((r i : ℝ) : EReal) - Ideal.div (∑ j, ((r j : ℝ) : EReal)) (n : EReal))) (n : EReal)
      = (((∑ i, (r i - (∑ j, r j) / n) * (r i - (∑ j, r j) / n)) / n : ℝ) : EReal) := by
  rw [mean_coe r hn]
  simp only [← EReal.coe_sub, ← EReal.coe_mul]
  rw [coe_sum, div_coe_coe _ hn]

/-- The mean of the squares minus the square of the mean of real entries, computed in the extended reals,
    is the coercion of the real one. -/
theorem raw_coe {ι : Type*} [Fintype ι] (r : ι → ℝ) {n : ℝ} (hn : n ≠ 0) :
    Ideal.div (∑ i, ((r i : ℝ) : EReal) * ((r i : ℝ) : EReal)) (n : EReal)
        - Ideal.div (∑ j, ((r j : ℝ) : EReal)) (n : EReal) * Ideal.div (∑ j, ((r j : ℝ) : EReal)) (n : EReal)
      = (((∑ i, r i * r i) / n - (∑ j, r j) / n * ((∑ j, r j) / n) : ℝ) : EReal) := by
  rw [mean_coe r hn]
  simp only [← EReal.coe_mul]
  rw [coe_sum, div_coe_coe _ hn, ← EReal.coe_sub]

/-- In the extended reals, at entries that are coercions of reals: the mean of the squared deviations from the
    mean is the mean of the squares minus the square of the mean. -/
theorem var_coe {ι : Type*} [Fintype ι] (r : ι → ℝ) {n : ℝ} (hn : n ≠ 0) (hc : (Fintype.card ι : ℝ) = n) :
    Ideal.div (∑ i, (((r i : ℝ) : EReal) - Ideal.div (∑ j, ((r j : ℝ) : EReal)) (n : EReal))
        * (((r i : ℝ) : EReal) - Ideal.div (∑ j, ((r j : ℝ) : EReal)) (n : EReal))) (n : EReal)
      = Ideal.div (∑ i, ((r i : ℝ) : EReal) * ((r i : ℝ) : EReal)) (n : EReal)
        - Ideal.div (∑ j, ((r j : ℝ) : EReal)) (n : EReal) * Ideal.div (∑ j, ((r j : ℝ) : EReal)) (n : EReal) := by
  rw [centred_coe r hn, raw_coe r hn, var_real r hn hc]

/-- The same for a family of extended reals each of which is known to be the coercion of a real. -/
theorem var_ereal {ι : Type*} [Fintype ι] (x : ι → EReal) (hx : ∀ i, ∃ r : ℝ, x i = (r : EReal)) {n : ℝ}
    (hn : n ≠ 0) (hc : (Fintype.card ι : ℝ) = n) :
    Ideal.div (∑ i, (x i - Ideal.div (∑ j, x j) (n : EReal)) * (x i - Ideal.div (∑ j, x j) (n : EReal))) (n : EReal)
      = Ideal.div (∑ i, x i * x i) (n : EReal)
        - Ideal.div (∑ j, x j) (n : EReal) * Ideal.div (∑ j, x j) (n : EReal) := by
  choose r hr using hx
  have e : x = fun i => ((r i : ℝ) : EReal) := funext hr
  subst e
  exact var_coe r hn hc

/-- The same over `Fin n`, the divisor the coercion of `n` itself. -/
theorem var_ereal_fin {n : ℕ} (hn : (n : ℝ) ≠ 0) (x : Fin n → EReal) (hx : ∀ i, ∃ r : ℝ, x i = (r : EReal)) :
    Ideal.div (∑ i, (x i - Ideal.div (∑ j, x j) ((n : ℝ) : EReal)) * (x i - Ideal.div (∑ j, x j) ((n : ℝ) : EReal)))
        ((n : ℝ) : EReal)
      = Ideal.div (∑ i, x i * x i) ((n : ℝ) : EReal)
        - Ideal.div (∑ j, x j) ((n : ℝ) : EReal) * Ideal.div (∑ j, x j) ((n : ℝ) : EReal) :=
  var_ereal x hx hn (by rw [Fintype.card_fin])

/-- At real entries the mean, each centred square's mean and the raw form are themselves coercions of reals. -/
theorem mean_isReal {ι : Type*} [Fintype ι] (x : ι → EReal) (hx : ∀ i, ∃ r : ℝ, x i = (r : EReal)) {n : ℝ}
    (hn : n ≠ 0) : ∃ m : ℝ, Ideal.div (∑ i, x i) (n : EReal) = (m : EReal) := by
  choose r hr using hx
  have e : x = fun i => ((r i : ℝ) : EReal) := funext hr
  subst e
  exact ⟨_, mean_coe r hn⟩

/-- At real entries the mean of the squares minus the square of the mean is the coercion of a real. -/
theorem raw_isReal {ι : Type*} [Fintype ι] (x : ι → EReal) (hx : ∀ i, ∃ r : ℝ, x i = (r : EReal)) {n : ℝ}
    (hn : n ≠ 0) :
    ∃ v : ℝ, Ideal.div (∑ i, x i * x i) (n : EReal)
        - Ideal.div (∑ j, x j) (n : EReal) * Ideal.div (∑ j, x j) (n : EReal) = (v : EReal) := by
  choose r hr using hx
  have e : x = fun i => ((r i : ℝ) : EReal) := funext hr
  subst e
  exact ⟨_, raw_coe r hn⟩

/-! ## Literals, a conversion, a comparison -/

/-- The single-precision pattern `0x47C35000` denotes the real number 100000. -/
theorem ofBits_100000 : Ideal.ofBits .f32 0x47C35000#32 = ((100000 : ℝ) : EReal) := by
  simp [Ideal.ofBits, Ideal.ieee, -EReal.coe_mul]; norm_num

/-- The single-precision pattern of all zeros denotes `0`. -/
theorem ofBits_zero : Ideal.ofBits .f32 0x00000000#32 = 0 := Ideal.ofBits_zero_f32

/-- The signed 32-bit integer `0`, converted to a float, is `0`. -/
theorem sitofp_zero : FloatOps.sitofp (F := Ideal) .f32 (0#32) = (0 : EReal) := by
  show (((0#32 : BitVec 32).toInt : ℝ) : EReal) = 0
  simp

/-- 100000 less the converted integer `0` is 100000. -/
theorem hundredThousand_sub_zero :
    FloatOps.subf (F := Ideal) (φ := .f32) (FloatOps.ofBits .f32 0x47C35000#32) (FloatOps.sitofp .f32 (0#32))
      = ((100000 : ℝ) : EReal) := by
  rw [Ideal.subf_def, sitofp_zero, Ideal.ofBits_def, ofBits_100000, sub_zero]

/-- The comparison "100000 is greater than 0", as the one-bit word it answers. -/
theorem cmp_ogt_100000_zero :
    FloatOps.cmpf (F := Ideal) (φ := .f32) .ogt ((100000 : ℝ) : EReal) (FloatOps.ofBits .f32 0x00000000#32) = 1#1 := by
  rw [Ideal.cmpf_def, Ideal.ofBits_def, ofBits_zero]
  simp [Ideal.cmp]

/-- The guard of a variance with nothing removed from the count: "100000 less the converted integer 0 is
    greater than 0" is the one-bit word `1` … -/
theorem guard_eq_one :
    FloatOps.cmpf (F := Ideal) (φ := .f32) .ogt
        (FloatOps.subf (FloatOps.ofBits .f32 0x47C35000#32) (FloatOps.sitofp .f32 (0#32)))
        (FloatOps.ofBits .f32 0x00000000#32) = 1#1 := by
  rw [hundredThousand_sub_zero, cmp_ogt_100000_zero]

/-- … so a selection on it returns its first branch, whatever the second is. -/
theorem select_guard {α : Type} (a b : α) :
    Scalar.select (FloatOps.cmpf (F := Ideal) (φ := .f32) .ogt
        (FloatOps.subf (FloatOps.ofBits .f32 0x47C35000#32) (FloatOps.sitofp .f32 (0#32)))
        (FloatOps.ofBits .f32 0x00000000#32)) a b = a := by
  rw [guard_eq_one]; exact if_pos rfl

/-! ## A sum in consecutive blocks -/

/-- A sum over `Fin (m * n)` is the sum, over `m` blocks, of the sums over the `n` consecutive entries of each
    block: entry `j` of block `t` is entry `n * t + j`. -/
theorem sum_blocks {M : Type*} [AddCommMonoid M] {N : ℕ} (m n : ℕ) (hN : N = m * n) (f : Fin N → M) :
    ∑ k, f k = ∑ t : Fin m, ∑ j : Fin n, f ⟨n * t.val + j.val, by
      subst hN
      have h1 := t.isLt
      have h2 := j.isLt
      calc n * t.val + j.val < n * t.val + n := by omega
        _ = n * (t.val + 1) := by ring
        _ ≤ n * m := Nat.mul_le_mul_left n h1
        _ = m * n := Nat.mul_comm n m⟩ := by
  subst hN
  rw [← Equiv.sum_comp finProdFinEquiv f, Fintype.sum_prod_type]
  refine Finset.sum_congr rfl fun t _ => Finset.sum_congr rfl fun j _ => congrArg f (Fin.ext ?_)
  simp [finProdFinEquiv, Nat.add_comm]

end LibVariance
-- ==== Proof.StatsValue.lean ====
/-
  What the batch statistics leave in their two result arrays, and what those are on the extended reals.

  The region writes its two results back once, at its last point, where the body has copied the two scratch rows
  out: so each result array — one [1, 64] block — ends at the running sums over all ten row blocks. On the extended
  reals a running sum is an honest sum: one accumulation step adds to each column's entry the sum of that column
  over the 10000 rows of the block, ten such steps from a row of zeros add up the column over the ten consecutive
  blocks, and those tile the 100000 rows. So entry (0, j) of the first result is the sum of column j of the
  activations, and of the second the sum of the squares of column j. Addition on the extended reals is associative and
  commutative with no finiteness asked, so neither statement has a hypothesis.
-/
import proofs.«107830_j10685878632725_1_alg».proof.Proof.Stats
import proofs.«107830_j10685878632725_1_alg».proof.Proof.LibVariance
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.StatsValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable {F : FTy → Type} [FloatOps F]

/-- Rows 10000·b … 10000·b + 9999 of a 100000-row array, as a block. -/
def rowBlock (X : S100000x64.Idx → Elt F .f32) (b : Fin 10) : Vec F S10000x64 .f32 :=
  fun x => X (ix2 (⟨10000 * b.val + (x 0).val, by have := idx2_lt0 x; have := b.isLt; omega⟩ : Fin 100000) (x 1 : Fin 64))

/-- The program's index map of the row blocks' window, decided once over the grid: at point `t` it is at block `t` of the
    rows and block 0 of the columns. -/
theorem index_facts : ∀ t : Fin cfg2.N, win2_0.index t (0 : Fin 2) = t.val ∧ win2_0.index t (1 : Fin 2) = 0 ∧ t.val < 10 :=
  (by decide +kernel : ∀ t : Fin grid2.N, _)

section AtEntry

variable (V : (c : Dev nD) → (b : Ref sig .tc) → Buf (Elt F) ((c : Thread nD τ).loc b))

/-- The row blocks' window at point `t` holds rows 10000·t … of its array. -/
theorem rows_eq (c : Dev nD) (t : Fin cfg2.N) (ht : t.val < 10) :
    (Stats.blockAt V c 0 t : Vec F S10000x64 .f32) = rowBlock (V c (Pipeline.arrRef spec2 0)) ⟨t.val, ht⟩ := by
  obtain ⟨e00, e01, -⟩ := index_facts t
  funext x
  unfold Stats.blockAt rowBlock
  rw [View.read_apply]
  show (V c (Pipeline.arrRef spec2 0) : S100000x64.Idx → Elt F .f32) _ = (V c (Pipeline.arrRef spec2 0) : S100000x64.Idx → Elt F .f32) _
  congr 1
  funext a
  apply Fin.ext
  match a with
  | ⟨0, _⟩ => show win2_0.index t 0 * 10000 + 1 * (x 0).val = 10000 * t.val + (x 0).val; rw [e00]; omega
  | ⟨1, _⟩ => show win2_0.index t 1 * 64 + 1 * (x 1).val = (x 1).val; rw [e01]; omega

/-! ## The two results' arrays after the region -/

/-- The sums over all ten blocks, as contents of the two results' arrays (each array is its window's one block). -/
abbrev sumsResult (c : Dev nD) : Buf (Elt F) ((c : Thread nD τ).loc main_v66_0) := Stats.sumsUpTo V c (Fin.last cfg2.N)
abbrev squaresResult (c : Dev nD) : Buf (Elt F) ((c : Thread nD τ).loc main_v66_1) := Stats.squaresUpTo V c (Fin.last cfg2.N)

/-- After the last point comes the end of the grid. -/
theorem succ_last : (t2_9 : Fin cfg2.N).succ = Fin.last cfg2.N := Fin.ext (show 9 + 1 = cfg2.N from N_2.symm)

/-- The one write-back of the column sums, at the last point, writes the sums over all blocks: block (0, 0) of the
    [1, 64] array read through zero offsets is the array. -/
theorem flushed_sums (c : Dev nD) (t : Fin cfg2.N) (hf : (cfg2.win 1).flush t = true) :
    (Stats.dat V c).flushed 1 t = ((cfg2.win 1).blk t).view.read (Elt F) (sumsResult V c) := by
  have hN : cfg2.N = 10 := N_2
  have h9 : t.val = 9 := by have := (flush2_1 t).mp hf; have := t.isLt; omega
  obtain rfl : t = t2_9 := Fin.ext h9
  show (cfg2.win 1).cut (grid2.coords t2_9) ((Stats.dat V c).after 1 t2_9) = _
  rw [Stats.after_sums, succ_last]
  have hz' : (fun a => win2_1.index t2_9 a * main_v66_0.ty.shape.size a) = fun _ => 0 := funext fun a => by fin_cases a <;> decide
  exact (Memref.read_access_unit_zero (Elt F) main_v66_0 hz' (fun a => by rw [congrFun hz' a]; simp) (sumsResult V c)).symm

theorem flushed_squares (c : Dev nD) (t : Fin cfg2.N) (hf : (cfg2.win 2).flush t = true) :
    (Stats.dat V c).flushed 2 t = ((cfg2.win 2).blk t).view.read (Elt F) (squaresResult V c) := by
  have hN : cfg2.N = 10 := N_2
  have h9 : t.val = 9 := by have := (flush2_2 t).mp hf; have := t.isLt; omega
  obtain rfl : t = t2_9 := Fin.ext h9
  show (cfg2.win 2).cut (grid2.coords t2_9) ((Stats.dat V c).after 2 t2_9) = _
  rw [Stats.after_squares, succ_last]
  have hz' : (fun a => win2_2.index t2_9 a * main_v66_1.ty.shape.size a) = fun _ => 0 := funext fun a => by fin_cases a <;> decide
  exact (Memref.read_access_unit_zero (Elt F) main_v66_1 hz' (fun a => by rw [congrFun hz' a]; simp) (squaresResult V c)).symm

/-- So the first result's array ends holding the column sums over all ten blocks (the last point's block covers it), -/
theorem final_sums (c : Dev nD) : (Stats.dat V c).arrAt 1 cfg2.N = sumsResult V c :=
  (Stats.dat V c).arrAt_eq_of_cover 1 (sumsResult V c) (flushed_sums V c) fun i =>
    ⟨t2_9, (flush2_1 t2_9).mpr rfl, by
      show i ∈ ((View.whole main_v66_0).slice (win2_1.rect t2_9)).set
      rw [View.set_slice_whole, Rect.mem_set_unit]
      intro a
      have h0 : (i 0 : Nat) < 1 := (i 0).isLt
      have h1 : (i 1 : Nat) < 64 := (i 1).isLt
      match a with
      | ⟨0, _⟩ => show win2_1.index t2_9 0 * win2_1.size 0 ≤ (i 0 : Nat) ∧ (i 0 : Nat) < win2_1.index t2_9 0 * win2_1.size 0 + win2_1.xsize (grid2.coords t2_9) 0
                  rw [show win2_1.index t2_9 0 * win2_1.size 0 = 0 from by decide +kernel, show win2_1.xsize (grid2.coords t2_9) 0 = 1 from by decide +kernel]; omega
      | ⟨1, _⟩ => show win2_1.index t2_9 1 * win2_1.size 1 ≤ (i 1 : Nat) ∧ (i 1 : Nat) < win2_1.index t2_9 1 * win2_1.size 1 + win2_1.xsize (grid2.coords t2_9) 1
                  rw [show win2_1.index t2_9 1 * win2_1.size 1 = 0 from by decide +kernel, show win2_1.xsize (grid2.coords t2_9) 1 = 64 from by decide +kernel]; omega⟩

/-- and the second result's array the column sums of squares. -/
theorem final_squares (c : Dev nD) : (Stats.dat V c).arrAt 2 cfg2.N = squaresResult V c :=
  (Stats.dat V c).arrAt_eq_of_cover 2 (squaresResult V c) (flushed_squares V c) fun i =>
    ⟨t2_9, (flush2_2 t2_9).mpr rfl, by
      show i ∈ ((View.whole main_v66_1).slice (win2_2.rect t2_9)).set
      rw [View.set_slice_whole, Rect.mem_set_unit]
      intro a
      have h0 : (i 0 : Nat) < 1 := (i 0).isLt
      have h1 : (i 1 : Nat) < 64 := (i 1).isLt
      match a with
      | ⟨0, _⟩ => show win2_2.index t2_9 0 * win2_2.size 0 ≤ (i 0 : Nat) ∧ (i 0 : Nat) < win2_2.index t2_9 0 * win2_2.size 0 + win2_2.xsize (grid2.coords t2_9) 0
                  rw [show win2_2.index t2_9 0 * win2_2.size 0 = 0 from by decide +kernel, show win2_2.xsize (grid2.coords t2_9) 0 = 1 from by decide +kernel]; omega
      | ⟨1, _⟩ => show win2_2.index t2_9 1 * win2_2.size 1 ≤ (i 1 : Nat) ∧ (i 1 : Nat) < win2_2.index t2_9 1 * win2_2.size 1 + win2_2.xsize (grid2.coords t2_9) 1
                  rw [show win2_2.index t2_9 1 * win2_2.size 1 = 0 from by decide +kernel, show win2_2.xsize (grid2.coords t2_9) 1 = 64 from by decide +kernel]; omega⟩

end AtEntry

/-! ## On the extended reals -/

section AtIdeal

/-- The rows the first point writes into the scratch are rows of zeros. -/
theorem zeroSum_apply (i : S1x64.Idx) : k2_pay1 (F := Ideal) i = 0 := by
  unfold k2_pay1
  rw [shapeCast_self]
  exact Ideal.ofBits_zero_f32
theorem zeroSq_apply (i : S1x64.Idx) : k2_pay2 (F := Ideal) i = 0 := by
  unfold k2_pay2
  rw [shapeCast_self]
  exact Ideal.ofBits_zero_f32

/-- One accumulation step of the column sums: to the running row's entry at column `j` it adds the sum of column `j` of
    the block. -/
theorem step_sum (x : Vec Ideal S10000x64 .f32) (s : Vec Ideal S1x64 .f32) (u : Fin 1) (j : Fin 64) :
    k2_pay4 x s (ix2 u j) = s (ix2 u j) + ∑ k : Fin 10000, x (ix2 k j) := by
  unfold k2_pay4 k2_pay3
  rw [shapeCast_self, shapeCast_self, addf_apply, shapeCast_a_1a_apply]
  refine congrArg (s (ix2 u j) + ·) ?_
  refine (Ideal.multiReduction_add_single (φ := .f32) _ _ reduces_S10000x64_S64 _ _ (ix1 j)).trans ?_
  refine Finset.sum_congr rfl fun k _ => congrArg x (funext fun a => ?_)
  match a with
  | ⟨0, _⟩ => exact Fin.ext rfl
  | ⟨1, _⟩ => exact Fin.ext rfl

/-- One accumulation step of the column sums of squares. -/
theorem step_sq (x : Vec Ideal S10000x64 .f32) (q : Vec Ideal S1x64 .f32) (u : Fin 1) (j : Fin 64) :
    k2_pay5 x q (ix2 u j) = q (ix2 u j) + ∑ k : Fin 10000, x (ix2 k j) * x (ix2 k j) := by
  unfold k2_pay5 k2_pay3
  rw [shapeCast_self, shapeCast_self, addf_apply, shapeCast_a_1a_apply]
  refine congrArg (q (ix2 u j) + ·) ?_
  refine (Ideal.multiReduction_add_single (φ := .f32) _ _ reduces_S10000x64_S64 _ _ (ix1 j)).trans ?_
  refine Finset.sum_congr rfl fun k _ => ?_
  have e : (reduces_S10000x64_S64.lift (ix1 j) k : S10000x64.Idx) = ix2 k j := funext fun a => by
    match a with
    | ⟨0, _⟩ => exact Fin.ext rfl
    | ⟨1, _⟩ => exact Fin.ext rfl
  rw [mulf_apply, e]; rfl

variable (V : (c : Dev nD) → (b : Ref sig .tc) → Buf (Elt Ideal) ((c : Thread nD τ).loc b))

/-- The activations as the region finds them, as a 100000 × 64 array of extended reals. -/
abbrev acts (c : Dev nD) : S100000x64.Idx → EReal := V c (Pipeline.arrRef spec2 0)

/-- After `n` blocks the running column sum at column `j` is the sum of column `j` over the first `n` blocks of rows. -/
theorem sumsN_apply (c : Dev nD) (u : Fin 1) (j : Fin 64) : ∀ (n : ℕ) (hn : n ≤ 10),
    Stats.sumsN V c n (ix2 u j) = ∑ t : Fin n, ∑ k : Fin 10000,
      acts V c (ix2 (⟨10000 * t.val + k.val, by have := t.isLt; have := k.isLt; omega⟩ : Fin 100000) j)
  | 0, _ => by
    show k2_pay1 (F := Ideal) (ix2 u j) = _
    rw [zeroSum_apply]; rfl
  | n + 1, hn => by
    have hlt : n < cfg2.N := by rw [show cfg2.N = 10 from N_2]; omega
    rw [show Stats.sumsN V c (n + 1) = k2_pay4 (Stats.blockAt V c 0 ⟨n, hlt⟩) (Stats.sumsN V c n) from (dif_pos hlt).trans rfl,
      step_sum, sumsN_apply c u j n (by omega), rows_eq V c ⟨n, hlt⟩ (by show n < 10; omega), Fin.sum_univ_castSucc (n := n)]
    rfl

theorem squaresN_apply (c : Dev nD) (u : Fin 1) (j : Fin 64) : ∀ (n : ℕ) (hn : n ≤ 10),
    Stats.squaresN V c n (ix2 u j) = ∑ t : Fin n, ∑ k : Fin 10000,
      acts V c (ix2 (⟨10000 * t.val + k.val, by have := t.isLt; have := k.isLt; omega⟩ : Fin 100000) j)
        * acts V c (ix2 (⟨10000 * t.val + k.val, by have := t.isLt; have := k.isLt; omega⟩ : Fin 100000) j)
  | 0, _ => by
    show k2_pay2 (F := Ideal) (ix2 u j) = _
    rw [zeroSq_apply]; rfl
  | n + 1, hn => by
    have hlt : n < cfg2.N := by rw [show cfg2.N = 10 from N_2]; omega
    rw [show Stats.squaresN V c (n + 1) = k2_pay5 (Stats.blockAt V c 0 ⟨n, hlt⟩) (Stats.squaresN V c n) from (dif_pos hlt).trans rfl,
      step_sq, squaresN_apply c u j n (by omega), rows_eq V c ⟨n, hlt⟩ (by show n < 10; omega), Fin.sum_univ_castSucc (n := n)]
    rfl

/-- THE COLUMN SUMS: entry (0, j) of the sums over all ten blocks is the sum of column `j` of the activations. -/
theorem sums_apply (c : Dev nD) (u : Fin 1) (j : Fin 64) :
    Stats.sumsUpTo V c (Fin.last cfg2.N) (ix2 u j) = ∑ r : Fin 100000, acts V c (ix2 r j) := by
  show Stats.sumsN V c cfg2.N (ix2 u j) = _
  rw [show cfg2.N = 10 from N_2, sumsN_apply V c u j 10 (le_refl _),
    LibVariance.sum_blocks 10 10000 (by norm_num) fun r : Fin 100000 => acts V c (ix2 r j)]

/-- THE COLUMN SUMS OF SQUARES: entry (0, j) is the sum of the squares of column `j` of the activations. -/
theorem squares_apply (c : Dev nD) (u : Fin 1) (j : Fin 64) :
    Stats.squaresUpTo V c (Fin.last cfg2.N) (ix2 u j) = ∑ r : Fin 100000, acts V c (ix2 r j) * acts V c (ix2 r j) := by
  show Stats.squaresN V c cfg2.N (ix2 u j) = _
  rw [show cfg2.N = 10 from N_2, squaresN_apply V c u j 10 (le_refl _),
    LibVariance.sum_blocks 10 10000 (by norm_num) fun r : Fin 100000 => acts V c (ix2 r j) * acts V c (ix2 r j)]

end AtIdeal

end Cert.KernelIdeal.StatsValue

end
-- ==== Proof.NormaliseValue.lean ====
/-
  The normalisation's result array, as one function of its five input arrays.

  Region 3 writes the result array one block of 10000 rows at a time, and the block it writes at point `t` is the
  normalisation of rows 10000·t … of the activations with the four whole rows. So the array ends holding, at row `r`
  and column `j`, the normalisation of the row block containing `r` (block `r / 10000`), read at row
  `r % 10000` and column `j`: the function `whole` below. The ten blocks tile the array, so every entry is written.
  The first part is stated for any float instance; the last section reads an entry at the ideal instance.
-/
import proofs.«107830_j10685878632725_1_alg».proof.Proof.Normalise
import Idealize.ShloMosaic.Lib.Pipeline.Value
import Idealize.ShloMosaic.Lib.ValueIdx
import Idealize.ShloMosaic.Lib.ValueLayout

set_option maxRecDepth 16384

noncomputable section

namespace Cert.KernelIdeal.NormaliseValue

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

/-- The zero offsets of a whole-buffer rectangle, as the constant function. -/
theorem hz : (![0, 0] : Fin 2 → Nat) = fun _ => 0 := funext fun a => by fin_cases a <;> rfl

/-- What the body leaves is its payload: the one store is over the whole buffer and the loads read whole buffers. -/
theorem normalised_eq (x : Vec F S10000x64 .f32) (m v g b : Vec F S1x64 .f32) :
    Normalise.normalised x m v g b = k3_pay1 v x m g b := by
  unfold Normalise.normalised
  rw [View.canon_unit_zero hz]
  simp only [View.ld_unit_zero (S := S10000x64) hz, View.ld_unit_zero (S := S1x64) hz]

/-- Rows 10000·q … 10000·q + 9999 of an array of 100000 rows. -/
def rowBlock (h : S100000x64.Idx → Elt F .f32) (q : Fin 10) : S10000x64.Idx → Elt F .f32 :=
  fun y => h (ix2 (n0 := 100000) (n1 := 64) ⟨q.val * 10000 + (y 0).val, by have := idx2_lt0 y; have := q.isLt; omega⟩ ⟨(y 1).val, idx2_lt1 y⟩)

/-- The row block an entry of the array lies in, and its place inside that block. -/
def blockOf (i : S100000x64.Idx) : Fin 10 := ⟨(i 0).val / 10000, by have := idx2_lt0 i; omega⟩
def within (i : S100000x64.Idx) : S10000x64.Idx :=
  ix2 (n0 := 10000) (n1 := 64) ⟨(i 0).val % 10000, Nat.mod_lt _ (by decide)⟩ ⟨(i 1).val, idx2_lt1 i⟩

/-- The result array as one function of the five input arrays: at row `r`, column `j` the normalisation of the
    row block containing `r` with the four rows, read at row `r % 10000`, column `j`. -/
def whole (h : S100000x64.Idx → Elt F .f32) (m v g b : S1x64.Idx → Elt F .f32) : S100000x64.Idx → Elt F .f32 :=
  fun i => Normalise.normalised (rowBlock h (blockOf i)) m v g b (within i)

theorem blockOf_eq (i : S100000x64.Idx) (q : Fin 10) (r : ℕ) (hr : r < 10000) (h0 : (i 0).val = q.val * 10000 + r) :
    blockOf i = q := Fin.ext (by show (i 0).val / 10000 = q.val; omega)

theorem within_eq (i : S100000x64.Idx) (q : ℕ) (y : S10000x64.Idx) (h0 : (i 0).val = q * 10000 + (y 0).val)
    (h1 : (i 1).val = (y 1).val) : within i = y := by
  have := idx2_lt0 y
  funext a
  match a with
  | ⟨0, _⟩ => exact Fin.ext (by show (i 0).val % 10000 = (y 0).val; omega)
  | ⟨1, _⟩ => exact Fin.ext (by show (i 1).val = (y 1).val; exact h1)

/-- The array function at an entry of block `q`, from the block's own contents. -/
theorem whole_at (h : S100000x64.Idx → Elt F .f32) (m v g b : S1x64.Idx → Elt F .f32) (q : Fin 10)
    (i : S100000x64.Idx) (y : S10000x64.Idx) (h0 : (i 0).val = q.val * 10000 + (y 0).val) (h1 : (i 1).val = (y 1).val) :
    whole h m v g b i = Normalise.normalised (rowBlock h q) m v g b y := by
  unfold whole
  rw [blockOf_eq i q (y 0).val (idx2_lt0 y) h0, within_eq i q.val y h0 h1]

/-! ## From the blocks to the array -/

section AtEntry

variable (V : (c : Dev nD) → (b : Ref sig .tc) → Buf (Elt F) ((c : Thread nD τ).loc b))

/-- The program's index maps, decided over the grid: the activations' and the result's block index is the point on
    the row axis and zero on the column axis; the four rows' block index is zero on both. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 ∧ t.val < 10 :=
  (by decide +kernel : ∀ t : Fin grid3.N, _)

/-- Every row block is some point's. -/
theorem idx_onto : ∀ q : Fin 10, ∃ t : Fin cfg3.N, t.val = q.val :=
  (by decide +kernel : ∀ q : Fin 10, ∃ t : Fin grid3.N, t.val = q.val)

/-- The activations' block at point `t` is rows 10000·t … of the array. -/
theorem rows_block (c : Dev nD) (t : Fin cfg3.N) (q : Fin 10) (hq : q.val = t.val) :
    (Normalise.blockAt V c 0 t : S10000x64.Idx → Elt F .f32) = rowBlock (V c (Pipeline.arrRef spec3 0)) q := by
  obtain ⟨e0, e1, -⟩ := idx_facts t
  funext y
  show V c main_v65 (((cfg3.win 0).blk t).view.emb y) = V c main_v65 _
  refine congrArg _ (funext fun a => Fin.ext ?_)
  match a with
  | ⟨0, _⟩ => show win3_0.index t (0 : Fin 2) * 10000 + 1 * (y 0).val = q.val * 10000 + (y 0).val; omega
  | ⟨1, _⟩ => show win3_0.index t (1 : Fin 2) * 64 + 1 * (y 1).val = (y 1).val; omega

/-- Each of the four rows' blocks at any point is the whole row as the region finds it. -/
theorem mean_block (c : Dev nD) (t : Fin cfg3.N) :
    (Normalise.blockAt V c 1 t : S1x64.Idx → Elt F .f32) = V c (Pipeline.arrRef spec3 1) := by
  obtain ⟨-, -, e0, e1, -⟩ := idx_facts t
  funext y
  show V c main_v68 (((cfg3.win 1).blk t).view.emb y) = V c main_v68 y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 64 + 1 * (y 1).val = (y 1).val; omega

theorem variance_block (c : Dev nD) (t : Fin cfg3.N) :
    (Normalise.blockAt V c 2 t : S1x64.Idx → Elt F .f32) = V c (Pipeline.arrRef spec3 2) := by
  obtain ⟨-, -, -, -, e0, e1, -⟩ := idx_facts t
  funext y
  show V c main_v72 (((cfg3.win 2).blk t).view.emb y) = V c main_v72 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

theorem scale_block (c : Dev nD) (t : Fin cfg3.N) :
    (Normalise.blockAt V c 3 t : S1x64.Idx → Elt F .f32) = V c (Pipeline.arrRef spec3 3) := by
  obtain ⟨-, -, -, -, -, -, e0, e1, -⟩ := idx_facts t
  funext y
  show V c main_v73 (((cfg3.win 3).blk t).view.emb y) = V c main_v73 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

theorem shift_block (c : Dev nD) (t : Fin cfg3.N) :
    (Normalise.blockAt V c 4 t : S1x64.Idx → Elt F .f32) = V c (Pipeline.arrRef spec3 4) := by
  obtain ⟨-, -, -, -, -, -, -, -, e0, e1, -⟩ := idx_facts t
  funext y
  show V c main_v74 (((cfg3.win 4).blk t).view.emb y) = V c main_v74 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- The result array of region 3 as the function of the five arrays it is entered with. -/
abbrev result (c : Dev nD) : S100000x64.Idx → Elt F .f32 :=
  whole (V c (Pipeline.arrRef spec3 0)) (V c (Pipeline.arrRef spec3 1)) (V c (Pipeline.arrRef spec3 2))
    (V c (Pipeline.arrRef spec3 3)) (V c (Pipeline.arrRef spec3 4))

/-- Reading block `t` of the result's array: if an array function `G` agrees with block contents `X` at the entries
    of rows 10000·t …, then what a write-back of `X` at point `t` writes is block `t` of `G`. -/
theorem block_read (t : Fin cfg3.N) (X : S10000x64.Idx → Elt F .f32) (G : S100000x64.Idx → Elt F .f32)
    (hXG : ∀ (y : S10000x64.Idx) (i : S100000x64.Idx), (i 0).val = t.val * 10000 + (y 0).val → (i 1).val = (y 1).val → G i = X y) :
    (cfg3.win 5).cut (grid3.coords t) X = ((cfg3.win 5).blk t).view.read (Elt F) G := by
  obtain ⟨-, -, -, -, -, -, -, -, -, -, e0, e1, ht⟩ := idx_facts t
  funext j
  show X j = G (((cfg3.win 5).blk t).view.emb j)
  refine (hXG j _ ?_ ?_).symm
  · show win3_5.index t (0 : Fin 2) * 10000 + 1 * (j 0).val = t.val * 10000 + (j 0).val; omega
  · show win3_5.index t (1 : Fin 2) * 64 + 1 * (j 1).val = (j 1).val; omega

/-- What point `t` writes back is block `t` of `result`. -/
theorem flushed_eq (c : Dev nD) (t : Fin cfg3.N) :
    (Normalise.dat V c).flushed 5 t = ((cfg3.win 5).blk t).view.read (Elt F) (result V c) := by
  show (cfg3.win 5).cut (grid3.coords t) ((Normalise.dat V c).after 5 t) = _
  rw [Normalise.after_normalised]
  have ht : t.val < 10 := (idx_facts t).2.2.2.2.2.2.2.2.2.2.2.2
  refine block_read t _ _ fun y i h0 h1 => ?_
  rw [rows_block V c t ⟨t.val, ht⟩ rfl, mean_block V c t, variance_block V c t, scale_block V c t, shift_block V c t]
  exact whole_at _ _ _ _ _ ⟨t.val, ht⟩ i y h0 h1

/-- An index of the array is in point `t`'s block iff each coordinate is in the block's range on its axis. -/
theorem mem_blk (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v75).slice (win3_5.rect t)).set ↔ _
  rw [View.set_slice_whole, Rect.mem_set_unit]
  exact Iff.rfl

/-- The ten row blocks tile the array: row `r` is in the block of point `r / 10000`. -/
theorem cover (i : S100000x64.Idx) :
    ∃ t : Fin cfg3.N, (cfg3.win 5).flush t = true ∧ i ∈ ((cfg3.win 5).blk t).view.set := by
  have hi0 := idx2_lt0 i
  have hi1 := idx2_lt1 i
  obtain ⟨t, ht⟩ := idx_onto ⟨(i 0).val / 10000, by omega⟩
  have ht' : t.val = (i 0).val / 10000 := ht
  obtain ⟨-, -, -, -, -, -, -, -, -, -, e0, e1, -⟩ := idx_facts t
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- The result array after region 3 is `result`: the function `whole` of the five input arrays as the region
    finds them. -/
theorem final (c : Dev nD) : (Normalise.dat V c).arrAt 5 cfg3.N = result V c :=
  (Normalise.dat V c).arrAt_eq_of_cover 5 (result V c) (fun t _ => flushed_eq V c t) cover

end AtEntry

/-! ## An entry of the result, at the ideal instance

At the ideal instance the pointwise operations are the extended reals' own, a row broadcast over the rows reads the
row's entry of the same column, and the casts to the same shape are the identity: so an entry of the payload, and with
it an entry of `whole`, is the arithmetic expression of five entries of the inputs. The small constant stays the word
the payload carries. -/

section AtIdeal

/-- The payload at row `p`, column `q` of a block. -/
theorem payload_apply (v : Vec Ideal S1x64 .f32) (x : Vec Ideal S10000x64 .f32) (m g b : Vec Ideal S1x64 .f32)
    (p : Fin 10000) (q : Fin 64) :
    k3_pay1 (F := Ideal) v x m g b (ix2 p q)
      = ((x (ix2 p q) - m (ix2 (0 : Fin 1) q)) * Ideal.rsqrt (v (ix2 (0 : Fin 1) q) + Ideal.ofBits .f32 0x3727C5AC#32))
          * g (ix2 (0 : Fin 1) q) + b (ix2 (0 : Fin 1) q) := by
  unfold k3_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- Row `r % 10000` of row block `r / 10000` is row `r`. -/
theorem rowBlock_within (h : S100000x64.Idx → Elt F .f32) (r : Fin 100000) (j : Fin 64) :
    rowBlock h (blockOf (ix2 r j)) (ix2 (n0 := 10000) (n1 := 64) ⟨r.val % 10000, Nat.mod_lt _ (by decide)⟩ j) = h (ix2 r j) := by
  unfold rowBlock
  refine congrArg h (funext fun a => Fin.ext ?_)
  match a with
  | ⟨0, _⟩ => show r.val / 10000 * 10000 + r.val % 10000 = r.val; omega
  | ⟨1, _⟩ => rfl

/-- The result array's function at row `r`, column `j`: the activation there less the column's mean, times the
    reciprocal square root of the column's variance plus the constant, times the column's scale, plus its shift. -/
theorem whole_apply (h : S100000x64.Idx → Elt Ideal .f32) (m v g b : S1x64.Idx → Elt Ideal .f32) (r : Fin 100000) (j : Fin 64) :
    whole (F := Ideal) h m v g b (ix2 r j)
      = ((h (ix2 r j) - m (ix2 (0 : Fin 1) j)) * Ideal.rsqrt (v (ix2 (0 : Fin 1) j) + Ideal.ofBits .f32 0x3727C5AC#32))
          * g (ix2 (0 : Fin 1) j) + b (ix2 (0 : Fin 1) j) := by
  unfold whole
  rw [normalised_eq]
  refine (payload_apply v _ m g b ⟨r.val % 10000, Nat.mod_lt _ (by decide)⟩ j).trans ?_
  rw [rowBlock_within h r j]

end AtIdeal

end Cert.KernelIdeal.NormaliseValue

end
-- ==== Proof.StagesAt.lean ====
/-
  The reference's normalisation stage, read at an entry.

  At the ideal instance the stage's pointwise operations are the extended reals' own; each of the four rows reaches
  entry (r, j) as its own entry j (a vector made one row, the row repeated down the rows); the small constant is a
  scalar repeated along the row and stays the word the program carries. So entry (r, j) of the stage is the
  arithmetic expression of H(r, j) and entry j of the mean, the variance, the scale and the shift.
-/
import proofs.«107830_j10685878632725_1_alg».proof.Proof.Stages
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost

set_option maxRecDepth 16384

noncomputable section

namespace Cert.ReferenceIdeal.StagesAt

open Cert.ReferenceIdeal Cert.ReferenceIdeal.Gen
open Idealize.ShloMosaic Idealize.ShloMosaic.ValueIdx

/-- A vector of 64 entries made one row, read at column `j`, is its entry `j`. -/
theorem asRow_apply {α : Type} (h : S64.BroadcastsInDim S1x64 (![1] : Fin 1 → Fin S1x64.rank)) (x : S64.Idx → α) (j : Fin 64) :
    broadcastInDim S1x64 ![1] h x (ix2 (0 : Fin 1) j) = x (ix1 j) := by
  refine broadcastInDim_apply ![1] h x (ix2 (0 : Fin 1) j) (ix1 j) fun a => ?_
  match a with
  | ⟨0, _⟩ =>
    show j.val = if (64 : ℕ) = 1 then 0 else j.val
    rw [if_neg (by decide)]

/-- A vector of 64 entries repeated down 100000 rows, read at (r, j), is its entry `j`. -/
theorem downRows_apply {α : Type} (x : S64.Idx → α) (r : Fin 100000) (j : Fin 64) :
    broadcastInDim S100000x64 ![0, 1] bcast_S1x64_S100000x64_0_1 (broadcastInDim S1x64 ![1] bcast_S64_S1x64_1 x) (ix2 r j)
      = x (ix1 j) :=
  (broadcastInDim_oneRow_apply bcast_S1x64_S100000x64_0_1 _ r j).trans (asRow_apply bcast_S64_S1x64_1 x j)

/-- Entry (r, j) of the normalisation: H(r, j) less the mean's entry j, times the reciprocal square root of the
    variance's entry j plus the constant, times the scale's entry j, plus the shift's entry j. -/
theorem normalise_apply (H : FVec Ideal S100000x64 .f32) (mean var gamma beta : FVec Ideal S64 .f32) (r : Fin 100000) (j : Fin 64) :
    Stages.normalise (F := Ideal) H mean var gamma beta (ix2 r j)
      = ((H (ix2 r j) - mean (ix1 j)) * Ideal.rsqrt (var (ix1 j) + Ideal.ofBits .f32 0x3727C5AC#32)) * gamma (ix1 j) + beta (ix1 j) := by
  unfold Stages.normalise
  rw [addf_apply, mulf_apply, mulf_apply, subf_apply]
  rw [downRows_apply, downRows_apply, downRows_apply, downRows_apply]
  show ((H (ix2 r j) - mean (ix1 j)) * Ideal.rsqrt (var (ix1 j) + broadcastInDim S64 ![] bcast_S_S64 (constant (F := Ideal) S_ .f32 0x3727C5AC#32) (ix1 j))) * gamma (ix1 j) + beta (ix1 j) = _
  rw [broadcastInDim_scalar_apply, constant_apply]

end Cert.ReferenceIdeal.StagesAt

end
-- ==== Proof.ResultValue.lean ====
/-
  The kernel program's result, entry by entry.

  The program's result array is what region 3 leaves in its output window: the normalisation of the second layer's
  output `H` with four rows. Those rows are what the short host stretch before region 3 makes of the column sums and
  sums of squares region 2 left and of the two parameter vectors: the mean row is the sums divided by the row count,
  the variance row is the sums of squares divided by the row count less the mean row squared, and the scale and shift
  rows are the parameter vectors laid out as one row. So entry (r, j) of the result is an arithmetic expression of
  H(r, j), the two column sums at j and the two parameters at j.
-/
import proofs.«107830_j10685878632725_1_alg».proof.Proof.Run
import proofs.«107830_j10685878632725_1_alg».proof.Proof.NormaliseValue
import proofs.«107830_j10685878632725_1_alg».proof.Proof.StagesAt
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.ResultValue

open Cert.KernelIdeal Cert.KernelIdeal.Gen
open Idealize.ShloMosaic Idealize.ShloMosaic.TcCoe Idealize.ShloMosaic.ValueIdx
open Idealize.SL.Sem

/-! ## What the host stretch before region 3 leaves, from any contents -/

section Stretch

variable {F : FTy → Type} [FloatOps F]
variable (W : Valuation τ sig (Elt F))

/-- The row count, as a row. -/
abbrev countRow : FVec F S1x64 .f32 := broadcastInDim S1x64 ![] bcast_S_S1x64 (constant S_ .f32 0x47C35000#32)

/-- The stretch does not write the second layer's output. -/
theorem stretch_hidden : StableHlo.after hostOps3 W (Proc.devRef .tc main_v65) = W (Proc.devRef .tc main_v65) :=
  StableHlo.after_of_writes_sub hostOps3 _ hostOps3_writes (by decide)

/-- The mean row: the column sums over the row count. -/
theorem stretch_mean : (StableHlo.after hostOps3 W (Proc.devRef .tc main_v68) : S1x64.Idx → Elt F .f32)
    = Host.divf (W (Proc.devRef .tc main_v66_0)) countRow := by
  after_results

/-- The variance row: the column sums of squares over the row count, less the mean row squared. -/
theorem stretch_variance : (StableHlo.after hostOps3 W (Proc.devRef .tc main_v72) : S1x64.Idx → Elt F .f32)
    = subf (Host.divf (W (Proc.devRef .tc main_v66_1)) countRow)
        (mulf (Host.divf (W (Proc.devRef .tc main_v66_0)) countRow) (Host.divf (W (Proc.devRef .tc main_v66_0)) countRow)) := by
  after_results

/-- The scale row and the shift row: the parameter vectors as one row each. -/
theorem stretch_scale : (StableHlo.after hostOps3 W (Proc.devRef .tc main_v73) : S1x64.Idx → Elt F .f32)
    = shapeCast S1x64 (W (Proc.devRef .tc main_arg5) : S64.Idx → Elt F .f32) shapeCasts_S64_S1x64 := by
  after_results; rfl

theorem stretch_shift : (StableHlo.after hostOps3 W (Proc.devRef .tc main_v74) : S1x64.Idx → Elt F .f32)
    = shapeCast S1x64 (W (Proc.devRef .tc main_arg6) : S64.Idx → Elt F .f32) shapeCasts_S64_S1x64 := by
  after_results; rfl

end Stretch

/-! ## The five arrays region 3 is entered with -/

section Arrays

variable {F : FTy → Type} [FloatOps F]
variable (m : (ℓ : Loc nD τ sig) → Buf (Elt F) ℓ)

/-- The two parameter vectors reach region 2's exit as launched. -/
theorem B8_arg5 (c : Dev nD) : Run.B8 m c (Proc.devRef .tc main_arg5) = m ((c : Thread nD τ).loc main_arg5) :=
  ((Run.B10_of_ne m c main_arg5 (by decide)).trans
    (StableHlo.after_of_writes_sub hostOps3 _ hostOps3_writes (by decide))).symm.trans (Run.B10_arg5 m c)
theorem B8_arg6 (c : Dev nD) : Run.B8 m c (Proc.devRef .tc main_arg6) = m ((c : Thread nD τ).loc main_arg6) :=
  ((Run.B10_of_ne m c main_arg6 (by decide)).trans
    (StableHlo.after_of_writes_sub hostOps3 _ hostOps3_writes (by decide))).symm.trans (Run.B10_arg6 m c)

/-- The second layer's output, the column sums and the column sums of squares, as region 3's stretch finds them. -/
abbrev hidden (c : Dev nD) : S100000x64.Idx → Elt F .f32 := Run.B7 m c (Proc.devRef .tc main_v65)
abbrev sums (c : Dev nD) : S1x64.Idx → Elt F .f32 := Run.B8 m c (Proc.devRef .tc main_v66_0)
abbrev squares (c : Dev nD) : S1x64.Idx → Elt F .f32 := Run.B8 m c (Proc.devRef .tc main_v66_1)

/-- Region 3's first array is the second layer's output: the stretch does not write it and region 2 only reads it. -/
theorem entry_hidden (c : Dev nD) :
    (Run.E9 m c (Pipeline.arrRef spec3 0) : S100000x64.Idx → Elt F .f32) = hidden m c :=
  (stretch_hidden (Run.B8 m c)).trans ((Run.B8_arr m c 0).trans
    (((Stats.dat (Run.E7 m) c).arrAt_in 0 rfl _).trans (Stats.dat_A (Run.E7 m) c 0)))

theorem entry_mean (c : Dev nD) :
    (Run.E9 m c (Pipeline.arrRef spec3 1) : S1x64.Idx → Elt F .f32) = Host.divf (sums m c) countRow :=
  stretch_mean (Run.B8 m c)

theorem entry_variance (c : Dev nD) :
    (Run.E9 m c (Pipeline.arrRef spec3 2) : S1x64.Idx → Elt F .f32)
      = subf (Host.divf (squares m c) countRow) (mulf (Host.divf (sums m c) countRow) (Host.divf (sums m c) countRow)) :=
  stretch_variance (Run.B8 m c)

theorem entry_scale (c : Dev nD) :
    (Run.E9 m c (Pipeline.arrRef spec3 3) : S1x64.Idx → Elt F .f32)
      = shapeCast S1x64 (m ((c : Thread nD τ).loc main_arg5) : S64.Idx → Elt F .f32) shapeCasts_S64_S1x64 :=
  (stretch_scale (Run.B8 m c)).trans (congrArg (fun x : S64.Idx → Elt F .f32 => shapeCast S1x64 x shapeCasts_S64_S1x64) (B8_arg5 m c))

theorem entry_shift (c : Dev nD) :
    (Run.E9 m c (Pipeline.arrRef spec3 4) : S1x64.Idx → Elt F .f32)
      = shapeCast S1x64 (m ((c : Thread nD τ).loc main_arg6) : S64.Idx → Elt F .f32) shapeCasts_S64_S1x64 :=
  (stretch_shift (Run.B8 m c)).trans (congrArg (fun x : S64.Idx → Elt F .f32 => shapeCast S1x64 x shapeCasts_S64_S1x64) (B8_arg6 m c))

/-- The program's result is region 3's array function of those five. -/
theorem result_eq (c : Dev nD) :
    (Run.result m c : S100000x64.Idx → Elt F .f32) = NormaliseValue.result (Run.E9 m) c :=
  (Run.B10_arr m c 5).trans (NormaliseValue.final (Run.E9 m) c)

end Arrays

/-! ## An entry of the result, at the ideal instance -/

section AtIdeal

variable (m : (ℓ : Loc nD τ sig) → Buf (Elt Ideal) ℓ)

/-- Every entry of the row-count row is the word the program carries. -/
theorem countRow_apply (i : S1x64.Idx) : countRow (F := Ideal) i = Ideal.ofBits .f32 0x47C35000#32 := by
  show broadcastInDim S1x64 ![] bcast_S_S1x64 (constant (F := Ideal) S_ .f32 0x47C35000#32) i = _
  rw [broadcastInDim_scalar_apply, constant_apply]

/-- A row over the row count, at an entry. -/
theorem divCount_apply (S : S1x64.Idx → Elt Ideal .f32) (i : S1x64.Idx) :
    Host.divf S (countRow (F := Ideal)) i = Ideal.div (S i) (Ideal.ofBits .f32 0x47C35000#32) := by
  show Ideal.div (S i) (countRow (F := Ideal) i) = _
  rw [countRow_apply]

/-- Column `j`'s mean: its sum over the row count. -/
def meanAt (c : Dev nD) (j : Fin 64) : EReal :=
  Ideal.div (sums m c (ix2 (0 : Fin 1) j)) (Ideal.ofBits .f32 0x47C35000#32)

/-- Column `j`'s variance: its sum of squares over the row count, less the mean squared. -/
def varianceAt (c : Dev nD) (j : Fin 64) : EReal :=
  Ideal.div (squares m c (ix2 (0 : Fin 1) j)) (Ideal.ofBits .f32 0x47C35000#32) - meanAt m c j * meanAt m c j

/-- Entry (r, j) of the program's result: H(r, j) less column j's mean, times the reciprocal square root of column j's
    variance plus the constant, times the scale parameter at j, plus the shift parameter at j. -/
theorem result_apply (c : Dev nD) (r : Fin 100000) (j : Fin 64) :
    (Run.result m c : S100000x64.Idx → Elt Ideal .f32) (ix2 r j)
      = ((hidden m c (ix2 r j) - meanAt m c j) * Ideal.rsqrt (varianceAt m c j + Ideal.ofBits .f32 0x3727C5AC#32))
          * (m ((c : Thread nD τ).loc main_arg5) : S64.Idx → Elt Ideal .f32) (ix1 j)
        + (m ((c : Thread nD τ).loc main_arg6) : S64.Idx → Elt Ideal .f32) (ix1 j) := by
  unfold varianceAt meanAt
  rw [result_eq]
  refine (NormaliseValue.whole_apply _ _ _ _ _ r j).trans ?_
  rw [entry_hidden, entry_mean, entry_variance, entry_scale, entry_shift]
  rw [subf_apply, mulf_apply, divCount_apply, divCount_apply, shapeCast_a_1a_apply, shapeCast_a_1a_apply]

end AtIdeal

end Cert.KernelIdeal.ResultValue

end
-- ==== Proof.HostValues.lean ====
/-
  What the kernel program's host stretches compute, as the reference's own stage functions.

  Around its four kernels the program runs the same host operations, in the same order, as the reference: the edge
  lists with self-loops, the degrees and their inverse square roots, the per-edge weights, and after each of the two
  matrix products the aggregation (gather the product's rows at the sources, weight them, add them up at the targets,
  add the bias). Read at any contents `W` of the buffers a stretch starts from, each result buffer is therefore the
  reference's stage function of the buffers the stretch reads — the product's buffer standing where the reference has
  its own matrix product.
-/
import proofs.«107830_j10685878632725_1_alg».proof.Proof.Gen.KernelIdeal.Launch
import proofs.«107830_j10685878632725_1_alg».proof.Proof.Stages
import Idealize.ShloMosaic.Lib.StableHlo.Run

set_option maxRecDepth 16384

noncomputable section

namespace Cert.KernelIdeal.HostValues

open Cert.KernelIdeal Cert.KernelIdeal.Gen
open Idealize.ShloMosaic Idealize.ShloMosaic.TcCoe Idealize.SL.Sem
open Idealize.ShloMosaic.StableHlo

variable {F : FTy → Type} [FloatOps F] (W : Valuation τ sig (Elt F))

/-- The sources' list with the self-loops appended. -/
theorem row_eq : StableHlo.after hostOps0 W (Proc.devRef .tc main_v5) = Cert.ReferenceIdeal.Stages.edgeRow (W (Proc.devRef .tc main_arg7)) := by
  after_results; rfl

/-- The targets' list with the self-loops appended. -/
theorem col_eq : StableHlo.after hostOps0 W (Proc.devRef .tc main_v6) = Cert.ReferenceIdeal.Stages.edgeCol (W (Proc.devRef .tc main_arg7)) := by
  after_results; rfl

set_option maxHeartbeats 4000000 in
/-- The per-edge weight d(source)·d(target), d the inverse square root of the degree. -/
theorem weight_eq : StableHlo.after hostOps0_2 (StableHlo.after hostOps0_1 (StableHlo.after hostOps0 W)) (Proc.devRef .tc main_v31)
    = Cert.ReferenceIdeal.Stages.weights (F := F) (W (Proc.devRef .tc main_arg7)) := by
  after_results_simp; rfl

set_option maxHeartbeats 2000000 in
/-- After the first product: the first layer's output is the aggregation of the product's buffer. -/
theorem layer1_tail : StableHlo.after hostOps1 W (Proc.devRef .tc main_v48)
    = Cert.ReferenceIdeal.Stages.aggregate128 (W (Proc.devRef .tc main_v5)) (W (Proc.devRef .tc main_v6)) (W (Proc.devRef .tc main_v31))
        (W (Proc.devRef .tc main_v32)) (W (Proc.devRef .tc main_arg2)) := by
  after_results; rfl

set_option maxHeartbeats 2000000 in
/-- After the second product: the second layer's output is the aggregation of the product's buffer. -/
theorem layer2_tail : StableHlo.after hostOps2 W (Proc.devRef .tc main_v65)
    = Cert.ReferenceIdeal.Stages.aggregate64 (W (Proc.devRef .tc main_v5)) (W (Proc.devRef .tc main_v6)) (W (Proc.devRef .tc main_v31))
        (W (Proc.devRef .tc main_v49)) (W (Proc.devRef .tc main_arg4)) := by
  after_results; rfl

end Cert.KernelIdeal.HostValues

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.Linear0Value.lean ====
/-
  What the first linear map leaves in its result array, as one function of the two arrays it reads.

  The region writes back, at each of its ten points, the product of a block of 10000 rows of the embedding table with the
  whole weight matrix, as the same rows of the result. The ten blocks tile the 100000 rows, so after the last point
  row r of the result is row r % 10000 of the product of the block of rows that contains r (block r / 10000) with
  the weights: `whole`. This is stated for any float instance; on the extended reals that entry is the textbook
  sum over the contracted axis, and the blocking disappears (last section).
-/
import proofs.«107830_j10685878632725_1_alg».proof.Proof.Linear0
import proofs.«107830_j10685878632725_1_alg».proof.Proof.LibPlainProduct
import Idealize.ShloMosaic.Lib.Pipeline.Value
import Idealize.ShloMosaic.Lib.ValueIdx

set_option maxRecDepth 16384

noncomputable section

namespace Cert.KernelIdeal.Linear0Value

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable {F : FTy → Type} [FloatOps F]

theorem zeros : (![0, 0] : Fin 2 → Nat) = fun _ => 0 := funext fun a => by fin_cases a <;> rfl

/-- The body loads whole buffers and stores the whole buffer once: what it leaves is its payload, the product on the
    matrix unit of the two blocks into a zero accumulator. -/
theorem product_eq (x : Vec F S10000x64 .f32) (w : Vec F S64x128 .f32) : Linear0.product x w = k0_pay1 x w := by
  unfold Linear0.product
  rw [View.canon_unit_zero zeros, View.ld_unit_zero zeros, View.ld_unit_zero zeros]

/-- The block of 10000 rows that contains row `r`, and `r`'s place in it. -/
def blockOfRow (r : Fin 100000) : Fin 10 := ⟨r.val / 10000, by have := r.isLt; omega⟩
def rowInBlock (r : Fin 100000) : Fin 10000 := ⟨r.val % 10000, Nat.mod_lt _ (by decide)⟩

/-- Rows 10000·b … 10000·b + 9999 of a 100000-row array, as a block. -/
def rowBlock (X : S100000x64.Idx → Elt F .f32) (b : Fin 10) : Vec F S10000x64 .f32 :=
  fun x => X (ix2 (⟨10000 * b.val + (x 0).val, by have := idx2_lt0 x; have := b.isLt; omega⟩ : Fin 100000) (x 1 : Fin 64))

/-- The result array as one function of the two input arrays: entry (r, j) is entry (r % 10000, j) of the product of
    the block of rows containing r with the weights. -/
def whole (X : S100000x64.Idx → Elt F .f32) (W : S64x128.Idx → Elt F .f32) : S100000x128.Idx → Elt F .f32 :=
  fun i => Linear0.product (rowBlock X (blockOfRow (i 0))) W (ix2 (rowInBlock (i 0)) (i 1 : Fin 128))

/-- An entry of `whole` whose row is row `y 0` of block `b`. -/
theorem whole_at (X : S100000x64.Idx → Elt F .f32) (W : S64x128.Idx → Elt F .f32) (i : S100000x128.Idx) (b : Fin 10) (y : S10000x128.Idx)
    (h0 : (i 0).val = 10000 * b.val + (y 0).val) (h1 : (i 1).val = (y 1).val) :
    whole X W i = Linear0.product (rowBlock X b) W y := by
  have hy0 := idx2_lt0 y
  have hb : blockOfRow (i 0) = b := Fin.ext (by show (i 0).val / 10000 = b.val; omega)
  have hy : ix2 (rowInBlock (i 0)) (i 1 : Fin 128) = y := by
    funext a
    match a with
    | ⟨0, _⟩ => exact Fin.ext (by show (i 0).val % 10000 = (y 0).val; omega)
    | ⟨1, _⟩ => exact Fin.ext h1
  exact (congrArg (fun b' => Linear0.product (rowBlock X b') W (ix2 (rowInBlock (i 0)) (i 1 : Fin 128))) hb).trans
    (congrArg (Linear0.product (rowBlock X b) W) hy)

/-- The program's index maps, decided once over the grid: at point `t` the rows' window and the result's window are at
    block `t` of the rows and block 0 of the columns; the weights' window is at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

section AtEntry

variable (V : (c : Dev nD) → (b : Ref sig .tc) → Buf (Elt F) ((c : Thread nD τ).loc b))

/-- The rows' window at point `t` holds rows 10000·t … of its array. -/
theorem rows_eq (c : Dev nD) (t : Fin cfg0.N) (ht : t.val < 10) :
    (Linear0.blockAt V c 0 t : Vec F S10000x64 .f32) = rowBlock (V c (Pipeline.arrRef spec0 0)) ⟨t.val, ht⟩ := by
  obtain ⟨e00, e01, -⟩ := index_facts t
  funext x
  unfold Linear0.blockAt rowBlock
  rw [View.read_apply]
  show (V c (Pipeline.arrRef spec0 0) : S100000x64.Idx → Elt F .f32) _ = (V c (Pipeline.arrRef spec0 0) : S100000x64.Idx → Elt F .f32) _
  congr 1
  funext a
  apply Fin.ext
  match a with
  | ⟨0, _⟩ => show win0_0.index t 0 * 10000 + 1 * (x 0).val = 10000 * t.val + (x 0).val; rw [e00]; omega
  | ⟨1, _⟩ => show win0_0.index t 1 * 64 + 1 * (x 1).val = (x 1).val; rw [e01]; omega

/-- The weights' window holds the whole matrix at every point. -/
theorem weights_eq (c : Dev nD) (t : Fin cfg0.N) :
    (Linear0.blockAt V c 1 t : Vec F S64x128 .f32) = (V c (Pipeline.arrRef spec0 1) : S64x128.Idx → Elt F .f32) := by
  obtain ⟨-, -, e10, e11, -⟩ := index_facts t
  funext x
  unfold Linear0.blockAt
  rw [View.read_apply]
  show (V c (Pipeline.arrRef spec0 1) : S64x128.Idx → Elt F .f32) _ = (V c (Pipeline.arrRef spec0 1) : S64x128.Idx → Elt F .f32) _
  congr 1
  funext a
  apply Fin.ext
  match a with
  | ⟨0, _⟩ => show win0_1.index t 0 * 64 + 1 * (x 0).val = (x 0).val; rw [e10]; omega
  | ⟨1, _⟩ => show win0_1.index t 1 * 128 + 1 * (x 1).val = (x 1).val; rw [e11]; omega

/-- What point `t` writes back is block `t` of `whole` of the two arrays as the region finds them. -/
theorem flushed_eq (c : Dev nD) (t : Fin cfg0.N) :
    (Linear0.dat V c).flushed 2 t
      = ((cfg0.win 2).blk t).view.read (Elt F) (whole (V c (Pipeline.arrRef spec0 0)) (V c (Pipeline.arrRef spec0 1))) := by
  obtain ⟨-, -, -, -, e20, e21, ht⟩ := index_facts t
  show (cfg0.win 2).cut (grid0.coords t) ((Linear0.dat V c).after 2 t) = _
  rw [Linear0.after_product, rows_eq V c t ht, weights_eq V c t]
  funext j
  generalize hG : whole (V c (Pipeline.arrRef spec0 0)) (V c (Pipeline.arrRef spec0 1)) = G
  show Linear0.product _ _ j = G (((cfg0.win 2).blk t).view.emb j)
  subst hG
  refine (whole_at _ _ _ ⟨t.val, ht⟩ j ?_ ?_).symm
  · show win0_2.index t 0 * 10000 + 1 * (j 0).val = 10000 * t.val + (j 0).val; rw [e20]; omega
  · show win0_2.index t 1 * 128 + 1 * (j 1).val = (j 1).val; rw [e21]; omega

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every entry of the result array is in the block some point writes back: row r is in block r / 10000. -/
theorem cover (i : S100000x128.Idx) : ∃ t : Fin cfg0.N, (cfg0.win 2).flush t = true ∧ i ∈ ((cfg0.win 2).blk t).view.set := by
  have hi0 := idx2_lt0 i
  have hi1 := idx2_lt1 i
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e20, e21, -⟩ := index_facts t
  refine ⟨t, flush0_2 t, ?_⟩
  rw [mem_blk]
  intro a
  match a with
  | ⟨0, _⟩ => show win0_2.index t 0 * 10000 ≤ (i 0).val ∧ (i 0).val < win0_2.index t 0 * 10000 + 10000; rw [e20, ht]; omega
  | ⟨1, _⟩ => show win0_2.index t 1 * 128 ≤ (i 1).val ∧ (i 1).val < win0_2.index t 1 * 128 + 128; rw [e21]; omega

/-- The result array after the region: `whole` of the two input arrays as the region finds them. -/
theorem result_eq (c : Dev nD) :
    (Linear0.dat V c).arrAt 2 cfg0.N = whole (V c (Pipeline.arrRef spec0 0)) (V c (Pipeline.arrRef spec0 1)) :=
  (Linear0.dat V c).arrAt_eq_of_cover 2 _ (fun t _ => flushed_eq V c t) cover

end AtEntry

/-! ## On the extended reals -/

section AtIdeal

/-- The dimension numbers of the body's product are those of a plain rows × contraction by contraction × columns product. -/
theorem plain : Cert.Lib.PlainProduct.IsPlain dot_S10000x64_S64x128_S10000x128_1_0_0_1_n_n := ⟨rfl, rfl, rfl, rfl, rfl, rfl⟩

/-- An entry of the body's product: the sum over the contracted axis. -/
theorem product_apply (x : Vec Ideal S10000x64 .f32) (w : Vec Ideal S64x128 .f32) (p : Fin 10000) (q : Fin 128) :
    Linear0.product x w (ix2 p q) = ∑ k : Fin 64, x (ix2 p k) * w (ix2 k q) := by
  rw [product_eq]
  unfold k0_pay1
  exact Cert.Lib.PlainProduct.matmul_zero_apply plain rfl rfl none x w p q

/-- An entry of the result array: the sum over the contracted axis of the row of the first array against the column of
    the weights. The blocking is gone. -/
theorem whole_apply (X : S100000x64.Idx → Elt Ideal .f32) (W : S64x128.Idx → Elt Ideal .f32) (r : Fin 100000) (j : Fin 128) :
    whole X W (ix2 r j) = ∑ k : Fin 64, X (ix2 r k) * W (ix2 k j) := by
  unfold whole
  rw [show (ix2 (rowInBlock ((ix2 r j : S100000x128.Idx) 0)) ((ix2 r j : S100000x128.Idx) 1 : Fin 128) : S10000x128.Idx) = ix2 (rowInBlock r) j from rfl, product_apply]
  refine Finset.sum_congr rfl fun k _ => ?_
  unfold rowBlock
  congr 2
  funext a
  match a with
  | ⟨0, _⟩ => exact Fin.ext (by show 10000 * (r.val / 10000) + r.val % 10000 = r.val; omega)
  | ⟨1, _⟩ => rfl

end AtIdeal

end Cert.KernelIdeal.Linear0Value

end
-- ==== Proof.Linear1Value.lean ====
/-
  What the second linear map leaves in its result array, as one function of the two arrays it reads.

  The region writes back, at each of its ten points, the product of a block of 10000 rows of the hidden layer with the
  whole weight matrix, as the same rows of the result. The ten blocks tile the 100000 rows, so after the last point
  row r of the result is row r % 10000 of the product of the block of rows that contains r (block r / 10000) with
  the weights: `whole`. This is stated for any float instance; on the extended reals that entry is the textbook
  sum over the contracted axis, and the blocking disappears (last section).
-/
import proofs.«107830_j10685878632725_1_alg».proof.Proof.Linear1
import proofs.«107830_j10685878632725_1_alg».proof.Proof.LibPlainProduct
import Idealize.ShloMosaic.Lib.Pipeline.Value
import Idealize.ShloMosaic.Lib.ValueIdx

set_option maxRecDepth 16384

noncomputable section

namespace Cert.KernelIdeal.Linear1Value

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable {F : FTy → Type} [FloatOps F]

theorem zeros : (![0, 0] : Fin 2 → Nat) = fun _ => 0 := funext fun a => by fin_cases a <;> rfl

/-- The body loads whole buffers and stores the whole buffer once: what it leaves is its payload, the product on the
    matrix unit of the two blocks into a zero accumulator. -/
theorem product_eq (x : Vec F S10000x128 .f32) (w : Vec F S128x64 .f32) : Linear1.product x w = k1_pay1 x w := by
  unfold Linear1.product
  rw [View.canon_unit_zero zeros, View.ld_unit_zero zeros, View.ld_unit_zero zeros]

/-- The block of 10000 rows that contains row `r`, and `r`'s place in it. -/
def blockOfRow (r : Fin 100000) : Fin 10 := ⟨r.val / 10000, by have := r.isLt; omega⟩
def rowInBlock (r : Fin 100000) : Fin 10000 := ⟨r.val % 10000, Nat.mod_lt _ (by decide)⟩

/-- Rows 10000·b … 10000·b + 9999 of a 100000-row array, as a block. -/
def rowBlock (X : S100000x128.Idx → Elt F .f32) (b : Fin 10) : Vec F S10000x128 .f32 :=
  fun x => X (ix2 (⟨10000 * b.val + (x 0).val, by have := idx2_lt0 x; have := b.isLt; omega⟩ : Fin 100000) (x 1 : Fin 128))

/-- The result array as one function of the two input arrays: entry (r, j) is entry (r % 10000, j) of the product of
    the block of rows containing r with the weights. -/
def whole (X : S100000x128.Idx → Elt F .f32) (W : S128x64.Idx → Elt F .f32) : S100000x64.Idx → Elt F .f32 :=
  fun i => Linear1.product (rowBlock X (blockOfRow (i 0))) W (ix2 (rowInBlock (i 0)) (i 1 : Fin 64))

/-- An entry of `whole` whose row is row `y 0` of block `b`. -/
theorem whole_at (X : S100000x128.Idx → Elt F .f32) (W : S128x64.Idx → Elt F .f32) (i : S100000x64.Idx) (b : Fin 10) (y : S10000x64.Idx)
    (h0 : (i 0).val = 10000 * b.val + (y 0).val) (h1 : (i 1).val = (y 1).val) :
    whole X W i = Linear1.product (rowBlock X b) W y := by
  have hy0 := idx2_lt0 y
  have hb : blockOfRow (i 0) = b := Fin.ext (by show (i 0).val / 10000 = b.val; omega)
  have hy : ix2 (rowInBlock (i 0)) (i 1 : Fin 64) = y := by
    funext a
    match a with
    | ⟨0, _⟩ => exact Fin.ext (by show (i 0).val % 10000 = (y 0).val; omega)
    | ⟨1, _⟩ => exact Fin.ext h1
  exact (congrArg (fun b' => Linear1.product (rowBlock X b') W (ix2 (rowInBlock (i 0)) (i 1 : Fin 64))) hb).trans
    (congrArg (Linear1.product (rowBlock X b) W) hy)

/-- The program's index maps, decided once over the grid: at point `t` the rows' window and the result's window are at
    block `t` of the rows and block 0 of the columns; the weights' window is at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

section AtEntry

variable (V : (c : Dev nD) → (b : Ref sig .tc) → Buf (Elt F) ((c : Thread nD τ).loc b))

/-- The rows' window at point `t` holds rows 10000·t … of its array. -/
theorem rows_eq (c : Dev nD) (t : Fin cfg1.N) (ht : t.val < 10) :
    (Linear1.blockAt V c 0 t : Vec F S10000x128 .f32) = rowBlock (V c (Pipeline.arrRef spec1 0)) ⟨t.val, ht⟩ := by
  obtain ⟨e00, e01, -⟩ := index_facts t
  funext x
  unfold Linear1.blockAt rowBlock
  rw [View.read_apply]
  show (V c (Pipeline.arrRef spec1 0) : S100000x128.Idx → Elt F .f32) _ = (V c (Pipeline.arrRef spec1 0) : S100000x128.Idx → Elt F .f32) _
  congr 1
  funext a
  apply Fin.ext
  match a with
  | ⟨0, _⟩ => show win1_0.index t 0 * 10000 + 1 * (x 0).val = 10000 * t.val + (x 0).val; rw [e00]; omega
  | ⟨1, _⟩ => show win1_0.index t 1 * 128 + 1 * (x 1).val = (x 1).val; rw [e01]; omega

/-- The weights' window holds the whole matrix at every point. -/
theorem weights_eq (c : Dev nD) (t : Fin cfg1.N) :
    (Linear1.blockAt V c 1 t : Vec F S128x64 .f32) = (V c (Pipeline.arrRef spec1 1) : S128x64.Idx → Elt F .f32) := by
  obtain ⟨-, -, e10, e11, -⟩ := index_facts t
  funext x
  unfold Linear1.blockAt
  rw [View.read_apply]
  show (V c (Pipeline.arrRef spec1 1) : S128x64.Idx → Elt F .f32) _ = (V c (Pipeline.arrRef spec1 1) : S128x64.Idx → Elt F .f32) _
  congr 1
  funext a
  apply Fin.ext
  match a with
  | ⟨0, _⟩ => show win1_1.index t 0 * 128 + 1 * (x 0).val = (x 0).val; rw [e10]; omega
  | ⟨1, _⟩ => show win1_1.index t 1 * 64 + 1 * (x 1).val = (x 1).val; rw [e11]; omega

/-- What point `t` writes back is block `t` of `whole` of the two arrays as the region finds them. -/
theorem flushed_eq (c : Dev nD) (t : Fin cfg1.N) :
    (Linear1.dat V c).flushed 2 t
      = ((cfg1.win 2).blk t).view.read (Elt F) (whole (V c (Pipeline.arrRef spec1 0)) (V c (Pipeline.arrRef spec1 1))) := by
  obtain ⟨-, -, -, -, e20, e21, ht⟩ := index_facts t
  show (cfg1.win 2).cut (grid1.coords t) ((Linear1.dat V c).after 2 t) = _
  rw [Linear1.after_product, rows_eq V c t ht, weights_eq V c t]
  funext j
  generalize hG : whole (V c (Pipeline.arrRef spec1 0)) (V c (Pipeline.arrRef spec1 1)) = G
  show Linear1.product _ _ j = G (((cfg1.win 2).blk t).view.emb j)
  subst hG
  refine (whole_at _ _ _ ⟨t.val, ht⟩ j ?_ ?_).symm
  · show win1_2.index t 0 * 10000 + 1 * (j 0).val = 10000 * t.val + (j 0).val; rw [e20]; omega
  · show win1_2.index t 1 * 64 + 1 * (j 1).val = (j 1).val; rw [e21]; omega

/-- An index of the result array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- Every entry of the result array is in the block some point writes back: row r is in block r / 10000. -/
theorem cover (i : S100000x64.Idx) : ∃ t : Fin cfg1.N, (cfg1.win 2).flush t = true ∧ i ∈ ((cfg1.win 2).blk t).view.set := by
  have hi0 := idx2_lt0 i
  have hi1 := idx2_lt1 i
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e20, e21, -⟩ := index_facts t
  refine ⟨t, flush1_2 t, ?_⟩
  rw [mem_blk]
  intro a
  match a with
  | ⟨0, _⟩ => show win1_2.index t 0 * 10000 ≤ (i 0).val ∧ (i 0).val < win1_2.index t 0 * 10000 + 10000; rw [e20, ht]; omega
  | ⟨1, _⟩ => show win1_2.index t 1 * 64 ≤ (i 1).val ∧ (i 1).val < win1_2.index t 1 * 64 + 64; rw [e21]; omega

/-- The result array after the region: `whole` of the two input arrays as the region finds them. -/
theorem result_eq (c : Dev nD) :
    (Linear1.dat V c).arrAt 2 cfg1.N = whole (V c (Pipeline.arrRef spec1 0)) (V c (Pipeline.arrRef spec1 1)) :=
  (Linear1.dat V c).arrAt_eq_of_cover 2 _ (fun t _ => flushed_eq V c t) cover

end AtEntry

/-! ## On the extended reals -/

section AtIdeal

/-- The dimension numbers of the body's product are those of a plain rows × contraction by contraction × columns product. -/
theorem plain : Cert.Lib.PlainProduct.IsPlain dot_S10000x128_S128x64_S10000x64_1_0_0_1_n_n := ⟨rfl, rfl, rfl, rfl, rfl, rfl⟩

/-- An entry of the body's product: the sum over the contracted axis. -/
theorem product_apply (x : Vec Ideal S10000x128 .f32) (w : Vec Ideal S128x64 .f32) (p : Fin 10000) (q : Fin 64) :
    Linear1.product x w (ix2 p q) = ∑ k : Fin 128, x (ix2 p k) * w (ix2 k q) := by
  rw [product_eq]
  unfold k1_pay1
  rw [shapeCast_self]
  exact Cert.Lib.PlainProduct.matmul_zero_apply plain rfl rfl none x w p q

/-- An entry of the result array: the sum over the contracted axis of the row of the first array against the column of
    the weights. The blocking is gone. -/
theorem whole_apply (X : S100000x128.Idx → Elt Ideal .f32) (W : S128x64.Idx → Elt Ideal .f32) (r : Fin 100000) (j : Fin 64) :
    whole X W (ix2 r j) = ∑ k : Fin 128, X (ix2 r k) * W (ix2 k j) := by
  unfold whole
  rw [show (ix2 (rowInBlock ((ix2 r j : S100000x64.Idx) 0)) ((ix2 r j : S100000x64.Idx) 1 : Fin 64) : S10000x64.Idx) = ix2 (rowInBlock r) j from rfl, product_apply]
  refine Finset.sum_congr rfl fun k _ => ?_
  unfold rowBlock
  congr 2
  funext a
  match a with
  | ⟨0, _⟩ => exact Fin.ext (by show 10000 * (r.val / 10000) + r.val % 10000 = r.val; omega)
  | ⟨1, _⟩ => rfl

end AtIdeal

end Cert.KernelIdeal.Linear1Value

end
-- ==== Proof.ProductIsDot.lean ====
/-
  Each linear map's result array is the reference's matrix product.

  On the extended reals the kernel's blocked product — row r of the result taken from the product of the block of
  10000 rows containing r with the weights — and the host's general contraction of the whole 100000-row array with the
  weights are the same array: at entry (r, j) both are the sum over the contracted axis of X(r, k) · W(k, j). No
  accumulator, rounding or order of summation is left on either side, so the blocking cannot be seen.
-/
import proofs.«107830_j10685878632725_1_alg».proof.Proof.Linear0Value
import proofs.«107830_j10685878632725_1_alg».proof.Proof.Linear1Value
import proofs.«107830_j10685878632725_1_alg».proof.Proof.LibPlainProduct
import proofs.«107830_j10685878632725_1_alg».proof.Proof.Gen.ReferenceIdeal

noncomputable section

namespace Cert.KernelIdeal.ProductIsDot

open Idealize.ShloMosaic Idealize.ShloMosaic.ValueIdx
open scoped BigOperators

/-- The reference's two contractions have the dimension numbers of a plain rows × contraction by contraction × columns
    product. -/
theorem plain_first : Cert.Lib.PlainProduct.IsPlain Cert.ReferenceIdeal.dot_S100000x64_S64x128_S100000x128_1_0_0_1_n_n :=
  ⟨rfl, rfl, rfl, rfl, rfl, rfl⟩
theorem plain_second : Cert.Lib.PlainProduct.IsPlain Cert.ReferenceIdeal.dot_S100000x128_S128x64_S100000x64_1_0_0_1_n_n :=
  ⟨rfl, rfl, rfl, rfl, rfl, rfl⟩

/-- The first linear map: the result array of the blocked product is the contraction of the whole table with the
    weights. -/
theorem first (X : FVec Ideal Cert.KernelIdeal.S100000x64 .f32) (W : FVec Ideal Cert.KernelIdeal.S64x128 .f32) :
    Linear0Value.whole (F := Ideal) X W
      = Host.dotGeneral (F := Ideal) Cert.ReferenceIdeal.dot_S100000x64_S64x128_S100000x128_1_0_0_1_n_n none X W := by
  funext i
  obtain ⟨r, j, rfl⟩ : ∃ (r : Fin 100000) (j : Fin 128), i = ix2 r j := ⟨i 0, i 1, eq_ix2 i⟩
  refine (Linear0Value.whole_apply X W r j).trans ?_
  exact (Cert.Lib.PlainProduct.dotGeneral_apply plain_first rfl rfl none .single X W r j).symm

/-- The second linear map, likewise, over the 128-wide contraction. -/
theorem second (X : FVec Ideal Cert.KernelIdeal.S100000x128 .f32) (W : FVec Ideal Cert.KernelIdeal.S128x64 .f32) :
    Linear1Value.whole (F := Ideal) X W
      = Host.dotGeneral (F := Ideal) Cert.ReferenceIdeal.dot_S100000x128_S128x64_S100000x64_1_0_0_1_n_n none X W := by
  funext i
  obtain ⟨r, j, rfl⟩ : ∃ (r : Fin 100000) (j : Fin 64), i = ix2 r j := ⟨i 0, i 1, eq_ix2 i⟩
  refine (Linear1Value.whole_apply X W r j).trans ?_
  exact (Cert.Lib.PlainProduct.dotGeneral_apply plain_second rfl rfl none .single X W r j).symm

end Cert.KernelIdeal.ProductIsDot

end
-- ==== Proof.HiddenValue.lean ====
/-
  The kernel program's second-layer output is the reference's.

  Between the launch and the statistics kernel the program computes, on each core, the edge lists with self-loops and
  the per-edge weights (host operations), the first matrix product (region 0, by row blocks), its aggregation (host
  operations), the second matrix product (region 1, by row blocks) and its aggregation (host operations). The host
  operations are the reference's own; on the extended reals each blocked product is the reference's contraction of
  the whole arrays. So the buffer the statistics kernel reads holds exactly the reference's two-layer output of the
  launch arguments. The buffers that carry the edge lists, the weights and the arguments are written by nothing on
  the way, and are read where they are needed as they were made.
-/
import proofs.«107830_j10685878632725_1_alg».proof.Proof.Run
import proofs.«107830_j10685878632725_1_alg».proof.Proof.HostValues
import proofs.«107830_j10685878632725_1_alg».proof.Proof.Linear0Value
import proofs.«107830_j10685878632725_1_alg».proof.Proof.Linear1Value
import proofs.«107830_j10685878632725_1_alg».proof.Proof.ProductIsDot
import proofs.«107830_j10685878632725_1_alg».proof.Proof.Stages

set_option maxRecDepth 16384

noncomputable section

namespace Cert.KernelIdeal.HiddenValue

open Cert.KernelIdeal Cert.KernelIdeal.Gen
open Idealize.ShloMosaic Idealize.ShloMosaic.TcCoe Idealize.SL.Sem
open Cert.ReferenceIdeal (Stages.edgeRow Stages.edgeCol Stages.weights Stages.aggregate128 Stages.aggregate64 Stages.layer1 Stages.layer2 Stages.hidden)

variable (m : (ℓ : Loc nD τ sig) → Buf (Elt Ideal) ℓ) (c : Dev nD)

/-! ## What nothing writes on the way -/

/-- A buffer none of the first three host stretches writes holds, when region 0 is entered, what it was launched with. -/
theorem B3_launch (r : Ref sig .tc) (h0 : r ∉ hostOps0_W) (h1 : r ∉ hostOps0_1_W) (h2 : r ∉ hostOps0_2_W) :
    Run.B3 m c (Proc.devRef .tc r) = m ((c : Thread nD τ).loc r) :=
  (Gen.V3_of m c r h2).trans ((Gen.V2_of m c r h1).trans (Gen.V1_of m c r h0))

/-- A buffer that is no array of region 0 leaves it as it entered; -/
theorem B4_kept (r : Ref sig .tc) (h : ∀ w, Pipeline.arrRef spec0 w ≠ r) :
    Run.B4 m c (Proc.devRef .tc r) = Run.B3 m c (Proc.devRef .tc r) := Run.B4_of_ne m c r h

/-- if the first layer's host stretch does not write it either, it is still so after that stretch; -/
theorem B5_kept (r : Ref sig .tc) (h : ∀ w, Pipeline.arrRef spec0 w ≠ r) (h' : r ∉ hostOps1_W) :
    Run.B5 m c (Proc.devRef .tc r) = Run.B3 m c (Proc.devRef .tc r) :=
  (StableHlo.after_of_writes_sub hostOps1 _ hostOps1_writes h').trans (B4_kept m c r h)

/-- and if it is no array of region 1, after region 1. -/
theorem B6_kept (r : Ref sig .tc) (h : ∀ w, Pipeline.arrRef spec0 w ≠ r) (h' : r ∉ hostOps1_W)
    (h'' : ∀ w, Pipeline.arrRef spec1 w ≠ r) :
    Run.B6 m c (Proc.devRef .tc r) = Run.B3 m c (Proc.devRef .tc r) :=
  (Run.B6_of_ne m c r h'').trans (B5_kept m c r h h')

/-! ## The edge lists and the weights, as region 0 finds them -/

theorem B3_row : Run.B3 m c (Proc.devRef .tc main_v5) = Stages.edgeRow (m ((c : Thread nD τ).loc main_arg7)) :=
  (Gen.V3_of m c main_v5 (by decide)).trans ((Gen.V2_of m c main_v5 (by decide)).trans (HostValues.row_eq (Gen.V0 m c)))

theorem B3_col : Run.B3 m c (Proc.devRef .tc main_v6) = Stages.edgeCol (m ((c : Thread nD τ).loc main_arg7)) :=
  (Gen.V3_of m c main_v6 (by decide)).trans ((Gen.V2_of m c main_v6 (by decide)).trans (HostValues.col_eq (Gen.V0 m c)))

theorem B3_weight : Run.B3 m c (Proc.devRef .tc main_v31) = Stages.weights (F := Ideal) (m ((c : Thread nD τ).loc main_arg7)) :=
  HostValues.weight_eq (Gen.V0 m c)

/-! ## The first layer -/

/-- What region 0 leaves in its result array: the reference's contraction of the table with the first weights. -/
theorem product1 : Run.B4 m c (Proc.devRef .tc main_v32)
    = Host.dotGeneral (F := Ideal) (φ₁ := .f32) (φ₂ := .f32) Cert.ReferenceIdeal.dot_S100000x64_S64x128_S100000x128_1_0_0_1_n_n none (m ((c : Thread nD τ).loc main_arg0) : FVec Ideal Cert.ReferenceIdeal.S100000x64 .f32) (m ((c : Thread nD τ).loc main_arg1) : FVec Ideal Cert.ReferenceIdeal.S64x128 .f32) := by
  have h := (Run.B4_arr m c 2).trans (Linear0Value.result_eq (Run.E3 m) c)
  have e0 : Run.E3 m c (Pipeline.arrRef spec0 0) = (m ((c : Thread nD τ).loc main_arg0)) := B3_launch m c main_arg0 (by decide) (by decide) (by decide)
  have e1 : Run.E3 m c (Pipeline.arrRef spec0 1) = (m ((c : Thread nD τ).loc main_arg1)) := B3_launch m c main_arg1 (by decide) (by decide) (by decide)
  rw [e0, e1] at h
  exact h.trans (ProductIsDot.first _ _)

/-- The first layer's output, after its host stretch. -/
theorem layer1_eq : Run.B5 m c (Proc.devRef .tc main_v48)
    = Stages.layer1 (F := Ideal) (Stages.edgeRow (m ((c : Thread nD τ).loc main_arg7) : IVec Cert.ReferenceIdeal.S2x1600000 32)) (Stages.edgeCol (m ((c : Thread nD τ).loc main_arg7) : IVec Cert.ReferenceIdeal.S2x1600000 32)) (Stages.weights (F := Ideal) (m ((c : Thread nD τ).loc main_arg7) : IVec Cert.ReferenceIdeal.S2x1600000 32)) (m ((c : Thread nD τ).loc main_arg0) : FVec Ideal Cert.ReferenceIdeal.S100000x64 .f32) (m ((c : Thread nD τ).loc main_arg1) : FVec Ideal Cert.ReferenceIdeal.S64x128 .f32) (m ((c : Thread nD τ).loc main_arg2) : FVec Ideal Cert.ReferenceIdeal.S128 .f32) := by
  have h := HostValues.layer1_tail (Run.B4 m c)
  rw [B4_kept m c main_v5 (by decide), B3_row, B4_kept m c main_v6 (by decide), B3_col, B4_kept m c main_v31 (by decide), B3_weight,
    product1, B4_kept m c main_arg2 (by decide), B3_launch m c main_arg2 (by decide) (by decide) (by decide)] at h
  unfold Stages.layer1
  exact h

/-! ## The second layer -/

/-- What region 1 leaves in its result array: the reference's contraction of the first layer's output with the second
    weights. -/
theorem product2 : Run.B6 m c (Proc.devRef .tc main_v49)
    = Host.dotGeneral (F := Ideal) (φ₁ := .f32) (φ₂ := .f32) Cert.ReferenceIdeal.dot_S100000x128_S128x64_S100000x64_1_0_0_1_n_n none
        (Stages.layer1 (F := Ideal) (Stages.edgeRow (m ((c : Thread nD τ).loc main_arg7) : IVec Cert.ReferenceIdeal.S2x1600000 32)) (Stages.edgeCol (m ((c : Thread nD τ).loc main_arg7) : IVec Cert.ReferenceIdeal.S2x1600000 32)) (Stages.weights (F := Ideal) (m ((c : Thread nD τ).loc main_arg7) : IVec Cert.ReferenceIdeal.S2x1600000 32)) (m ((c : Thread nD τ).loc main_arg0) : FVec Ideal Cert.ReferenceIdeal.S100000x64 .f32) (m ((c : Thread nD τ).loc main_arg1) : FVec Ideal Cert.ReferenceIdeal.S64x128 .f32) (m ((c : Thread nD τ).loc main_arg2) : FVec Ideal Cert.ReferenceIdeal.S128 .f32)) (m ((c : Thread nD τ).loc main_arg3) : FVec Ideal Cert.ReferenceIdeal.S128x64 .f32) := by
  have h := (Run.B6_arr m c 2).trans (Linear1Value.result_eq (Run.E5 m) c)
  have e0 : Run.E5 m c (Pipeline.arrRef spec1 0) = _ := layer1_eq m c
  have e1 : Run.E5 m c (Pipeline.arrRef spec1 1) = (m ((c : Thread nD τ).loc main_arg3)) :=
    (B5_kept m c main_arg3 (by decide) (by decide)).trans (B3_launch m c main_arg3 (by decide) (by decide) (by decide))
  rw [e0, e1] at h
  exact h.trans (ProductIsDot.second _ _)

/-- THE SECOND LAYER'S OUTPUT, as the statistics kernel finds it: the reference's two layers of the launch arguments. -/
theorem hidden_eq : Run.B7 m c (Proc.devRef .tc main_v65)
    = Stages.hidden (F := Ideal) (m ((c : Thread nD τ).loc main_arg0) : FVec Ideal Cert.ReferenceIdeal.S100000x64 .f32) (m ((c : Thread nD τ).loc main_arg1) : FVec Ideal Cert.ReferenceIdeal.S64x128 .f32) (m ((c : Thread nD τ).loc main_arg2) : FVec Ideal Cert.ReferenceIdeal.S128 .f32) (m ((c : Thread nD τ).loc main_arg3) : FVec Ideal Cert.ReferenceIdeal.S128x64 .f32) (m ((c : Thread nD τ).loc main_arg4) : FVec Ideal Cert.ReferenceIdeal.S64 .f32) (m ((c : Thread nD τ).loc main_arg7) : IVec Cert.ReferenceIdeal.S2x1600000 32) := by
  have h := HostValues.layer2_tail (Run.B6 m c)
  rw [B6_kept m c main_v5 (by decide) (by decide) (by decide), B3_row, B6_kept m c main_v6 (by decide) (by decide) (by decide), B3_col,
    B6_kept m c main_v31 (by decide) (by decide) (by decide), B3_weight, product2,
    B6_kept m c main_arg4 (by decide) (by decide) (by decide), B3_launch m c main_arg4 (by decide) (by decide) (by decide)] at h
  unfold Stages.hidden Stages.layer2
  exact h

end Cert.KernelIdeal.HiddenValue

end
-- ==== Proof.LibRealClosure.lean ====
/-
  Extended reals that are real numbers, and the operations that keep them so.

  At the ideal float values an array entry is an extended real. An identity of real arithmetic (a sum
  rearranged, a variance rewritten) holds of entries that are real numbers and may fail at an infinity, so a
  proof that uses one first shows that every entry it touches is real. `IsReal x` says that `x` is the
  coercion of a real; `AllReal v` says it of every entry of an array. This file shows the two closed under
  the operations a graph convolution is built from: sums, differences, products, maxima, finite sums,
  quotients by a nonzero real, the reciprocal square root of a positive real, selections, the literals `0`,
  `1` and `100000`, integer-to-float conversions; and, for arrays, constants, broadcasts, reshapes, slices,
  gathers (each result entry is an operand entry), accumulating scatters, reductions by addition and matrix
  products (each result entry is a finite sum of operand entries or of their products). It also reads the
  test "the absolute value is below infinity" as `IsReal`.
-/
import Idealize.ShloMosaic.PureOps.Ideal
import Idealize.ShloMosaic.PureOps.Ideal.Laws
import Idealize.ShloMosaic.Lib.ValueIdx

namespace LibRealClosure

open Idealize.ShloMosaic
open scoped BigOperators

/-! ## One extended real -/

/-- `x` is the coercion of a real number. -/
def IsReal (x : EReal) : Prop := ∃ r : ℝ, x = (r : EReal)

/-- A coercion is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither infinity. -/
theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | top => exact absurd rfl ht
    | coe r => exact ⟨r, rfl⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real is real. -/
theorem IsReal.neg {x : EReal} (hx : IsReal x) : IsReal (-x) := by
  obtain ⟨a, rfl⟩ := hx; exact ⟨-a, (EReal.coe_neg a).symm⟩

/-- The greater of two reals is real. -/
theorem IsReal.max {x y : EReal} (hx : IsReal x) (hy : IsReal y) : IsReal (max x y) := by
  rcases max_choice x y with h | h <;> rw [h] <;> assumption

/-- The lesser of two reals is real. -/
theorem IsReal.min {x y : EReal} (hx : IsReal x) (hy : IsReal y) : IsReal (min x y) := by
  rcases min_choice x y with h | h <;> rw [h] <;> assumption

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real is real. -/
theorem IsReal.div_coe {x : EReal} (hx : IsReal x) {y : ℝ} (hy : y ≠ 0) : IsReal (Ideal.div x (y : EReal)) := by
  obtain ⟨a, rfl⟩ := hx
  rw [Ideal.div_coe hy]
  exact (isReal_coe a).mul (isReal_coe _)

/-- The quotient of a real by a nonzero real is real, the divisor given as an extended real. -/
theorem IsReal.div {x y : EReal} (hx : IsReal x) (hy : IsReal y) (h0 : y ≠ 0) : IsReal (Ideal.div x y) := by
  obtain ⟨b, rfl⟩ := hy
  exact hx.div_coe (fun h => h0 (by rw [h]; rfl))

/-- The reciprocal square root of a positive real is real. -/
theorem IsReal.rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact isReal_coe _

/-- The reciprocal square root of the greater of a real and one is real: the argument is at least one. -/
theorem IsReal.rsqrt_max_one {x : EReal} (hx : IsReal x) : IsReal (Ideal.rsqrt (Max.max x 1)) :=
  (IsReal.max hx isReal_one).rsqrt (lt_of_lt_of_le zero_lt_one (le_max_right x 1))

/-- A selection between two reals is real. -/
theorem IsReal.select (c : BitVec 1) {a b : EReal} (ha : IsReal a) (hb : IsReal b) : IsReal (Scalar.select c a b) := by
  unfold Scalar.select; split <;> assumption

/-- A signed integer converted to a float is real. -/
theorem isReal_sitofp {φ : FTy} {w : Nat} (b : BitVec w) : IsReal (FloatOps.sitofp (F := Ideal) φ b) :=
  ⟨(b.toInt : ℝ), rfl⟩

/-- An extended real whose absolute value (the greater of it and its negation) is below `⊤` is real. -/
theorem isReal_of_abs_lt_top {x : EReal} (h : max x (-x) < ⊤) : IsReal x := by
  rw [isReal_iff]
  constructor
  · rintro rfl; simp at h
  · rintro rfl; simp at h

/-- The same test as a program writes it: the comparison "the host's absolute value of `x` is less than the float
    whose pattern is `0x7F800000`" (single precision's `+∞`) answering the one-bit word `1`. -/
theorem isReal_of_abs_lt_inf {x : Ideal .f32}
    (h : FloatOps.cmpf .olt (FloatOps.hostAbsf x) (FloatOps.ofBits .f32 0x7F800000#32) = 1#1) : IsReal x := by
  have hinf : Ideal.ofBits .f32 0x7F800000#32 = ⊤ := by simp [Ideal.ofBits, Ideal.ieee]
  rw [Ideal.cmpf_def, Ideal.ofBits_def, hinf, Ideal.hostAbsf_def, Ideal.absf_def] at h
  apply isReal_of_abs_lt_top
  by_contra hn
  simp [Ideal.cmp, hn] at h

/-! ## Literals -/

/-- The single-precision pattern `0x3F800000` denotes one. -/
theorem ofBits_one : Ideal.ofBits .f32 0x3F800000#32 = 1 := by
  simp [Ideal.ofBits, Ideal.ieee, -EReal.coe_mul]; norm_num

/-- The single-precision pattern `0x3F800000` (one) denotes a real. -/
theorem isReal_ofBits_one : IsReal (Ideal.ofBits .f32 0x3F800000#32) := by rw [ofBits_one]; exact isReal_one

/-- The single-precision pattern of all zeros denotes a real. -/
theorem isReal_ofBits_zero : IsReal (Ideal.ofBits .f32 0x00000000#32) := by
  rw [Ideal.ofBits_zero_f32]; exact isReal_zero

/-- The single-precision pattern `0x47C35000` (100000) denotes a real. -/
theorem isReal_ofBits_100000 : IsReal (Ideal.ofBits .f32 0x47C35000#32) :=
  ⟨100000, by simp [Ideal.ofBits, Ideal.ieee, -EReal.coe_mul]; norm_num⟩

/-! ## Arrays -/

/-- Every entry of the array is real. -/
def AllReal {ι : Type*} (v : ι → EReal) : Prop := ∀ i, IsReal (v i)

/-- An array each of whose entries is an entry of an all-real array is all real. -/
theorem AllReal.of_entries {ι κ : Type*} {v : ι → EReal} (hv : AllReal v) (u : κ → EReal)
    (h : ∀ j, ∃ i, u j = v i) : AllReal u := fun j => by
  obtain ⟨i, hi⟩ := h j; rw [hi]; exact hv i

/-- A re-indexed all-real array is all real. -/
theorem AllReal.comp {ι κ : Type*} {v : ι → EReal} (hv : AllReal v) (f : κ → ι) : AllReal (fun j => v (f j)) :=
  fun j => hv (f j)

variable {s t : Shape} {φ : FTy}

/-- A constant array of a pattern that denotes a real is all real. -/
theorem allReal_constant (b : BitVec φ.bits) (h : IsReal (Ideal.ofBits φ b)) :
    AllReal (constant (F := Ideal) s φ b) := fun _ => h

/-- The constant array of zeros is all real. -/
theorem allReal_constant_zero : AllReal (constant (F := Ideal) s .f32 0x00000000#32) :=
  allReal_constant _ isReal_ofBits_zero

/-- The constant array of ones is all real. -/
theorem allReal_constant_one : AllReal (constant (F := Ideal) s .f32 0x3F800000#32) :=
  allReal_constant _ isReal_ofBits_one

/-- A broadcast only repeats entries. -/
theorem AllReal.broadcastInDim {x : s.Idx → EReal} (hx : AllReal x) (dims : Fin s.rank → Fin t.rank)
    (h : s.BroadcastsInDim t dims) : AllReal (broadcastInDim t dims h x) := fun _ => hx _

/-- A reshape only moves entries. -/
theorem AllReal.shapeCast {x : s.Idx → EReal} (hx : AllReal x) (h : s.ShapeCasts t) :
    AllReal (shapeCast t x h) := fun _ => hx _

/-- A slice only keeps entries. -/
theorem AllReal.extractStridedSlice {x : s.Idx → EReal} (hx : AllReal x) (off : Fin s.rank → Nat)
    (h : s.Slices off t) : AllReal (extractStridedSlice t off x h) := fun _ => hx _

/-- A gather only copies operand entries. -/
theorem AllReal.gather {si : Shape} {w : Nat} {x : s.Idx → EReal} (hx : AllReal x) (d : GatherDims s si t)
    (idx : IVec si w) : AllReal (Host.gather d x idx) := fun _ => hx _

/-- A pointwise sum of all-real arrays is all real. -/
theorem AllReal.addf {x y : FVec Ideal s φ} (hx : AllReal x) (hy : AllReal y) : AllReal (addf x y) :=
  fun i => (hx i).add (hy i)

/-- A pointwise difference of all-real arrays is all real. -/
theorem AllReal.subf {x y : FVec Ideal s φ} (hx : AllReal x) (hy : AllReal y) : AllReal (subf x y) :=
  fun i => (hx i).sub (hy i)

/-- A pointwise product of all-real arrays is all real. -/
theorem AllReal.mulf {x y : FVec Ideal s φ} (hx : AllReal x) (hy : AllReal y) : AllReal (mulf x y) :=
  fun i => (hx i).mul (hy i)

/-- A pointwise maximum of all-real arrays is all real. -/
theorem AllReal.maximumf {x y : FVec Ideal s φ} (hx : AllReal x) (hy : AllReal y) : AllReal (maximumf x y) :=
  fun i => (hx i).max (hy i)

/-- A pointwise selection between all-real arrays is all real. -/
theorem AllReal.select (c : IVec s 1) {x y : s.Idx → EReal} (hx : AllReal x) (hy : AllReal y) :
    AllReal (select c x y) := fun i => (hx i).select (c i) (hy i)

/-- The host's reciprocal square root of the pointwise maximum of an all-real array with the constant one
    is all real. -/
theorem AllReal.rsqrt_max_one {x : FVec Ideal s .f32} (hx : AllReal x) :
    AllReal (Host.rsqrt (Idealize.ShloMosaic.maximumf x (constant s .f32 0x3F800000#32))) := fun i => by
  show IsReal (Ideal.rsqrt (Max.max (x i) (Ideal.ofBits .f32 0x3F800000#32)))
  rw [ofBits_one]; exact (hx i).rsqrt_max_one

/-- The host's pointwise quotient of an all-real array by an all-real array with no zero entry is all real. -/
theorem AllReal.hostDivf {x y : FVec Ideal s φ} (hx : AllReal x) (hy : AllReal y) (h0 : ∀ i, y i ≠ 0) :
    AllReal (Host.divf x y) := fun i => (hx i).div (hy i) (h0 i)

/-- An integer array converted to floats is all real. -/
theorem allReal_sitofp {w : Nat} (x : IVec s w) : AllReal (sitofp (F := Ideal) φ x) := fun i => isReal_sitofp (x i)

/-- An accumulating scatter of all-real updates into an all-real array is all real: each result entry is an
    operand entry plus a finite sum of update entries. -/
theorem AllReal.scatterAdd {si u : Shape} {w : Nat} {x : FVec Ideal s φ} {upd : FVec Ideal u φ} (hx : AllReal x)
    (hu : AllReal upd) (d : ScatterDims s si u) (idx : IVec si w) : AllReal (Host.scatterAdd d x idx upd) :=
  fun i => (hx i).add (isReal_sum _ _ fun j _ => hu j)

/-- The host's reduction by addition of an all-real array from a real initial value is all real. -/
theorem AllReal.hostReduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) :=
  fun _ => (hi _).add (isReal_sum _ _ fun i _ => hx i)

/-- A kernel's reduction by addition of an all-real array is all real. -/
theorem AllReal.reduceAdd {axes : List (Fin s.rank)} {x : s.Idx → EReal} (hx : AllReal x) (h : s.Reduces axes t) :
    AllReal (Ideal.reduceAdd h x) := fun _ => isReal_sum _ _ fun i _ => hx i

/-- A matrix product of all-real operands onto an all-real accumulator is all real: each result entry is the
    accumulator's plus a finite sum of products. -/
theorem AllReal.matmul {sl sr so : Shape} {φ₁ φ₂ : FTy} {l : FVec Ideal sl φ₁} {r : FVec Ideal sr φ₂}
    {acc : FVec Ideal so .f32} (hl : AllReal l) (hr : AllReal r) (ha : AllReal acc) (d : DotDims sl sr so)
    (prec : Option ContractPrecision) : AllReal (matmul d prec l r acc) :=
  fun j => (ha j).add (isReal_sum _ _ fun k _ => (hl _).mul (hr _))

/-- A matrix product of all-real operands onto the constant zero accumulator is all real. -/
theorem AllReal.matmul_zero {sl sr so : Shape} {φ₁ φ₂ : FTy} {l : FVec Ideal sl φ₁} {r : FVec Ideal sr φ₂}
    (hl : AllReal l) (hr : AllReal r) (d : DotDims sl sr so) (prec : Option ContractPrecision) :
    AllReal (Idealize.ShloMosaic.matmul d prec l r (constant so .f32 0x00000000#32)) :=
  AllReal.matmul hl hr allReal_constant_zero d prec

/-- The host's matrix product of all-real operands is all real. -/
theorem AllReal.dotGeneral {sl sr so : Shape} {φ₁ φ₂ : FTy} {l : FVec Ideal sl φ₁} {r : FVec Ideal sr φ₂}
    (hl : AllReal l) (hr : AllReal r) (d : DotDims sl sr so) (prec : Option ContractPrecision) :
    AllReal (Host.dotGeneral d prec l r) :=
  fun j => isReal_zero.add (isReal_sum _ _ fun k _ => (hl _).mul (hr _))

end LibRealClosure
-- ==== Proof.StagesVariance.lean ====
/-
  The reference's column mean and centred variance, read at a column.

  For an array `H` of 100000 rows and 64 columns the reference takes, of each column `j`, the mean
  `μ = (∑ H r j) / 100000` and the centred variance `(∑ (H r j - μ)²) / (100000 - 0)`, the latter under a
  selection on "100000 - 0 is positive" whose other branch is never taken. Read at a column both are sums over the
  100000 rows. When every entry of `H` is a real number the centred variance equals the mean of the squares minus
  the square of the mean, `(∑ (H r j)²) / 100000 - μ · μ`: the form in which the other program computes it.
-/
import proofs.«107830_j10685878632725_1_alg».proof.Proof.Stages
import proofs.«107830_j10685878632725_1_alg».proof.Proof.LibVariance
import proofs.«107830_j10685878632725_1_alg».proof.Proof.LibRealClosure
import Idealize.ShloMosaic.Lib.IdealHost
import Idealize.ShloMosaic.Lib.KernelVsHost

namespace Cert.ReferenceIdeal.StagesVariance

open Cert.ReferenceIdeal Cert.ReferenceIdeal.Gen Cert.ReferenceIdeal.Stages
open Idealize.ShloMosaic Idealize.ShloMosaic.ValueIdx LibRealClosure
open scoped BigOperators

/-- The rows are the axis a column's sum runs over. -/
theorem reduces_rows : S100000x64.Reduces [0] S64 := by decide

/-- Over column `c`, the index whose row is `k`. -/
theorem lift_eq (c : S64.Idx) (k : Fin 100000) : reduces_rows.lift c k = ix2 k (c 0) := by
  funext a
  match a with
  | ⟨0, _⟩ => rfl
  | ⟨1, _⟩ => rfl

/-- The sum of a column from zero, read at the column: the sum over the 100000 rows. -/
theorem columnSum_apply (X : FVec Ideal S100000x64 .f32) (c : S64.Idx) :
    Host.reduceAdd X (constant S_ .f32 0x00000000#32) reducesTo_S100000x64_S64_d0 h_S_ c
      = ∑ k : Fin 100000, X (ix2 k (c 0)) := by
  rw [hostReduceAdd_apply, Ideal.hostReduceAdd_single reducesTo_S100000x64_S64_d0 reduces_rows]
  show Ideal.ofBits .f32 0x00000000#32 + _ = _
  rw [Ideal.ofBits_zero_f32, zero_add]
  exact Finset.sum_congr rfl fun k _ => congrArg X (lift_eq c k)

/-- The column mean read at a column: the column's sum divided by the float whose pattern is `0x47C35000`. -/
theorem columnMean_apply (H : FVec Ideal S100000x64 .f32) (c : S64.Idx) :
    columnMean (F := Ideal) H c
      = Ideal.div (∑ k : Fin 100000, H (ix2 k (c 0))) (Ideal.ofBits .f32 0x47C35000#32) := by
  unfold columnMean
  rw [hostDivf_apply, columnSum_apply, broadcastInDim_scalar_apply]
  rfl

/-- The corollary with the divisor evaluated: 100000. -/
theorem columnMean_apply_real (H : FVec Ideal S100000x64 .f32) (c : S64.Idx) :
    columnMean (F := Ideal) H c = Ideal.div (∑ k : Fin 100000, H (ix2 k (c 0))) ((100000 : ℝ) : EReal) := by
  rw [columnMean_apply, LibVariance.ofBits_100000]

/-- The same at a column given by its number. -/
theorem columnMean_apply_ix1 (H : FVec Ideal S100000x64 .f32) (j : Fin 64) :
    columnMean (F := Ideal) H (ix1 j)
      = Ideal.div (∑ k : Fin 100000, H (ix2 k j)) (Ideal.ofBits .f32 0x47C35000#32) :=
  columnMean_apply H (ix1 j)

/-- A vector of 64 laid out as one row reads, at column `t` of that row, its entry `t`. -/
theorem rowOf_apply {α : Type} (y : S64.Idx → α) (t : Fin 64) :
    broadcastInDim S1x64 ![1] bcast_S64_S1x64_1 y (ix2 (0 : Fin 1) t) = y (ix1 t) := by
  refine broadcastInDim_apply ![1] bcast_S64_S1x64_1 y (ix2 (0 : Fin 1) t) (ix1 t) ?_
  intro a
  match a with
  | ⟨0, _⟩ => rfl

/-- The row of column means repeated down the 100000 rows, as the centred variance writes it (the column sums laid
    out as one row, divided by the float whose pattern is `0x47C35000`, repeated), read at row `k` and column
    `t`: the mean of column `t`. -/
theorem meanRows_apply (H : FVec Ideal S100000x64 .f32) (k : Fin 100000) (t : Fin 64) :
    broadcastInDim S100000x64 ![0, 1] bcast_S1x64_S100000x64_0_1
        (Host.divf
          (broadcastInDim S1x64 ![1] bcast_S64_S1x64_1
            (Host.reduceAdd H (constant S_ .f32 0x00000000#32) reducesTo_S100000x64_S64_d0 h_S_))
          (broadcastInDim S1x64 ![] bcast_S_S1x64 (constant S_ .f32 0x47C35000#32))) (ix2 k t)
      = Ideal.div (∑ k' : Fin 100000, H (ix2 k' t)) (Ideal.ofBits .f32 0x47C35000#32) := by
  rw [broadcastInDim_oneRow_apply, hostDivf_apply, rowOf_apply, columnSum_apply, broadcastInDim_scalar_apply]
  rfl

/-- The guard of the centred variance, "100000 less the converted integer 0 is greater than 0", read at a column:
    the one-bit word `1`. -/
theorem guard_apply (c : S64.Idx) :
    broadcastInDim S64 ![] bcast_S_S64
        (cmpf (F := Ideal) .ogt (subf (constant S_ .f32 0x47C35000#32) (sitofp .f32 (constantI S_ 32 0#32)))
          (constant S_ .f32 0x00000000#32)) c = 1#1 := by
  rw [broadcastInDim_scalar_apply]
  exact LibVariance.guard_eq_one

/-- The count the centred variance divides by, 100000 less the converted integer 0, read at a column: 100000. -/
theorem count_apply (c : S64.Idx) :
    broadcastInDim S64 ![] bcast_S_S64
        (subf (F := Ideal) (constant S_ .f32 0x47C35000#32) (sitofp .f32 (constantI S_ 32 0#32))) c
      = ((100000 : ℝ) : EReal) := by
  rw [broadcastInDim_scalar_apply]
  exact LibVariance.hundredThousand_sub_zero

/-- The centred variance read at a column, as the reference computes it: the sum over the rows of the squared
    deviations from the column's mean, divided by 100000. No hypothesis on the entries. -/
theorem centredVariance_apply (H : FVec Ideal S100000x64 .f32) (c : S64.Idx) :
    centredVariance (F := Ideal) H c
      = Ideal.div
          (∑ k : Fin 100000,
            (H (ix2 k (c 0)) - Ideal.div (∑ k' : Fin 100000, H (ix2 k' (c 0))) (Ideal.ofBits .f32 0x47C35000#32))
              * (H (ix2 k (c 0)) - Ideal.div (∑ k' : Fin 100000, H (ix2 k' (c 0))) (Ideal.ofBits .f32 0x47C35000#32)))
          ((100000 : ℝ) : EReal) := by
  unfold centredVariance varianceOf
  rw [select_apply, guard_apply, select_one, hostDivf_apply, count_apply, columnSum_apply]
  refine congrArg (fun s => Ideal.div s ((100000 : ℝ) : EReal)) (Finset.sum_congr rfl fun k _ => ?_)
  rw [mulf_apply, subf_apply, meanRows_apply H k (c 0)]

/-- When every entry is real, the centred variance at a column is the mean of the squares minus the square of the
    mean, every quotient by the float whose pattern is `0x47C35000` (100000): the form the other program computes. -/
theorem centredVariance_eq (H : FVec Ideal S100000x64 .f32) (hH : AllReal H) (c : S64.Idx) :
    centredVariance (F := Ideal) H c
      = Ideal.div (∑ k : Fin 100000, H (ix2 k (c 0)) * H (ix2 k (c 0))) (Ideal.ofBits .f32 0x47C35000#32)
        - Ideal.div (∑ k : Fin 100000, H (ix2 k (c 0))) (Ideal.ofBits .f32 0x47C35000#32)
          * Ideal.div (∑ k : Fin 100000, H (ix2 k (c 0))) (Ideal.ofBits .f32 0x47C35000#32) := by
  rw [centredVariance_apply, LibVariance.ofBits_100000]
  exact LibVariance.var_ereal (fun k : Fin 100000 => H (ix2 k (c 0))) (fun k => hH _) (by norm_num) (by simp)

/-- The same at a column given by its number. -/
theorem centredVariance_eq_ix1 (H : FVec Ideal S100000x64 .f32) (hH : AllReal H) (j : Fin 64) :
    centredVariance (F := Ideal) H (ix1 j)
      = Ideal.div (∑ k : Fin 100000, H (ix2 k j) * H (ix2 k j)) (Ideal.ofBits .f32 0x47C35000#32)
        - Ideal.div (∑ k : Fin 100000, H (ix2 k j)) (Ideal.ofBits .f32 0x47C35000#32)
          * Ideal.div (∑ k : Fin 100000, H (ix2 k j)) (Ideal.ofBits .f32 0x47C35000#32) :=
  centredVariance_eq H hH (ix1 j)

/-- The same in terms of the column mean. -/
theorem centredVariance_eq_mean (H : FVec Ideal S100000x64 .f32) (hH : AllReal H) (c : S64.Idx) :
    centredVariance (F := Ideal) H c
      = Ideal.div (∑ k : Fin 100000, H (ix2 k (c 0)) * H (ix2 k (c 0))) (Ideal.ofBits .f32 0x47C35000#32)
        - columnMean (F := Ideal) H c * columnMean (F := Ideal) H c := by
  rw [centredVariance_eq H hH, columnMean_apply]

/-- The corollary with the divisor evaluated: 100000. -/
theorem centredVariance_eq_real (H : FVec Ideal S100000x64 .f32) (hH : AllReal H) (c : S64.Idx) :
    centredVariance (F := Ideal) H c
      = Ideal.div (∑ k : Fin 100000, H (ix2 k (c 0)) * H (ix2 k (c 0))) ((100000 : ℝ) : EReal)
        - Ideal.div (∑ k : Fin 100000, H (ix2 k (c 0))) ((100000 : ℝ) : EReal)
          * Ideal.div (∑ k : Fin 100000, H (ix2 k (c 0))) ((100000 : ℝ) : EReal) := by
  rw [centredVariance_eq H hH, LibVariance.ofBits_100000]

end Cert.ReferenceIdeal.StagesVariance
-- ==== Proof.OutAt.lean ====
/-
  The reference's result read at an entry, in the shape the other program computes it.

  The reference normalises the hidden array `H` (the output of the two convolution layers) column by column:
  at row `r` and column `j` its result is `(H r j - μ) · rsqrt (v + ε) · γ j + β j`, with `μ` the mean of column
  `j` and `v` its centred variance. When every entry of `H` is a real number the centred variance is the mean of
  the squares minus the square of the mean, so the result is the same expression with
  `v = (∑ (H k j)²) / n - μ · μ`, where `n` is the float 100000 and `μ = (∑ H k j) / n`.
-/
import proofs.«107830_j10685878632725_1_alg».proof.Proof.Stages
import proofs.«107830_j10685878632725_1_alg».proof.Proof.StagesAt
import proofs.«107830_j10685878632725_1_alg».proof.Proof.StagesVariance
import proofs.«107830_j10685878632725_1_alg».proof.Proof.LibRealClosure

namespace Cert.ReferenceIdeal.OutAt

open Cert.ReferenceIdeal Cert.ReferenceIdeal.Gen
open Idealize.ShloMosaic Idealize.ShloMosaic.ValueIdx LibRealClosure
open scoped BigOperators

/-- The reference's result at row `r` and column `j`, when the hidden array has real entries: the entry less the
    column's mean, times the reciprocal square root of (the mean of the column's squares less the square of its
    mean, plus epsilon), times gamma, plus beta; every quotient by the float whose pattern is `0x47C35000`. -/
theorem out_apply (emb : FVec Ideal S100000x64 .f32) (W1 : FVec Ideal S64x128 .f32) (b1 : FVec Ideal S128 .f32)
    (W2 : FVec Ideal S128x64 .f32) (b2 gamma beta : FVec Ideal S64 .f32) (e : IVec S2x1600000 32)
    (hH : AllReal (Stages.hidden (F := Ideal) emb W1 b1 W2 b2 e)) (r : Fin 100000) (j : Fin 64) :
    Stages.out (F := Ideal) emb W1 b1 W2 b2 gamma beta e (ix2 r j)
      = ((Stages.hidden (F := Ideal) emb W1 b1 W2 b2 e (ix2 r j)
            - Ideal.div (∑ k : Fin 100000, Stages.hidden (F := Ideal) emb W1 b1 W2 b2 e (ix2 k j))
                (Ideal.ofBits .f32 0x47C35000#32))
          * Ideal.rsqrt
              ((Ideal.div
                    (∑ k : Fin 100000, Stages.hidden (F := Ideal) emb W1 b1 W2 b2 e (ix2 k j)
                      * Stages.hidden (F := Ideal) emb W1 b1 W2 b2 e (ix2 k j))
                    (Ideal.ofBits .f32 0x47C35000#32)
                  - Ideal.div (∑ k : Fin 100000, Stages.hidden (F := Ideal) emb W1 b1 W2 b2 e (ix2 k j))
                      (Ideal.ofBits .f32 0x47C35000#32)
                    * Ideal.div (∑ k : Fin 100000, Stages.hidden (F := Ideal) emb W1 b1 W2 b2 e (ix2 k j))
                      (Ideal.ofBits .f32 0x47C35000#32))
                + Ideal.ofBits .f32 0x3727C5AC#32))
          * gamma (ix1 j)
        + beta (ix1 j) := by
  unfold Stages.out
  rw [StagesAt.normalise_apply, StagesVariance.columnMean_apply_ix1,
    StagesVariance.centredVariance_eq_ix1 _ hH]

/-- The same with the hidden array given a name: for any array `H` equal to the hidden array. -/
theorem out_apply_of_eq (emb : FVec Ideal S100000x64 .f32) (W1 : FVec Ideal S64x128 .f32) (b1 : FVec Ideal S128 .f32)
    (W2 : FVec Ideal S128x64 .f32) (b2 gamma beta : FVec Ideal S64 .f32) (e : IVec S2x1600000 32)
    (H : FVec Ideal S100000x64 .f32) (hdef : H = Stages.hidden (F := Ideal) emb W1 b1 W2 b2 e) (hH : AllReal H)
    (r : Fin 100000) (j : Fin 64) :
    Stages.out (F := Ideal) emb W1 b1 W2 b2 gamma beta e (ix2 r j)
      = ((H (ix2 r j) - Ideal.div (∑ k : Fin 100000, H (ix2 k j)) (Ideal.ofBits .f32 0x47C35000#32))
          * Ideal.rsqrt
              ((Ideal.div (∑ k : Fin 100000, H (ix2 k j) * H (ix2 k j)) (Ideal.ofBits .f32 0x47C35000#32)
                  - Ideal.div (∑ k : Fin 100000, H (ix2 k j)) (Ideal.ofBits .f32 0x47C35000#32)
                    * Ideal.div (∑ k : Fin 100000, H (ix2 k j)) (Ideal.ofBits .f32 0x47C35000#32))
                + Ideal.ofBits .f32 0x3727C5AC#32))
          * gamma (ix1 j)
        + beta (ix1 j) := by
  subst hdef
  exact out_apply emb W1 b1 W2 b2 gamma beta e hH r j

end Cert.ReferenceIdeal.OutAt
-- ==== Proof.StagesReal.lean ====
/-
  The stages of the reference computation keep real entries real.

  At the ideal float values every stage of the two convolution layers is built from operations under which
  "every entry is a real number" is preserved: the degree is a sum of ones into zeros; its inverse square root
  is taken of a real that is at least one, or is zero; an edge's weight is a product of two of those; a layer
  gathers rows, multiplies by the weights, adds up at the targets into zeros, and adds a bias, after a matrix
  product whose entries are finite sums of products. So the edge weights are real whatever the edge array is,
  and the hidden array after the second layer has real entries whenever the embedding table, the two weight
  matrices and the two biases have. That is what the rewriting of the variance needs, column by column.
-/
import proofs.«107830_j10685878632725_1_alg».proof.Proof.Stages
import proofs.«107830_j10685878632725_1_alg».proof.Proof.LibRealClosure

namespace Cert.ReferenceIdeal.StagesReal

open Cert.ReferenceIdeal Cert.ReferenceIdeal.Gen Cert.ReferenceIdeal.Stages Idealize.ShloMosaic LibRealClosure

/-- The degree vector has real entries: each is zero plus a finite sum of ones. -/
theorem allReal_degree (col : IVec S1700000 32) : AllReal (degree (F := Ideal) col) := by
  unfold degree
  exact AllReal.scatterAdd (AllReal.broadcastInDim allReal_constant_zero _ _)
    (AllReal.broadcastInDim allReal_constant_one _ _) _ _

/-- The inverse square root of a real degree vector has real entries: where it is not zero it is the
    reciprocal square root of a real that is at least one. -/
theorem allReal_invSqrt {deg : FVec Ideal S100000 .f32} (h : AllReal deg) : AllReal (invSqrt (F := Ideal) deg) := by
  unfold invSqrt
  refine AllReal.select _ (fun i => ?_) (AllReal.broadcastInDim allReal_constant_zero _ _)
  show IsReal (Ideal.rsqrt (Max.max (deg i) (Ideal.ofBits .f32 0x3F800000#32)))
  rw [ofBits_one]
  exact (h i).rsqrt_max_one

/-- The per-edge weight has real entries when the inverse square roots have: a product of two of them. -/
theorem allReal_edgeWeight {dis : FVec Ideal S100000 .f32} (h : AllReal dis) (row col : IVec S1700000 32) :
    AllReal (edgeWeight (F := Ideal) dis row col) := by
  unfold edgeWeight
  exact AllReal.mulf (AllReal.gather h _ _) (AllReal.gather h _ _)

/-- The edge weights have real entries, whatever the edge array. -/
theorem allReal_weights (e : IVec S2x1600000 32) : AllReal (weights (F := Ideal) e) := by
  unfold weights
  exact allReal_edgeWeight (allReal_invSqrt (allReal_degree _)) _ _

/-- The aggregation 128 wide keeps real entries: gathered rows times real weights, summed into zeros, plus a
    real bias. -/
theorem allReal_aggregate128 (row col : IVec S1700000 32) {weight : FVec Ideal S1700000 .f32}
    {P : FVec Ideal S100000x128 .f32} {b : FVec Ideal S128 .f32} (hw : AllReal weight) (hP : AllReal P)
    (hb : AllReal b) : AllReal (aggregate128 (F := Ideal) row col weight P b) := by
  unfold aggregate128
  exact AllReal.addf
    (AllReal.scatterAdd (AllReal.broadcastInDim allReal_constant_zero _ _)
      (AllReal.mulf (AllReal.gather hP _ _) (AllReal.broadcastInDim (AllReal.broadcastInDim hw _ _) _ _)) _ _)
    (AllReal.broadcastInDim (AllReal.broadcastInDim hb _ _) _ _)

/-- The aggregation 64 wide keeps real entries, as the one 128 wide. -/
theorem allReal_aggregate64 (row col : IVec S1700000 32) {weight : FVec Ideal S1700000 .f32}
    {P : FVec Ideal S100000x64 .f32} {b : FVec Ideal S64 .f32} (hw : AllReal weight) (hP : AllReal P)
    (hb : AllReal b) : AllReal (aggregate64 (F := Ideal) row col weight P b) := by
  unfold aggregate64
  exact AllReal.addf
    (AllReal.scatterAdd (AllReal.broadcastInDim allReal_constant_zero _ _)
      (AllReal.mulf (AllReal.gather hP _ _) (AllReal.broadcastInDim (AllReal.broadcastInDim hw _ _) _ _)) _ _)
    (AllReal.broadcastInDim (AllReal.broadcastInDim hb _ _) _ _)

/-- The first layer keeps real entries: the matrix product's entries are finite sums of products. -/
theorem allReal_layer1 (row col : IVec S1700000 32) {weight : FVec Ideal S1700000 .f32}
    {X : FVec Ideal S100000x64 .f32} {W : FVec Ideal S64x128 .f32} {b : FVec Ideal S128 .f32} (hw : AllReal weight)
    (hX : AllReal X) (hW : AllReal W) (hb : AllReal b) : AllReal (layer1 (F := Ideal) row col weight X W b) := by
  unfold layer1
  exact allReal_aggregate128 row col hw (AllReal.dotGeneral hX hW _ _) hb

/-- The second layer keeps real entries, as the first. -/
theorem allReal_layer2 (row col : IVec S1700000 32) {weight : FVec Ideal S1700000 .f32}
    {X : FVec Ideal S100000x128 .f32} {W : FVec Ideal S128x64 .f32} {b : FVec Ideal S64 .f32} (hw : AllReal weight)
    (hX : AllReal X) (hW : AllReal W) (hb : AllReal b) : AllReal (layer2 (F := Ideal) row col weight X W b) := by
  unfold layer2
  exact allReal_aggregate64 row col hw (AllReal.dotGeneral hX hW _ _) hb

/-- The hidden array after the two layers has real entries whenever the embedding table, the two weight matrices
    and the two biases have, whatever the edge array. -/
theorem allReal_hidden {emb : FVec Ideal S100000x64 .f32} {W1 : FVec Ideal S64x128 .f32} {b1 : FVec Ideal S128 .f32}
    {W2 : FVec Ideal S128x64 .f32} {b2 : FVec Ideal S64 .f32} (hemb : AllReal emb) (hW1 : AllReal W1)
    (hb1 : AllReal b1) (hW2 : AllReal W2) (hb2 : AllReal b2) (e : IVec S2x1600000 32) :
    AllReal (Stages.hidden (F := Ideal) emb W1 b1 W2 b2 e) := by
  unfold Stages.hidden
  exact allReal_layer2 _ _ (allReal_weights e)
    (allReal_layer1 _ _ (allReal_weights e) hemb hW1 hb1) hW2 hb2

end Cert.ReferenceIdeal.StagesReal
-- ==== Proof.PreReal.lean ====
/-
  The precondition read entry by entry.

  The claim's precondition is one bit: for each of the seven float arguments, the test "the absolute value of
  the entry is below infinity" is taken at every entry, the answers of one argument are combined by `and` into
  one bit, and the seven bits are combined by `and` again. A conjunction of bits is one exactly when every bit
  is, so the precondition says that every entry of every float argument passes the test; and an extended real
  whose absolute value is below infinity is a real number. Hence: under the precondition every float argument
  has real entries.
-/
import proofs.«107830_j10685878632725_1_alg».proof.Pre_finite_inputs
import proofs.«107830_j10685878632725_1_alg».proof.Proof.LibRealClosure
import Idealize.ShloMosaic.PureOps.Reduce

namespace Cert.PreReal

open Idealize.ShloMosaic LibRealClosure

/-! ## A conjunction of bits -/

/-- The `and` of two one-bit words is `1` exactly when both are. -/
theorem andi_eq_one {a b : BitVec 1} : IntOp.andi a b = 1#1 ↔ a = 1#1 ∧ b = 1#1 := by
  unfold IntOp.andi; revert a b; decide

/-- A left fold of `and` over a list of one-bit words that ends at `1` started at `1` and met only `1`s. -/
theorem foldl_andi_eq_one {ι : Type} (x : ι → BitVec 1) (l : List ι) (a : BitVec 1)
    (h : l.foldl (fun r i => IntOp.andi r (x i)) a = 1#1) : a = 1#1 ∧ ∀ i ∈ l, x i = 1#1 := by
  induction l generalizing a with
  | nil => exact ⟨h, fun _ hi => absurd hi List.not_mem_nil⟩
  | cons b l ih =>
    rw [List.foldl_cons] at h
    obtain ⟨hab, hl⟩ := ih _ h
    obtain ⟨ha, hb⟩ := andi_eq_one.mp hab
    refine ⟨ha, fun i hi => ?_⟩
    rcases List.mem_cons.mp hi with rfl | hi
    · exact hb
    · exact hl i hi

/-- If a reduction by `and` of an array of one-bit words answers `1` at a result index, the array is `1` at
    every index that reduces to it. -/
theorem reduce_andi_eq_one {s t u : Shape} {axes : List (Fin s.rank)} (x : IVec s 1) (init : u.Idx → BitVec 1)
    (h : s.ReducesTo axes t) (hu : 0 < u.numel) (j : t.Idx)
    (hone : Host.reduce IntOp.andi x init h hu j = 1#1) (i : s.Idx) (hi : h.drop i = j) : x i = 1#1 := by
  rw [Host.reduce_eq_foldl] at hone
  refine (foldl_andi_eq_one x _ _ hone).2 i ?_
  rw [List.mem_filter]
  exact ⟨List.mem_map.mpr ⟨s.rowMajor i, List.mem_finRange _, s.rowMajor.symm_apply_apply i⟩, decide_eq_true hi⟩

/-! ## The test on one argument -/

/-- If the test "the absolute value is below infinity", taken at every entry of an array and combined by `and`
    into a single bit, answers `1`, then every entry of the array is real. -/
theorem allReal_of_all_finite {s t u v : Shape} {axes : List (Fin s.rank)} (a : FVec Ideal s .f32)
    (dims : Fin v.rank → Fin s.rank) (hb : v.BroadcastsInDim s dims) (init : u.Idx → BitVec 1)
    (h : s.ReducesTo axes t) (hu : 0 < u.numel) (j : t.Idx) (ht : t.rank = 0)
    (hone : Host.reduce IntOp.andi (cmpf .olt (Host.absf a) (broadcastInDim s dims hb (constant v .f32 0x7F800000#32)))
      init h hu j = 1#1) : AllReal a := fun i =>
  isReal_of_abs_lt_inf
    (reduce_andi_eq_one _ init h hu j hone i (funext fun b => (b.cast ht).elim0))

/-! ## The whole precondition -/

open Cert.Pre_finite_inputs in
/-- Under the precondition every entry of each of the seven float arguments is a real number. -/
theorem pre_allReal [Cert.Pre_finite_inputs.Facts] (a0 : FVec Ideal S100000x64 .f32) (a1 : FVec Ideal S64x128 .f32)
    (a2 : FVec Ideal S128 .f32) (a3 : FVec Ideal S128x64 .f32) (a4 : FVec Ideal S64 .f32) (a5 : FVec Ideal S64 .f32)
    (a6 : FVec Ideal S64 .f32) (a7 : IVec S2x1600000 32)
    (h : Cert.Pre_finite_inputs.fn (F := Ideal) a0 a1 a2 a3 a4 a5 a6 a7 = fun _ => 1#1) :
    AllReal a0 ∧ AllReal a1 ∧ AllReal a2 ∧ AllReal a3 ∧ AllReal a4 ∧ AllReal a5 ∧ AllReal a6 := by
  have hj := congrFun h (fun b => b.elim0)
  simp only [Cert.Pre_finite_inputs.fn, Cert.Pre_finite_inputs.fn_part1, Idealize.ShloMosaic.andi, andi_eq_one] at hj
  obtain ⟨⟨⟨⟨⟨⟨h0, h1⟩, h2⟩, h3⟩, h4⟩, h5⟩, h6⟩ := hj
  exact ⟨allReal_of_all_finite _ _ _ _ _ _ _ rfl h0, allReal_of_all_finite _ _ _ _ _ _ _ rfl h1,
    allReal_of_all_finite _ _ _ _ _ _ _ rfl h2, allReal_of_all_finite _ _ _ _ _ _ _ rfl h3,
    allReal_of_all_finite _ _ _ _ _ _ _ rfl h4, allReal_of_all_finite _ _ _ _ _ _ _ rfl h5,
    allReal_of_all_finite _ _ _ _ _ _ _ rfl h6⟩

end Cert.PreReal
-- ==== Proof.lean ====
/-
  The certificate of the two-layer graph convolution with batch normalisation.

  Five claims. The three frames: each program runs to the end, faults nowhere and leaves its eight argument arrays as
  launched — for the kernel program (at the word-level instance and at the ideal one) because @main is ten items,
  host stretches and four kernel regions, each run between known contents of the buffers; for the reference because
  its @main is a straight line of host operations. The idealized kernel program is the kernel program's own text read at
  the ideal instance (no rewrite was applied), so that claim is trivial. And at the ideal instance the two programs
  return the same array: both compute h = the second layer's output and then ((h − μ)·rsqrt(σ² + ε))·γ + β column by
  column; the kernel program's matrix products, tiled by row blocks, are the reference's whole products; its column
  sums over ten blocks are the whole column sums; and its variance Σh²/n − μ² is the reference's Σ(h − μ)²/n because,
  the inputs being finite, every entry of h is a real number.
-/
import proofs.«107830_j10685878632725_1_alg».proof.Defs
import proofs.«107830_j10685878632725_1_alg».proof.Proof.Gen.Kernel
import proofs.«107830_j10685878632725_1_alg».proof.Proof.Gen.KernelIdeal
import proofs.«107830_j10685878632725_1_alg».proof.Proof.Gen.ReferenceIdeal
import proofs.«107830_j10685878632725_1_alg».proof.Proof.Gen.Pre_finite_inputs
import proofs.«107830_j10685878632725_1_alg».proof.Proof.Bits.Run
import proofs.«107830_j10685878632725_1_alg».proof.Proof.Run
import proofs.«107830_j10685878632725_1_alg».proof.Proof.ReferenceRun
import proofs.«107830_j10685878632725_1_alg».proof.Proof.StatsValue
import proofs.«107830_j10685878632725_1_alg».proof.Proof.ResultValue
import proofs.«107830_j10685878632725_1_alg».proof.Proof.HiddenValue
import proofs.«107830_j10685878632725_1_alg».proof.Proof.OutAt
import proofs.«107830_j10685878632725_1_alg».proof.Proof.StagesReal
import proofs.«107830_j10685878632725_1_alg».proof.Proof.PreReal

noncomputable section

namespace Cert.Proof

open Idealize.ShloMosaic Idealize.ShloMosaic.TcCoe Idealize.SL.Sem

theorem frame_kernel : Cert.frame_Kernel := fun m ρ _ => Cert.Kernel.Run.frame m ρ
theorem frame_kernel_ideal : Cert.frame_KernelIdeal := fun m ρ _ => Cert.KernelIdeal.Run.frame m ρ
theorem frame_reference : Cert.frame_ReferenceIdeal := fun m ρ _ =>
  (θ_run Cert.ReferenceIdeal.defs _ _).mono (fun _ h c => (h c).2) (Cert.ReferenceIdeal.Hand.run (F := Ideal) m ρ)

/-- The ideal pass rewrote nothing: the claim is `True`. -/
theorem preserves : Cert.preserves_Kernel_KernelIdeal := trivial

/-! ## The kernel program's result is the reference's function of the arguments -/

section Bridge

open Cert.KernelIdeal Cert.KernelIdeal.Gen Idealize.ShloMosaic.ValueIdx

variable (m : (ℓ : Loc Cert.KernelIdeal.nD Cert.KernelIdeal.τ Cert.KernelIdeal.sig) → Buf (Elt Ideal) ℓ)

/-- Region 2's first output row, at column j: the sum of column j of the second layer's output over all rows. -/
theorem sums_at (c : Dev Cert.KernelIdeal.nD) (j : Fin 64) :
    ResultValue.sums m c (ix2 (0 : Fin 1) j) = ∑ r : Fin 100000, ResultValue.hidden m c (ix2 r j) := by
  show ((Run.B8 m c (Proc.devRef .tc main_v66_0)) : S1x64.Idx → Elt Ideal .f32) (ix2 (0 : Fin 1) j) = _
  rw [show Run.B8 m c (Proc.devRef .tc main_v66_0) = (Stats.dat (Run.E7 m) c).arrAt 1 cfg2.N from Run.B8_arr m c 1,
    StatsValue.final_sums]
  exact StatsValue.sums_apply (Run.E7 m) c 0 j

/-- Region 2's second output row, at column j: the sum of the squares of column j over all rows. -/
theorem squares_at (c : Dev Cert.KernelIdeal.nD) (j : Fin 64) :
    ResultValue.squares m c (ix2 (0 : Fin 1) j)
      = ∑ r : Fin 100000, ResultValue.hidden m c (ix2 r j) * ResultValue.hidden m c (ix2 r j) := by
  show ((Run.B8 m c (Proc.devRef .tc main_v66_1)) : S1x64.Idx → Elt Ideal .f32) (ix2 (0 : Fin 1) j) = _
  rw [show Run.B8 m c (Proc.devRef .tc main_v66_1) = (Stats.dat (Run.E7 m) c).arrAt 2 cfg2.N from Run.B8_arr m c 2,
    StatsValue.final_squares]
  exact StatsValue.squares_apply (Run.E7 m) c 0 j

/-- Under the precondition every float argument has real entries, hence so has the second layer's output h; then
    entry (r, j) of both results is ((h(r,j) − μ_j)·rsqrt(σ²_j + ε))·γ_j + β_j with μ_j = Σ_r h(r,j)/n and
    σ²_j = Σ_r h(r,j)²/n − μ_j², the reference's centred variance being that for real entries. -/
theorem kernel_result (hpre : Cert.Pre_KernelIdeal m) (c : Dev Cert.KernelIdeal.nD) :
    Cert.KernelIdeal.Run.result m c = Cert.ReferenceIdeal.Stages.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  obtain ⟨h0, h1, h2, h3, h4, -, -⟩ := Cert.PreReal.pre_allReal _ _ _ _ _ _ _ _ (hpre c)
  have hdef := HiddenValue.hidden_eq m c
  have hH : LibRealClosure.AllReal (ResultValue.hidden m c) := by
    rw [show ResultValue.hidden m c = _ from hdef]
    exact Cert.ReferenceIdeal.StagesReal.allReal_hidden h0 h1 h2 h3 h4 _
  show (Run.result m c : S100000x64.Idx → Elt Ideal .f32) = _
  funext i
  obtain ⟨r, j, rfl⟩ : ∃ (r : Fin 100000) (j : Fin 64), i = ix2 r j := ⟨i 0, i 1, eq_ix2 i⟩
  rw [Cert.ReferenceIdeal.OutAt.out_apply_of_eq _ _ _ _ _ _ _ _ (ResultValue.hidden m c) hdef hH r j,
    ResultValue.result_apply m c r j]
  unfold ResultValue.varianceAt ResultValue.meanAt
  rw [sums_at m c j, squares_at m c j]

end Bridge

/-- Both programs run from memories that agree on the arguments; the kernel program's result array is the
    reference's function of those arguments. -/
theorem algebraic : Cert.algebraic_KernelIdeal_ReferenceIdeal := by
  intro m ρ m' ρ' hpre hagree
  refine ⟨fun c => Cert.KernelIdeal.Run.result m c, Cert.KernelIdeal.Run.run_result m ρ, ?_⟩
  refine (θ_run Cert.ReferenceIdeal.defs _ _).mono (fun _ h c => ⟨(h c).1.trans ?_, (h c).2⟩)
    (Cert.ReferenceIdeal.Hand.run (F := Ideal) m' ρ')
  unfold Cert.ReferenceIdeal.Hand.result
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (kernel_result m hpre c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
